-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v74_0)) (v1 : (c : Dev Cert.KernelIdeal.nD) → Buf (Elt Ideal) ((c.tc : Thread Cert.KernelIdeal.nD Cert.KernelIdeal.τ).loc Cert.KernelIdeal.main_v96)) (v2 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74_0) = v0 c
          ∧ r.2.mem ((c.tc : Thread Cert.KernelIdeal.nD Cert.KernelIdeal.τ).loc Cert.KernelIdeal.main_v96) = v1 c
          ∧ r.2.mem ((c.tc : Thread Cert.KernelIdeal.nD Cert.KernelIdeal.τ).loc Cert.KernelIdeal.main_v113) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v133) = v1 c
          ∧ r.2.mem ((c.tc : Thread Cert.ReferenceIdeal.nD Cert.ReferenceIdeal.τ).loc Cert.ReferenceIdeal.main_v138) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S2x200000 : Shape := ⟨2, ![2, 200000]⟩
abbrev S256x128 : Shape := ⟨2, ![256, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S256x1 : Shape := ⟨2, ![256, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg10 : FVec F S256x1 .f32) (main_arg11 : FVec F S1 .f32) (main_v33 : IVec S_ 1) : IVec S_ 1 :=
  let main_v34 : FVec F S256x1 .f32 := Host.absf main_arg10
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S1 .f32 := Host.absf main_arg11
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg7 : FVec F S128 .f32) (main_arg8 : FVec F S128x10 .f32) (main_arg9 : FVec F S10 .f32) (main_arg10 : FVec F S256x1 .f32) (main_arg11 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x10 .f32 := Host.absf main_arg8
  let main_cst_8 : FVec F S_ .f32 := constant S_ .f32 0x7F800000#32
  let main_v25 : FVec F S128x10 .f32 := broadcastInDim S128x10 ![] bcast_S_S128x10 main_cst_8
  let main_v26 : IVec S128x10 1 := cmpf .olt main_v24 main_v25
  let main_c_9 : IVec S_ 1 := constantI S_ 1 1#1
  let main_v27 : IVec S_ 1 := (fun x v => Host.reduce IntOp.andi x v reducesTo_S128x10_S_d0_1 h_S_) main_v26 main_c_9
  let main_v28 : IVec S_ 1 := andi main_v23 main_v27
  let main_v29 : FVec F S10 .f32 := Host.absf main_arg9
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  fn_part2 (F := F) main_arg10 main_arg11 main_v33

def fn {F : FTy → Type} [FloatOps F] (main_arg0 : FVec F S100000x256 .f32) (main_arg1 : IVec S2x1600000 32) (main_arg2 : IVec S2x200000 32) (main_arg3 : IVec S2x200000 32) (main_arg4 : FVec F S256x128 .f32) (main_arg5 : FVec F S128 .f32) (main_arg6 : FVec F S128x128 .f32) (main_arg7 : FVec F S128 .f32) (main_arg8 : FVec F S128x10 .f32) (main_arg9 : FVec F S10 .f32) (main_arg10 : FVec F S256x1 .f32) (main_arg11 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg4
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_v13 main_v16
-- ==== Kernel.lean ====
abbrev S100000x256 : Shape := ⟨2, ![100000, 256]⟩
abbrev S2x1600000 : Shape := ⟨2, ![2, 1600000]⟩
abbrev S2x200000 : Shape := ⟨2, ![2, 200000]⟩
abbrev S256x128 : Shape := ⟨2, ![256, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S256x1 : Shape := ⟨2, ![256, 1]⟩
abbrev S1 : Shape := ⟨1, ![1]⟩
abbrev S1x1600000 : Shape := ⟨2, ![1, 1600000]⟩
abbrev S1600000 : Shape := ⟨1, ![1600000]⟩
abbrev S1x200000 : Shape := ⟨2, ![1, 200000]⟩
abbrev S200000 : Shape := ⟨1, ![200000]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S5000x256 : Shape := ⟨2, ![5000, 256]⟩
abbrev S5000x128 : Shape := ⟨2, ![5000, 128]⟩
abbrev S100000x1 : Shape := ⟨2, ![100000, 1]⟩
abbrev S1600000x128 : Shape := ⟨2, ![1600000, 128]⟩
abbrev S1x128 : Shape := ⟨2, ![1, 128]⟩
abbrev S128x1 : Shape := ⟨2, ![128, 1]⟩
abbrev S128x2 : Shape := ⟨2, ![128, 2]⟩
abbrev S1x10 : Shape := ⟨2, ![1, 10]⟩
abbrev S100000x10 : Shape := ⟨2, ![100000, 10]⟩
abbrev S100000x2 : Shape := ⟨2, ![100000, 2]⟩
abbrev S5000x10 : Shape := ⟨2, ![5000, 10]⟩
abbrev S5000x2 : Shape := ⟨2, ![5000, 2]⟩
abbrev S5000 : Shape := ⟨1, ![5000]⟩
abbrev S5000x1 : Shape := ⟨2, ![5000, 1]⟩
abbrev S200000x1 : Shape := ⟨2, ![200000, 1]⟩

abbrev nBuf : Space → Nat
  | .hbm => 146
  | .vmem => 19
  | .smem => 0
  | _ => 0

abbrev hbmTy0_0 (i : Nat) : BufTy := match i % 128 with
  | 0 => ⟨S100000x256, .f32⟩
  | 1 => ⟨S2x1600000, .i32⟩
  | 2 => ⟨S2x200000, .i32⟩
  | 3 => ⟨S2x200000, .i32⟩
  | 4 => ⟨S256x128, .f32⟩
  | 5 => ⟨S128, .f32⟩
  | 6 => ⟨S128x128, .f32⟩
  | 7 => ⟨S128, .f32⟩
  | 8 => ⟨S128x10, .f32⟩
  | 9 => ⟨S10, .f32⟩
  | 10 => ⟨S256x1, .f32⟩
  | 11 => ⟨S1, .f32⟩
  | 12 => ⟨S1x1600000, .i32⟩
  | 13 => ⟨S1600000, .i32⟩
  | 14 => ⟨S1x1600000, .i32⟩
  | 15 => ⟨S1600000, .i32⟩
  | 16 => ⟨S1x200000, .i32⟩
  | 17 => ⟨S200000, .i32⟩
  | 18 => ⟨S1x200000, .i32⟩
  | 19 => ⟨S200000, .i32⟩
  | 20 => ⟨S1x200000, .i32⟩
  | 21 => ⟨S200000, .i32⟩
  | 22 => ⟨S1x200000, .i32⟩
  | 23 => ⟨S200000, .i32⟩
  | 24 => ⟨S_, .f32⟩
  | 25 => ⟨S1600000, .f32⟩
  | 26 => ⟨S_, .f32⟩
  | 27 => ⟨S100000, .f32⟩
  | 28 => ⟨S1600000x1, .i32⟩
  | 29 => ⟨S100000, .f32⟩
  | 30 => ⟨S_, .f32⟩
  | 31 => ⟨S100000, .f32⟩
  | 32 => ⟨S100000, .f32⟩
  | 33 => ⟨S100000, .f32⟩
  | 34 => ⟨S100000x128, .f32⟩
  | 35 => ⟨S100000x1, .f32⟩
  | 36 => ⟨S100000x128, .f32⟩
  | 37 => ⟨S100000x128, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x128, .f32⟩
  | 47 => ⟨S_, .f32⟩
  | 48 => ⟨S100000x128, .f32⟩
  | 49 => ⟨S1600000x1, .i32⟩
  | 50 => ⟨S100000x128, .f32⟩
  | 51 => ⟨S100000x1, .f32⟩
  | 52 => ⟨S100000x128, .f32⟩
  | 53 => ⟨S100000x128, .f32⟩
  | 54 => ⟨S100000, .f32⟩
  | 55 => ⟨S100000x1, .f32⟩
  | 56 => ⟨S100000x128, .f32⟩
  | 57 => ⟨S100000x128, .f32⟩
  | 58 => ⟨S100000x128, .f32⟩
  | 59 => ⟨S1x128, .f32⟩
  | 60 => ⟨S100000x128, .f32⟩
  | 61 => ⟨S100000x128, .f32⟩
  | 62 => ⟨S_, .f32⟩
  | 63 => ⟨S100000x128, .f32⟩
  | 64 => ⟨S100000x128, .f32⟩
  | 65 => ⟨S100000x128, .f32⟩
  | 66 => ⟨S100000x1, .f32⟩
  | 67 => ⟨S100000x128, .f32⟩
  | 68 => ⟨S100000x128, .f32⟩
  | 69 => ⟨S_, .i32⟩
  | 70 => ⟨S1600000, .i32⟩
  | 71 => ⟨S1600000, .i1⟩
  | 72 => ⟨S_, .i32⟩
  | 73 => ⟨S1600000, .i32⟩
  | 74 => ⟨S1600000, .i32⟩
  | 75 => ⟨S1600000, .i32⟩
  | 76 => ⟨S1600000x1, .i32⟩
  | 77 => ⟨S1600000x128, .f32⟩
  | 78 => ⟨S_, .f32⟩
  | 79 => ⟨S100000x128, .f32⟩
  | 80 => ⟨S1600000x1, .i32⟩
  | 81 => ⟨S100000x128, .f32⟩
  | 82 => ⟨S100000x1, .f32⟩
  | 83 => ⟨S100000x128, .f32⟩
  | 84 => ⟨S100000x128, .f32⟩
  | 85 => ⟨S100000, .f32⟩
  | 86 => ⟨S100000x1, .f32⟩
  | 87 => ⟨S100000x128, .f32⟩
  | 88 => ⟨S100000x128, .f32⟩
  | 89 => ⟨S100000x128, .f32⟩
  | 90 => ⟨S1x128, .f32⟩
  | 91 => ⟨S100000x128, .f32⟩
  | 92 => ⟨S100000x128, .f32⟩
  | 93 => ⟨S128x1, .f32⟩
  | 94 => ⟨S128x1, .f32⟩
  | 95 => ⟨S128x2, .f32⟩
  | 96 => ⟨S1x10, .f32⟩
  | 97 => ⟨S100000x10, .f32⟩
  | 98 => ⟨S100000x2, .f32⟩
  | 99 => ⟨S100000x1, .f32⟩
  | 100 => ⟨S100000, .f32⟩
  | 101 => ⟨S100000x1, .f32⟩
  | 102 => ⟨S100000, .f32⟩
  | 103 => ⟨S_, .f32⟩
  | 104 => ⟨S_, .i32⟩
  | 105 => ⟨S200000, .i32⟩
  | 106 => ⟨S200000, .i1⟩
  | 107 => ⟨S_, .i32⟩
  | 108 => ⟨S200000, .i32⟩
  | 109 => ⟨S200000, .i32⟩
  | 110 => ⟨S200000, .i32⟩
  | 111 => ⟨S200000x1, .i32⟩
  | 112 => ⟨S200000, .f32⟩
  | 113 => ⟨S_, .i32⟩
  | 114 => ⟨S200000, .i32⟩
  | 115 => ⟨S200000, .i1⟩
  | 116 => ⟨S_, .i32⟩
  | 117 => ⟨S200000, .i32⟩
  | 118 => ⟨S200000, .i32⟩
  | 119 => ⟨S200000, .i32⟩
  | 120 => ⟨S200000x1, .i32⟩
  | 121 => ⟨S200000, .f32⟩
  | 122 => ⟨S200000, .f32⟩
  | 123 => ⟨S200000, .f32⟩
  | 124 => ⟨S200000, .f32⟩
  | 125 => ⟨S_, .i32⟩
  | 126 => ⟨S200000, .i32⟩
  | 127 => ⟨S200000, .i1⟩
  | _ => ⟨S100000x256, .f32⟩

abbrev hbmTy0_1 (i : Nat) : BufTy := match i % 128 with
  | 0 => ⟨S_, .i32⟩
  | 1 => ⟨S200000, .i32⟩
  | 2 => ⟨S200000, .i32⟩
  | 3 => ⟨S200000, .i32⟩
  | 4 => ⟨S200000x1, .i32⟩
  | 5 => ⟨S200000, .f32⟩
  | 6 => ⟨S_, .i32⟩
  | 7 => ⟨S200000, .i32⟩
  | 8 => ⟨S200000, .i1⟩
  | 9 => ⟨S_, .i32⟩
  | 10 => ⟨S200000, .i32⟩
  | 11 => ⟨S200000, .i32⟩
  | 12 => ⟨S200000, .i32⟩
  | 13 => ⟨S200000x1, .i32⟩
  | 14 => ⟨S200000, .f32⟩
  | 15 => ⟨S200000, .f32⟩
  | 16 => ⟨S200000, .f32⟩
  | 17 => ⟨S200000, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x10, .f32⟩
  | .local _ .vmem, ⟨13, _⟩ => ⟨S1x10, .f32⟩
  | .local _ .vmem, ⟨14, _⟩ => ⟨S128x2, .f32⟩
  | .local _ .vmem, ⟨15, _⟩ => ⟨S5000x10, .f32⟩
  | .local _ .vmem, ⟨16, _⟩ => ⟨S5000x10, .f32⟩
  | .local _ .vmem, ⟨17, _⟩ => ⟨S5000x2, .f32⟩
  | .local _ .vmem, ⟨18, _⟩ => ⟨S5000x2, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c : Ref sig .tc := ⟨.hbm, 38, rfl⟩
abbrev main_v23 : Ref sig .tc := ⟨.hbm, 39, rfl⟩
abbrev main_v24 : Ref sig .tc := ⟨.hbm, 40, rfl⟩
abbrev main_c_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_call0_cst : Ref sig .tc := ⟨.hbm, 62, rfl⟩
abbrev main_call0_v0 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_4 : Ref sig .tc := ⟨.hbm, 69, rfl⟩
abbrev main_v49 : Ref sig .tc := ⟨.hbm, 70, rfl⟩
abbrev main_v50 : Ref sig .tc := ⟨.hbm, 71, rfl⟩
abbrev main_c_5 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_6 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74_0 : Ref sig .tc := ⟨.hbm, 97, rfl⟩
abbrev main_v74_1 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_c_7 : Ref sig .tc := ⟨.hbm, 104, rfl⟩
abbrev main_v80 : Ref sig .tc := ⟨.hbm, 105, rfl⟩
abbrev main_v81 : Ref sig .tc := ⟨.hbm, 106, rfl⟩
abbrev main_c_8 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_c_9 : Ref sig .tc := ⟨.hbm, 113, rfl⟩
abbrev main_v87 : Ref sig .tc := ⟨.hbm, 114, rfl⟩
abbrev main_v88 : Ref sig .tc := ⟨.hbm, 115, rfl⟩
abbrev main_c_10 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_c_11 : Ref sig .tc := ⟨.hbm, 125, rfl⟩
abbrev main_v97 : Ref sig .tc := ⟨.hbm, 126, rfl⟩
abbrev main_v98 : Ref sig .tc := ⟨.hbm, 127, rfl⟩
abbrev main_c_12 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_c_13 : Ref sig .tc := ⟨.hbm, 134, rfl⟩
abbrev main_v104 : Ref sig .tc := ⟨.hbm, 135, rfl⟩
abbrev main_v105 : Ref sig .tc := ⟨.hbm, 136, rfl⟩
abbrev main_c_14 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg4_1 : Ref sig .tc := ⟨.vmem, 16, rfl⟩
abbrev cc2_stg5_0 : Ref sig .tc := ⟨.vmem, 17, rfl⟩
abbrev cc2_stg5_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem4_1 : DmaSem sig := 16
abbrev cc2_sem5_0 : DmaSem sig := 17
abbrev cc2_sem5_1 : DmaSem sig := 18

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x10 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x2 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  slices_S256x1_S128x1_0_0 : S256x1.Slices ![0, 0] S128x1
  slices_S256x1_S128x1_128_0 : S256x1.Slices ![128, 0] S128x1
  concatenates_S128x1_S128x1_S128x2_d1 : Shape.Concatenates [S128x1, S128x1] S128x2 1
  shapeCasts_S10_S1x10 : S10.ShapeCasts S1x10
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  reduces_S5000x10_S5000 : S5000x10.Reduces [1] S5000
  shapeCasts_S5000_S5000x1 : S5000.ShapeCasts S5000x1
  broadcasts_S5000x1_S5000x10 : S5000x1.Broadcasts S5000x10
  inb_S5000x10_S5000x10_0_0 : ∀ a, (![0, 0] : Fin 2 → Nat) a + S5000x10.size a ≤ S5000x10.size a
  h_S5000x10 : 0 < S5000x10.numel
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S5000x2_S5000x2_0_0 : ∀ a, (![0, 0] : Fin 2 → Nat) a + S5000x2.size a ≤ S5000x2.size a
  h_S5000x2 : 0 < S5000x2.numel
  slices_S100000x2_S100000x1_0_0 : S100000x2.Slices ![0, 0] S100000x1
  shapeCasts_S100000x1_S100000 : S100000x1.ShapeCasts S100000
  slices_S100000x2_S100000x1_0_1 : S100000x2.Slices ![0, 1] S100000x1
  shapeCasts_S1_S_ : S1.ShapeCasts S_
  bcast_S_S200000 : S_.BroadcastsInDim S200000 (![] : Fin 0 → Fin S200000.rank)
  bcast_S200000_S200000x1_0 : S200000.BroadcastsInDim S200000x1 (![0] : Fin 1 → Fin S200000x1.rank)
  scatter_S100000_S1600000x1_S1600000_n_0_0_1_wf : ScatterDims.WF S100000 S1600000x1 S1600000 [] [0] [0] 1
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x10_S5000x10_1_0_0_1_n_n_wf : DotDims.WF S5000x128 S128x10 S5000x10 [1] [0] [0] [1] [] []
  dot_S5000x128_S128x2_S5000x2_1_0_0_1_n_n_wf : DotDims.WF S5000x128 S128x2 S5000x2 [1] [0] [0] [1] [] []
  gather_S100000_S200000x1_S200000_n_0_n_n_0_1_1_wf : GatherDims.WF S100000 S200000x1 S200000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x10.size a ≤ S128x10.size a
  hwx2_1 : ∀ i : grid2.Coords, EltTy.bits .f32 = 32 ∨ (Rect.block (s := S128x10) S128x10.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x10.size a ≤ S1x10.size a
  hwx2_2 : ∀ i : grid2.Coords, EltTy.bits .f32 = 32 ∨ (Rect.block (s := S1x10) S1x10.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x2.size a ≤ S128x2.size a
  hwx2_3 : ∀ i : grid2.Coords, EltTy.bits .f32 = 32 ∨ (Rect.block (s := S128x2) S128x2.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x10.size a ≤ S100000x10.size a
  hwx2_4 : ∀ i : grid2.Coords, EltTy.bits .f32 = 32 ∨ (Rect.block (s := S100000x10) S5000x10.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x2.size a ≤ S100000x2.size a
  hwx2_5 : ∀ i : grid2.Coords, EltTy.bits .f32 = 32 ∨ (Rect.block (s := S100000x2) S5000x2.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x10_S5000x10_1_0_0_1_n_n : DotDims S5000x128 S128x10 S5000x10 where
  lhsContracting := [1]
  rhsContracting := [0]
  lhsNonContracting := [0]
  rhsNonContracting := [1]
  lhsBatch := []
  rhsBatch := []
  wf := dot_S5000x128_S128x10_S5000x10_1_0_0_1_n_n_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf
def gather_S100000_S200000x1_S200000_n_0_n_n_0_1_1 : GatherDims S100000 S200000x1 S200000 where
  offsetDims := []
  collapsedSliceDims := [0]
  operandBatchingDims := []
  startIndicesBatchingDims := []
  startIndexMap := [0]
  indexVectorDim := 1
  sliceSizes := ![1]
  wf := gather_S100000_S200000x1_S200000_n_0_n_n_0_1_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v69) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v73) S1x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v72) S128x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v74_0) S5000x10.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v74_1) S5000x2.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S2x200000 : Shape := ⟨2, ![2, 200000]⟩
abbrev S256x128 : Shape := ⟨2, ![256, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S256x1 : Shape := ⟨2, ![256, 1]⟩
abbrev S1 : Shape := ⟨1, ![1]⟩
abbrev S1x1600000 : Shape := ⟨2, ![1, 1600000]⟩
abbrev S1600000 : Shape := ⟨1, ![1600000]⟩
abbrev S100000x128 : Shape := ⟨2, ![100000, 128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x10 : Shape := ⟨2, ![100000, 10]⟩
abbrev S1x10 : Shape := ⟨2, ![1, 10]⟩
abbrev S100000x1 : Shape := ⟨2, ![100000, 1]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩
abbrev S200000x256 : Shape := ⟨2, ![200000, 256]⟩
abbrev S1x1 : Shape := ⟨2, ![1, 1]⟩

abbrev nBuf : Space → Nat
  | .hbm => 195
  | .vmem => 0
  | .smem => 0
  | _ => 0

abbrev hbmTy0_0 (i : Nat) : BufTy := match i % 128 with
  | 0 => ⟨S100000x256, .f32⟩
  | 1 => ⟨S2x1600000, .i32⟩
  | 2 => ⟨S2x200000, .i32⟩
  | 3 => ⟨S2x200000, .i32⟩
  | 4 => ⟨S256x128, .f32⟩
  | 5 => ⟨S128, .f32⟩
  | 6 => ⟨S128x128, .f32⟩
  | 7 => ⟨S128, .f32⟩
  | 8 => ⟨S128x10, .f32⟩
  | 9 => ⟨S10, .f32⟩
  | 10 => ⟨S256x1, .f32⟩
  | 11 => ⟨S1, .f32⟩
  | 12 => ⟨S1x1600000, .i32⟩
  | 13 => ⟨S1600000, .i32⟩
  | 14 => ⟨S1x1600000, .i32⟩
  | 15 => ⟨S1600000, .i32⟩
  | 16 => ⟨S100000x128, .f32⟩
  | 17 => ⟨S100000, .i32⟩
  | 18 => ⟨S1700000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S100000, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S1700000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S1700000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000x128, .f32⟩
  | 55 => ⟨S1700000x1, .f32⟩
  | 56 => ⟨S1700000x128, .f32⟩
  | 57 => ⟨S1700000x128, .f32⟩
  | 58 => ⟨S_, .f32⟩
  | 59 => ⟨S100000x128, .f32⟩
  | 60 => ⟨S1700000x1, .i32⟩
  | 61 => ⟨S100000x128, .f32⟩
  | 62 => ⟨S1x128, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S100000x128, .f32⟩
  | 69 => ⟨S100000, .i32⟩
  | 70 => ⟨S1700000, .i32⟩
  | 71 => ⟨S1700000, .i32⟩
  | 72 => ⟨S_, .f32⟩
  | 73 => ⟨S1700000, .f32⟩
  | 74 => ⟨S_, .f32⟩
  | 75 => ⟨S100000, .f32⟩
  | 76 => ⟨S1700000x1, .i32⟩
  | 77 => ⟨S100000, .f32⟩
  | 78 => ⟨S100000, .f32⟩
  | 79 => ⟨S_, .i32⟩
  | 80 => ⟨S1700000, .i32⟩
  | 81 => ⟨S1700000, .i1⟩
  | 82 => ⟨S_, .i32⟩
  | 83 => ⟨S1700000, .i32⟩
  | 84 => ⟨S1700000, .i32⟩
  | 85 => ⟨S1700000, .i32⟩
  | 86 => ⟨S1700000x1, .i32⟩
  | 87 => ⟨S1700000, .f32⟩
  | 88 => ⟨S_, .i32⟩
  | 89 => ⟨S1700000, .i32⟩
  | 90 => ⟨S1700000, .i1⟩
  | 91 => ⟨S_, .i32⟩
  | 92 => ⟨S1700000, .i32⟩
  | 93 => ⟨S1700000, .i32⟩
  | 94 => ⟨S1700000, .i32⟩
  | 95 => ⟨S1700000x1, .i32⟩
  | 96 => ⟨S1700000, .f32⟩
  | 97 => ⟨S1700000, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000x128, .f32⟩
  | 107 => ⟨S1700000x1, .f32⟩
  | 108 => ⟨S1700000x128, .f32⟩
  | 109 => ⟨S1700000x128, .f32⟩
  | 110 => ⟨S_, .f32⟩
  | 111 => ⟨S100000x128, .f32⟩
  | 112 => ⟨S1700000x1, .i32⟩
  | 113 => ⟨S100000x128, .f32⟩
  | 114 => ⟨S1x128, .f32⟩
  | 115 => ⟨S100000x128, .f32⟩
  | 116 => ⟨S100000x128, .f32⟩
  | 117 => ⟨S_, .f32⟩
  | 118 => ⟨S100000x128, .f32⟩
  | 119 => ⟨S100000x128, .f32⟩
  | 120 => ⟨S100000x10, .f32⟩
  | 121 => ⟨S1x10, .f32⟩
  | 122 => ⟨S100000x10, .f32⟩
  | 123 => ⟨S100000x10, .f32⟩
  | 124 => ⟨S_, .f32⟩
  | 125 => ⟨S100000, .f32⟩
  | 126 => ⟨S_, .f32⟩
  | 127 => ⟨S100000, .f32⟩
  | _ => ⟨S100000x256, .f32⟩

abbrev hbmTy0_1 (i : Nat) : BufTy := match i % 128 with
  | 0 => ⟨S100000, .f32⟩
  | 1 => ⟨S100000x1, .f32⟩
  | 2 => ⟨S100000x10, .f32⟩
  | 3 => ⟨S100000x10, .f32⟩
  | 4 => ⟨S100000x10, .f32⟩
  | 5 => ⟨S_, .f32⟩
  | 6 => ⟨S100000, .f32⟩
  | 7 => ⟨S100000x1, .f32⟩
  | 8 => ⟨S100000x1, .f32⟩
  | 9 => ⟨S100000x10, .f32⟩
  | 10 => ⟨S100000x10, .f32⟩
  | 11 => ⟨S1x200000, .i32⟩
  | 12 => ⟨S200000, .i32⟩
  | 13 => ⟨S_, .i32⟩
  | 14 => ⟨S200000, .i32⟩
  | 15 => ⟨S200000, .i1⟩
  | 16 => ⟨S_, .i32⟩
  | 17 => ⟨S200000, .i32⟩
  | 18 => ⟨S200000, .i32⟩
  | 19 => ⟨S200000, .i32⟩
  | 20 => ⟨S200000x1, .i32⟩
  | 21 => ⟨S200000x128, .f32⟩
  | 22 => ⟨S1x200000, .i32⟩
  | 23 => ⟨S200000, .i32⟩
  | 24 => ⟨S_, .i32⟩
  | 25 => ⟨S200000, .i32⟩
  | 26 => ⟨S200000, .i1⟩
  | 27 => ⟨S_, .i32⟩
  | 28 => ⟨S200000, .i32⟩
  | 29 => ⟨S200000, .i32⟩
  | 30 => ⟨S200000, .i32⟩
  | 31 => ⟨S200000x1, .i32⟩
  | 32 => ⟨S200000x128, .f32⟩
  | 33 => ⟨S200000x256, .f32⟩
  | 34 => ⟨S1x200000, .i32⟩
  | 35 => ⟨S200000, .i32⟩
  | 36 => ⟨S_, .i32⟩
  | 37 => ⟨S200000, .i32⟩
  | 38 => ⟨S200000, .i1⟩
  | 39 => ⟨S_, .i32⟩
  | 40 => ⟨S200000, .i32⟩
  | 41 => ⟨S200000, .i32⟩
  | 42 => ⟨S200000, .i32⟩
  | 43 => ⟨S200000x1, .i32⟩
  | 44 => ⟨S200000x128, .f32⟩
  | 45 => ⟨S1x200000, .i32⟩
  | 46 => ⟨S200000, .i32⟩
  | 47 => ⟨S_, .i32⟩
  | 48 => ⟨S200000, .i32⟩
  | 49 => ⟨S200000, .i1⟩
  | 50 => ⟨S_, .i32⟩
  | 51 => ⟨S200000, .i32⟩
  | 52 => ⟨S200000, .i32⟩
  | 53 => ⟨S200000, .i32⟩
  | 54 => ⟨S200000x1, .i32⟩
  | 55 => ⟨S200000x128, .f32⟩
  | 56 => ⟨S200000x256, .f32⟩
  | 57 => ⟨S200000x1, .f32⟩
  | 58 => ⟨S1x1, .f32⟩
  | 59 => ⟨S200000x1, .f32⟩
  | 60 => ⟨S200000x1, .f32⟩
  | 61 => ⟨S200000, .f32⟩
  | 62 => ⟨S200000x1, .f32⟩
  | 63 => ⟨S1x1, .f32⟩
  | 64 => ⟨S200000x1, .f32⟩
  | 65 => ⟨S200000x1, .f32⟩
  | 66 => ⟨S200000, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_2 : Ref sig .tc := ⟨.hbm, 36, rfl⟩
abbrev main_v20 : Ref sig .tc := ⟨.hbm, 37, rfl⟩
abbrev main_v21 : Ref sig .tc := ⟨.hbm, 38, rfl⟩
abbrev main_c_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_call0_cst : Ref sig .tc := ⟨.hbm, 65, rfl⟩
abbrev main_call0_v0 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_7 : Ref sig .tc := ⟨.hbm, 72, rfl⟩
abbrev main_v49 : Ref sig .tc := ⟨.hbm, 73, rfl⟩
abbrev main_cst_8 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_9 : Ref sig .tc := ⟨.hbm, 79, rfl⟩
abbrev main_v54 : Ref sig .tc := ⟨.hbm, 80, rfl⟩
abbrev main_v55 : Ref sig .tc := ⟨.hbm, 81, rfl⟩
abbrev main_c_10 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_11 : Ref sig .tc := ⟨.hbm, 88, rfl⟩
abbrev main_v61 : Ref sig .tc := ⟨.hbm, 89, rfl⟩
abbrev main_v62 : Ref sig .tc := ⟨.hbm, 90, rfl⟩
abbrev main_c_12 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_15 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_call1_cst : Ref sig .tc := ⟨.hbm, 117, rfl⟩
abbrev main_call1_v0 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_call2_cst : Ref sig .tc := ⟨.hbm, 124, rfl⟩
abbrev main_call2_v0 : Ref sig .tc := ⟨.hbm, 125, rfl⟩
abbrev main_call2_cst_0 : Ref sig .tc := ⟨.hbm, 126, rfl⟩
abbrev main_call2_v1 : Ref sig .tc := ⟨.hbm, 127, rfl⟩
abbrev main_call2_v2 : Ref sig .tc := ⟨.hbm, 128, rfl⟩
abbrev main_call2_v3 : Ref sig .tc := ⟨.hbm, 129, rfl⟩
abbrev main_call2_v4 : Ref sig .tc := ⟨.hbm, 130, rfl⟩
abbrev main_call2_v5 : Ref sig .tc := ⟨.hbm, 131, rfl⟩
abbrev main_call2_v6 : Ref sig .tc := ⟨.hbm, 132, rfl⟩
abbrev main_call2_cst_1 : Ref sig .tc := ⟨.hbm, 133, rfl⟩
abbrev main_call2_v7 : Ref sig .tc := ⟨.hbm, 134, rfl⟩
abbrev main_call2_v8 : Ref sig .tc := ⟨.hbm, 135, rfl⟩
abbrev main_call2_v9 : Ref sig .tc := ⟨.hbm, 136, rfl⟩
abbrev main_call2_v10 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_c_16 : Ref sig .tc := ⟨.hbm, 141, rfl⟩
abbrev main_v93 : Ref sig .tc := ⟨.hbm, 142, rfl⟩
abbrev main_v94 : Ref sig .tc := ⟨.hbm, 143, rfl⟩
abbrev main_c_17 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_c_18 : Ref sig .tc := ⟨.hbm, 152, rfl⟩
abbrev main_v102 : Ref sig .tc := ⟨.hbm, 153, rfl⟩
abbrev main_v103 : Ref sig .tc := ⟨.hbm, 154, rfl⟩
abbrev main_c_19 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_c_20 : Ref sig .tc := ⟨.hbm, 164, rfl⟩
abbrev main_v112 : Ref sig .tc := ⟨.hbm, 165, rfl⟩
abbrev main_v113 : Ref sig .tc := ⟨.hbm, 166, rfl⟩
abbrev main_c_21 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_c_22 : Ref sig .tc := ⟨.hbm, 175, rfl⟩
abbrev main_v121 : Ref sig .tc := ⟨.hbm, 176, rfl⟩
abbrev main_v122 : Ref sig .tc := ⟨.hbm, 177, rfl⟩
abbrev main_c_23 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  h_S_ : 0 < S_.numel
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  concatenates_S200000x128_S200000x128_S200000x256_d1 : Shape.Concatenates [S200000x128, S200000x128] S200000x256 1
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  shapeCasts_S200000x1_S200000 : S200000x1.ShapeCasts S200000
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x10_S100000x10_1_0_0_1_n_n_wf : DotDims.WF S100000x128 S128x10 S100000x10 [1] [0] [0] [1] [] []
  gather_S100000x128_S200000x1_S200000x128_1_0_n_n_0_1_1128_wf : GatherDims.WF S100000x128 S200000x1 S200000x128 [1] [0] [] [0] [] 1 ![1, 128]
  dot_S200000x256_S256x1_S200000x1_1_0_0_1_n_n_wf : DotDims.WF S200000x256 S256x1 S200000x1 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x10_S100000x10_1_0_0_1_n_n : DotDims S100000x128 S128x10 S100000x10 where
  lhsContracting := [1]
  rhsContracting := [0]
  lhsNonContracting := [0]
  rhsNonContracting := [1]
  lhsBatch := []
  rhsBatch := []
  wf := dot_S100000x128_S128x10_S100000x10_1_0_0_1_n_n_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def dot_S200000x256_S256x1_S200000x1_1_0_0_1_n_n : DotDims S200000x256 S256x1 S200000x1 where
  lhsContracting := [1]
  rhsContracting := [0]
  lhsNonContracting := [0]
  rhsNonContracting := [1]
  lhsBatch := []
  rhsBatch := []
  wf := dot_S200000x256_S256x1_S200000x1_1_0_0_1_n_n_wf

class Facts : Prop extends Facts₀ where

variable [Facts]
-- ==== Proof.KernelRun.lean ====
/-
  The idealized kernel's run, with its three results named.

  The program is three tiled launches among stretches of host operations. Its run is a chain of segments, and the
  contents of every buffer at each boundary between segments are a fold from the launch memory: a host stretch applies
  its operations, a launch replaces each of its output arrays by what its write-backs leave. Every weakly fair execution
  ends with each buffer that outlives the call at the LAST boundary's contents; read at the three result buffers this
  names what the program computes, and read at the argument buffers it says they are unchanged.
-/
import proofs.«129625_j60988535603969_2_alg».proof.Proof.Gen.KernelIdeal.Frame

set_option maxRecDepth 16384

noncomputable section

namespace Cert.KernelIdeal.Results

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the class scores, the positive-pair scores and the
    negative-pair scores at the last boundary's contents, and the twelve arguments as launched. -/
theorem run : θ_run defs (onTc (τ := τ) (main (F := F))) ⟨m, fun _ => 0, ρ⟩ (fun r => ∀ c : Dev nD,
      r.2.mem ((c.tc : Thread nD τ).loc main_v74_0) = W8 m ρ c (Proc.devRef .tc main_v74_0)
      ∧ r.2.mem ((c.tc : Thread nD τ).loc main_v96) = W8 m ρ c (Proc.devRef .tc main_v96)
      ∧ r.2.mem ((c.tc : Thread nD τ).loc main_v113) = W8 m ρ c (Proc.devRef .tc main_v113)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v74_0 (by decide)),
       h c _ (mem_uc main_v96 (by decide)),
       h c _ (mem_uc main_v113 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c)⟩)

end Cert.KernelIdeal.Results

end
-- ==== Proof.KernelChain.lean ====
/-
  The idealized kernel's host arithmetic between its launches, as functions of whole arrays.

  Around its three tiled launches the program applies, on whole arrays: the split of the edge list into source and
  destination words; the degree count (ones scattered onto destinations, plus one for the self-loop) and its inverse
  square root; one convolution step on a table that a launch produced (scale the rows by dinv, gather the rows the source
  words select, add them onto the destinations they land on, scale again, add the self-loop's share and the bias); the
  relu between the layers; the pair weights laid out as two columns; and, after the last launch, the two score columns
  gathered at the two members of each pair, added, plus the pair bias. Each is stated here once, in the operations'
  own order, so that the run's boundary contents can be named by them.
-/
import proofs.«129625_j60988535603969_2_alg».proof.Proof.Gen.KernelIdeal

noncomputable section

namespace Cert.KernelIdeal.Chain

open Idealize.ShloMosaic Cert.KernelIdeal Cert.KernelIdeal.Facts₀

variable {F : FTy → Type} [FloatOps F]

/-- The source words of the edge list (row 0). -/
def srcW (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000
/-- The destination words of the edge list (row 1). -/
def dstW (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000
/-- The first members of a list of pairs. -/
def fstW (ep : (⟨S2x200000, .i32⟩ : BufTy).Contents (Elt F)) : (⟨S200000, .i32⟩ : BufTy).Contents (Elt F) :=
  shapeCast _ (extractStridedSlice S1x200000 ![0, 0] ep slices_S2x200000_S1x200000_0_0) shapeCasts_S1x200000_S200000
/-- The second members of a list of pairs. -/
def sndW (ep : (⟨S2x200000, .i32⟩ : BufTy).Contents (Elt F)) : (⟨S200000, .i32⟩ : BufTy).Contents (Elt F) :=
  shapeCast _ (extractStridedSlice S1x200000 ![1, 0] ep slices_S2x200000_S1x200000_1_0) shapeCasts_S1x200000_S200000

/-- degree^(-1/2): ones scattered onto the destination words \`dst\`, plus one, inverse square root. -/
def dinvA (dst : (⟨S1600000, .i32⟩ : BufTy).Contents (Elt F)) : (⟨S100000, .f32⟩ : BufTy).Contents (Elt F) :=
  Host.rsqrt (addf
    (Host.scatterAdd scatter_S100000_S1600000x1_S1600000_n_0_0_1
      (broadcastInDim S100000 ![] bcast_S_S100000 (constant S_ .f32 0x00000000#32))
      (broadcastInDim S1600000x1 ![0] bcast_S1600000_S1600000x1_0 dst)
      (broadcastInDim S1600000 ![] bcast_S_S1600000 (constant S_ .f32 0x3F800000#32)))
    (broadcastInDim S100000 ![] bcast_S_S100000 (constant S_ .f32 0x3F800000#32)))

/-- Negative edge words shifted up by the number of nodes. -/
def wrapE (w : (⟨S1600000, .i32⟩ : BufTy).Contents (Elt F)) : (⟨S1600000, .i32⟩ : BufTy).Contents (Elt F) :=
  select (cmpi .slt w (broadcastInDim S1600000 ![] bcast_S_S1600000 (constantI S_ 32 0#32)))
    (addi w (broadcastInDim S1600000 ![] bcast_S_S1600000 (constantI S_ 32 100000#32))) w
/-- Negative pair words shifted up by the number of nodes. -/
def wrapP (w : (⟨S200000, .i32⟩ : BufTy).Contents (Elt F)) : (⟨S200000, .i32⟩ : BufTy).Contents (Elt F) :=
  select (cmpi .slt w (broadcastInDim S200000 ![] bcast_S_S200000 (constantI S_ 32 0#32)))
    (addi w (broadcastInDim S200000 ![] bcast_S_S200000 (constantI S_ 32 100000#32))) w

/-- A per-node value repeated along the 128 features. -/
def spread (d : (⟨S100000, .f32⟩ : BufTy).Contents (Elt F)) : (⟨S100000x128, .f32⟩ : BufTy).Contents (Elt F) :=
  broadcastInDim S100000x128 ![0, 1] bcast_S100000x1_S100000x128_0_1 (broadcastInDim S100000x1 ![0] bcast_S100000_S100000x1_0 d)

/-- One convolution step on the table `xt`, with per-node scale `d` and bias `b`. -/
def convA (xt : (⟨S100000x128, .f32⟩ : BufTy).Contents (Elt F)) (src dst : (⟨S1600000, .i32⟩ : BufTy).Contents (Elt F)) (d : (⟨S100000, .f32⟩ : BufTy).Contents (Elt F)) (b : (⟨S128, .f32⟩ : BufTy).Contents (Elt F)) :
    (⟨S100000x128, .f32⟩ : BufTy).Contents (Elt F) :=
  addf
    (addf
      (mulf (spread d)
        (Host.scatterAdd scatter_S100000x128_S1600000x1_S1600000x128_1_0_0_1
          (broadcastInDim S100000x128 ![] bcast_S_S100000x128 (constant S_ .f32 0x00000000#32))
          (broadcastInDim S1600000x1 ![0] bcast_S1600000_S1600000x1_0 dst)
          (Host.gather gather_S100000x128_S1600000x1_S1600000x128_1_0_n_n_0_1_1128 (mulf xt (spread d))
            (broadcastInDim S1600000x1 ![0] bcast_S1600000_S1600000x1_0 (wrapE src)))))
      (mulf (spread (mulf d d)) xt))
    (broadcastInDim S100000x128 ![0, 1] bcast_S1x128_S100000x128_0_1 (broadcastInDim S1x128 ![1] bcast_S128_S1x128_1 b))

/-- relu on a whole table. -/
def reluA (v : (⟨S100000x128, .f32⟩ : BufTy).Contents (Elt F)) : (⟨S100000x128, .f32⟩ : BufTy).Contents (Elt F) :=
  maximumf v (broadcastInDim S100000x128 ![] bcast_S_S100000x128 (constant S_ .f32 0x00000000#32))

/-- The pair weights' two halves side by side as two columns. -/
def wcombA (wl : (⟨S256x1, .f32⟩ : BufTy).Contents (Elt F)) : (⟨S128x2, .f32⟩ : BufTy).Contents (Elt F) :=
  concatenate S128x2 1 [⟨S128x1, extractStridedSlice S128x1 ![0, 0] wl slices_S256x1_S128x1_0_0⟩,
    ⟨S128x1, extractStridedSlice S128x1 ![128, 0] wl slices_S256x1_S128x1_128_0⟩] concatenates_S128x1_S128x1_S128x2_d1

/-- The class bias as a one-row table. -/
def biasRowA (bc : (⟨S10, .f32⟩ : BufTy).Contents (Elt F)) : (⟨S1x10, .f32⟩ : BufTy).Contents (Elt F) := shapeCast _ bc shapeCasts_S10_S1x10

/-- Column 0 of the two score columns, as a vector over the nodes. -/
def score0 (sc : (⟨S100000x2, .f32⟩ : BufTy).Contents (Elt F)) : (⟨S100000, .f32⟩ : BufTy).Contents (Elt F) :=
  shapeCast _ (extractStridedSlice S100000x1 ![0, 0] sc slices_S100000x2_S100000x1_0_0) shapeCasts_S100000x1_S100000
/-- Column 1 of the two score columns. -/
def score1 (sc : (⟨S100000x2, .f32⟩ : BufTy).Contents (Elt F)) : (⟨S100000, .f32⟩ : BufTy).Contents (Elt F) :=
  shapeCast _ (extractStridedSlice S100000x1 ![0, 1] sc slices_S100000x2_S100000x1_0_1) shapeCasts_S100000x1_S100000

/-- The pair scores: column 0 at the first member's node plus column 1 at the second member's node plus the pair bias. -/
def pairsA (sc : (⟨S100000x2, .f32⟩ : BufTy).Contents (Elt F)) (p q : (⟨S200000, .i32⟩ : BufTy).Contents (Elt F)) (bl : (⟨S1, .f32⟩ : BufTy).Contents (Elt F)) : (⟨S200000, .f32⟩ : BufTy).Contents (Elt F) :=
  addf
    (addf
      (Host.gather gather_S100000_S200000x1_S200000_n_0_n_n_0_1_1 (score0 sc)
        (broadcastInDim S200000x1 ![0] bcast_S200000_S200000x1_0 (wrapP p)))
      (Host.gather gather_S100000_S200000x1_S200000_n_0_n_n_0_1_1 (score1 sc)
        (broadcastInDim S200000x1 ![0] bcast_S200000_S200000x1_0 (wrapP q))))
    (broadcastInDim S200000 ![] bcast_S_S200000 (shapeCast _ bl shapeCasts_S1_S_))

end Cert.KernelIdeal.Chain

end
-- ==== Proof.KernelWalk.lean ====
/-
  The host stretches of the idealized kernel, each read from an arbitrary starting content of the buffers.

  A stretch of host operations turns the buffers' contents V into new contents; a buffer the stretch writes holds the
  operations' term of the buffers it read, and a buffer it does not write holds what it held. Stated over an arbitrary
  V, so that the long folds behind the run's boundaries are never opened: the first stretch splits the edge and pair
  lists and computes degree^(-1/2); the second and the fourth are one convolution step each on the table the previous
  launch left; the third is the relu; the last gathers the two score columns at the pairs' members.
-/
import proofs.«129625_j60988535603969_2_alg».proof.Proof.Gen.KernelIdeal.Frame
import proofs.«129625_j60988535603969_2_alg».proof.Proof.KernelChain
import Idealize.ShloMosaic.Lib.StableHlo.Run

set_option maxRecDepth 16384
set_option maxHeartbeats 4000000

noncomputable section

namespace Cert.KernelIdeal.Walk

open Idealize.ShloMosaic Idealize.ShloMosaic.TcCoe Idealize.ShloMosaic.Tactic Idealize.SL.Sem
open Cert.KernelIdeal Cert.KernelIdeal.Gen Cert.KernelIdeal.Facts₀

variable {F : FTy → Type} [FloatOps F] (V : Valuation τ sig (Elt F))

/-! ## The first stretch: the word lists and degree^(-1/2) -/

theorem s0_src : StableHlo.after hostOps0 V (Proc.devRef .tc main_v1) = Chain.srcW (V (Proc.devRef .tc main_arg1)) := by after_results_simp <;> rfl
theorem s0_dst : StableHlo.after hostOps0 V (Proc.devRef .tc main_v3) = Chain.dstW (V (Proc.devRef .tc main_arg1)) := by after_results_simp <;> rfl
theorem s0_pos0 : StableHlo.after hostOps0 V (Proc.devRef .tc main_v5) = Chain.fstW (V (Proc.devRef .tc main_arg2)) := by after_results_simp <;> rfl
theorem s0_pos1 : StableHlo.after hostOps0 V (Proc.devRef .tc main_v7) = Chain.sndW (V (Proc.devRef .tc main_arg2)) := by after_results_simp <;> rfl
theorem s0_neg0 : StableHlo.after hostOps0 V (Proc.devRef .tc main_v9) = Chain.fstW (V (Proc.devRef .tc main_arg3)) := by after_results_simp <;> rfl
theorem s0_neg1 : StableHlo.after hostOps0 V (Proc.devRef .tc main_v11) = Chain.sndW (V (Proc.devRef .tc main_arg3)) := by after_results_simp <;> rfl
theorem s0_dinv : StableHlo.after hostOps0 V (Proc.devRef .tc main_v18) = Chain.dinvA (Chain.dstW (V (Proc.devRef .tc main_arg1))) := by after_results_simp <;> rfl
theorem k0_arg0 : StableHlo.after hostOps0 V (Proc.devRef .tc main_arg0) = V (Proc.devRef .tc main_arg0) := by after_results_simp <;> rfl
theorem k0_arg4 : StableHlo.after hostOps0 V (Proc.devRef .tc main_arg4) = V (Proc.devRef .tc main_arg4) := by after_results_simp <;> rfl
theorem k0_arg5 : StableHlo.after hostOps0 V (Proc.devRef .tc main_arg5) = V (Proc.devRef .tc main_arg5) := by after_results_simp <;> rfl
theorem k0_arg6 : StableHlo.after hostOps0 V (Proc.devRef .tc main_arg6) = V (Proc.devRef .tc main_arg6) := by after_results_simp <;> rfl
theorem k0_arg7 : StableHlo.after hostOps0 V (Proc.devRef .tc main_arg7) = V (Proc.devRef .tc main_arg7) := by after_results_simp <;> rfl
theorem k0_arg8 : StableHlo.after hostOps0 V (Proc.devRef .tc main_arg8) = V (Proc.devRef .tc main_arg8) := by after_results_simp <;> rfl
theorem k0_arg9 : StableHlo.after hostOps0 V (Proc.devRef .tc main_arg9) = V (Proc.devRef .tc main_arg9) := by after_results_simp <;> rfl
theorem k0_arg10 : StableHlo.after hostOps0 V (Proc.devRef .tc main_arg10) = V (Proc.devRef .tc main_arg10) := by after_results_simp <;> rfl
theorem k0_arg11 : StableHlo.after hostOps0 V (Proc.devRef .tc main_arg11) = V (Proc.devRef .tc main_arg11) := by after_results_simp <;> rfl

/-! ## The second stretch: the first convolution step on the first launch's table -/

theorem s1_conv : StableHlo.after hostOps1 V (Proc.devRef .tc main_v43)
    = Chain.convA (V (Proc.devRef .tc main_v19)) (V (Proc.devRef .tc main_v1)) (V (Proc.devRef .tc main_v3)) (V (Proc.devRef .tc main_v18)) (V (Proc.devRef .tc main_arg5)) := by
  after_results_simp <;> rfl
theorem k1_v1 : StableHlo.after hostOps1 V (Proc.devRef .tc main_v1) = V (Proc.devRef .tc main_v1) := by after_results_simp <;> rfl
theorem k1_v3 : StableHlo.after hostOps1 V (Proc.devRef .tc main_v3) = V (Proc.devRef .tc main_v3) := by after_results_simp <;> rfl
theorem k1_v18 : StableHlo.after hostOps1 V (Proc.devRef .tc main_v18) = V (Proc.devRef .tc main_v18) := by after_results_simp <;> rfl
theorem k1_v5 : StableHlo.after hostOps1 V (Proc.devRef .tc main_v5) = V (Proc.devRef .tc main_v5) := by after_results_simp <;> rfl
theorem k1_v7 : StableHlo.after hostOps1 V (Proc.devRef .tc main_v7) = V (Proc.devRef .tc main_v7) := by after_results_simp <;> rfl
theorem k1_v9 : StableHlo.after hostOps1 V (Proc.devRef .tc main_v9) = V (Proc.devRef .tc main_v9) := by after_results_simp <;> rfl
theorem k1_v11 : StableHlo.after hostOps1 V (Proc.devRef .tc main_v11) = V (Proc.devRef .tc main_v11) := by after_results_simp <;> rfl
theorem k1_arg6 : StableHlo.after hostOps1 V (Proc.devRef .tc main_arg6) = V (Proc.devRef .tc main_arg6) := by after_results_simp <;> rfl
theorem k1_arg7 : StableHlo.after hostOps1 V (Proc.devRef .tc main_arg7) = V (Proc.devRef .tc main_arg7) := by after_results_simp <;> rfl
theorem k1_arg8 : StableHlo.after hostOps1 V (Proc.devRef .tc main_arg8) = V (Proc.devRef .tc main_arg8) := by after_results_simp <;> rfl
theorem k1_arg9 : StableHlo.after hostOps1 V (Proc.devRef .tc main_arg9) = V (Proc.devRef .tc main_arg9) := by after_results_simp <;> rfl
theorem k1_arg10 : StableHlo.after hostOps1 V (Proc.devRef .tc main_arg10) = V (Proc.devRef .tc main_arg10) := by after_results_simp <;> rfl
theorem k1_arg11 : StableHlo.after hostOps1 V (Proc.devRef .tc main_arg11) = V (Proc.devRef .tc main_arg11) := by after_results_simp <;> rfl

/-! ## The third stretch: relu -/

theorem s11_relu : StableHlo.after hostOps1_1 V (Proc.devRef .tc main_v44) = Chain.reluA (V (Proc.devRef .tc main_v43)) := by after_results_simp <;> rfl
theorem k11_v1 : StableHlo.after hostOps1_1 V (Proc.devRef .tc main_v1) = V (Proc.devRef .tc main_v1) := by after_results_simp <;> rfl
theorem k11_v3 : StableHlo.after hostOps1_1 V (Proc.devRef .tc main_v3) = V (Proc.devRef .tc main_v3) := by after_results_simp <;> rfl
theorem k11_v18 : StableHlo.after hostOps1_1 V (Proc.devRef .tc main_v18) = V (Proc.devRef .tc main_v18) := by after_results_simp <;> rfl
theorem k11_v5 : StableHlo.after hostOps1_1 V (Proc.devRef .tc main_v5) = V (Proc.devRef .tc main_v5) := by after_results_simp <;> rfl
theorem k11_v7 : StableHlo.after hostOps1_1 V (Proc.devRef .tc main_v7) = V (Proc.devRef .tc main_v7) := by after_results_simp <;> rfl
theorem k11_v9 : StableHlo.after hostOps1_1 V (Proc.devRef .tc main_v9) = V (Proc.devRef .tc main_v9) := by after_results_simp <;> rfl
theorem k11_v11 : StableHlo.after hostOps1_1 V (Proc.devRef .tc main_v11) = V (Proc.devRef .tc main_v11) := by after_results_simp <;> rfl
theorem k11_arg6 : StableHlo.after hostOps1_1 V (Proc.devRef .tc main_arg6) = V (Proc.devRef .tc main_arg6) := by after_results_simp <;> rfl
theorem k11_arg7 : StableHlo.after hostOps1_1 V (Proc.devRef .tc main_arg7) = V (Proc.devRef .tc main_arg7) := by after_results_simp <;> rfl
theorem k11_arg8 : StableHlo.after hostOps1_1 V (Proc.devRef .tc main_arg8) = V (Proc.devRef .tc main_arg8) := by after_results_simp <;> rfl
theorem k11_arg9 : StableHlo.after hostOps1_1 V (Proc.devRef .tc main_arg9) = V (Proc.devRef .tc main_arg9) := by after_results_simp <;> rfl
theorem k11_arg10 : StableHlo.after hostOps1_1 V (Proc.devRef .tc main_arg10) = V (Proc.devRef .tc main_arg10) := by after_results_simp <;> rfl
theorem k11_arg11 : StableHlo.after hostOps1_1 V (Proc.devRef .tc main_arg11) = V (Proc.devRef .tc main_arg11) := by after_results_simp <;> rfl

/-! ## The fourth stretch: the second convolution step, the pair weights as two columns, the class bias as a row -/

theorem s2_conv : StableHlo.after hostOps2 V (Proc.devRef .tc main_v69)
    = Chain.convA (V (Proc.devRef .tc main_v45)) (V (Proc.devRef .tc main_v1)) (V (Proc.devRef .tc main_v3)) (V (Proc.devRef .tc main_v18)) (V (Proc.devRef .tc main_arg7)) := by
  after_results_simp <;> rfl
theorem s2_wcomb : StableHlo.after hostOps2 V (Proc.devRef .tc main_v72) = Chain.wcombA (V (Proc.devRef .tc main_arg10)) := by after_results_simp <;> rfl
theorem s2_bias : StableHlo.after hostOps2 V (Proc.devRef .tc main_v73) = Chain.biasRowA (V (Proc.devRef .tc main_arg9)) := by after_results_simp <;> rfl
theorem k2_v5 : StableHlo.after hostOps2 V (Proc.devRef .tc main_v5) = V (Proc.devRef .tc main_v5) := by after_results_simp <;> rfl
theorem k2_v7 : StableHlo.after hostOps2 V (Proc.devRef .tc main_v7) = V (Proc.devRef .tc main_v7) := by after_results_simp <;> rfl
theorem k2_v9 : StableHlo.after hostOps2 V (Proc.devRef .tc main_v9) = V (Proc.devRef .tc main_v9) := by after_results_simp <;> rfl
theorem k2_v11 : StableHlo.after hostOps2 V (Proc.devRef .tc main_v11) = V (Proc.devRef .tc main_v11) := by after_results_simp <;> rfl
theorem k2_arg8 : StableHlo.after hostOps2 V (Proc.devRef .tc main_arg8) = V (Proc.devRef .tc main_arg8) := by after_results_simp <;> rfl
theorem k2_arg11 : StableHlo.after hostOps2 V (Proc.devRef .tc main_arg11) = V (Proc.devRef .tc main_arg11) := by after_results_simp <;> rfl

/-! ## The last stretch: the pair scores -/

theorem s3_pos : StableHlo.after hostOps3 V (Proc.devRef .tc main_v96)
    = Chain.pairsA (V (Proc.devRef .tc main_v74_1)) (V (Proc.devRef .tc main_v5)) (V (Proc.devRef .tc main_v7)) (V (Proc.devRef .tc main_arg11)) := by
  after_results_simp <;> rfl
theorem s3_neg : StableHlo.after hostOps3 V (Proc.devRef .tc main_v113)
    = Chain.pairsA (V (Proc.devRef .tc main_v74_1)) (V (Proc.devRef .tc main_v9)) (V (Proc.devRef .tc main_v11)) (V (Proc.devRef .tc main_arg11)) := by
  after_results_simp <;> rfl
theorem k3_v74_0 : StableHlo.after hostOps3 V (Proc.devRef .tc main_v74_0) = V (Proc.devRef .tc main_v74_0) := by after_results_simp <;> rfl

end Cert.KernelIdeal.Walk

end
-- ==== Proof.LibPlainMatmul.lean ====
/-
  A kernel's plain matrix product read at an entry, over the extended reals.

  An [m, k] by [k, n] product accumulated into the zero block has, at entry (a, b), the sum over the contracted
  coordinate c of A (a, c) · B (c, b): the exact contraction has no accumulator left in it (the extended reals have one
  zero) and is the same sum the host's product of the same operands is.
-/
import Idealize.ShloMosaic.Lib.StackMember
import Idealize.ShloMosaic.PureOps.Ideal.Laws

noncomputable section

namespace Cert.Lib

open Idealize.ShloMosaic Idealize.ShloMosaic.ValueIdx

/-- Entry (a, b) of an [m, k] × [k, n] matrix product into a zero accumulator is `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.Lib

end
-- ==== Proof.LibRowBlockProduct.lean ====
/-
  A block of rows of a matrix product, over the extended reals.

  Rows off, …, off + m - 1 of X · W depend on those rows of X and on all of W only: entry (off + a, b) of the whole
  product is the sum over the contracted coordinate c of X (off + a, c) · W (c, b), and that is entry (a, b) of the product
  of the m-row block of X with W. So a kernel that multiplies one block of rows at a time (accumulating into zero) writes,
  block by block, the host's one whole product. How a block sits in its array is left to three index maps, about which
  only their coordinates are assumed: the left block's and the result block's rows are shifted by `off`, nothing else
  moves.
-/
import proofs.«129625_j60988535603969_2_alg».proof.Proof.LibPlainMatmul

noncomputable section

namespace Cert.Lib

open Idealize.ShloMosaic Idealize.ShloMosaic.ValueIdx

/-- The product of an m-row block of `X` (rows `off …`) with `W`, accumulated into zero, read at a block index `j`, is the
    whole product `X · W` read where the result block puts `j`. -/
theorem plain_product_row_block {m M k n : Nat} {φ₁ φ₂ : FTy} (prec : Option ContractPrecision)
    (x : FVec Ideal ⟨2, ![m, k]⟩ φ₁) (w : FVec Ideal ⟨2, ![k, n]⟩ φ₂)
    (X : FVec Ideal ⟨2, ![M, k]⟩ φ₁) (W : FVec Ideal ⟨2, ![k, n]⟩ φ₂)
    (ex : (⟨2, ![m, k]⟩ : Shape).Idx → (⟨2, ![M, k]⟩ : Shape).Idx)
    (ew : (⟨2, ![k, n]⟩ : Shape).Idx → (⟨2, ![k, n]⟩ : Shape).Idx)
    (eo : (⟨2, ![m, n]⟩ : Shape).Idx → (⟨2, ![M, n]⟩ : Shape).Idx) (off : Nat)
    (hx : ∀ y, x y = X (ex y)) (hw : ∀ y, w y = W (ew y))
    (hex0 : ∀ y, (ex y 0).val = off + (y 0).val) (hex1 : ∀ y, (ex y 1).val = (y 1).val)
    (hew0 : ∀ y, (ew y 0).val = (y 0).val) (hew1 : ∀ y, (ew y 1).val = (y 1).val)
    (heo0 : ∀ y, (eo y 0).val = off + (y 0).val) (heo1 : ∀ y, (eo y 1).val = (y 1).val)
    (j : (⟨2, ![m, n]⟩ : Shape).Idx) :
    matmul (DotDims.plain m k n) prec x w (constant ⟨2, ![m, n]⟩ .f32 0x00000000#32) j
      = Host.dotGeneral (DotDims.plain M k n) prec X W (eo j) := by
  obtain ⟨a, b, rfl⟩ : ∃ (a : Fin m) (b : Fin n), j = ix2 a b := ⟨j 0, j 1, eq_ix2 j⟩
  -- where the result block puts (a, b): row off + a, column b
  obtain ⟨a', b', hab⟩ : ∃ (a' : Fin M) (b' : Fin n), eo (ix2 a b) = ix2 a' b' :=
    ⟨eo (ix2 a b) 0, eo (ix2 a b) 1, eq_ix2 _⟩
  have ha' : a'.val = off + a.val := by
    have := heo0 (ix2 a b); rw [hab] at this; exact this
  have hb' : b'.val = b.val := by
    have := heo1 (ix2 a b); rw [hab] at this; exact this
  rw [matmul_plain_zero_apply, hab, StackMember.dotGeneral_plain_apply]
  refine Finset.sum_congr rfl fun c _ => ?_
  rw [hx, hw]
  have e1 : ex (ix2 a c) = ix2 a' c := by
    funext q; apply Fin.ext
    match q with
    | ⟨0, _⟩ => exact (hex0 (ix2 a c)).trans ha'.symm
    | ⟨1, _⟩ => exact hex1 (ix2 a c)
  have e2 : ew (ix2 c b) = ix2 c b' := by
    funext q; apply Fin.ext
    match q with
    | ⟨0, _⟩ => exact hew0 (ix2 c b)
    | ⟨1, _⟩ => exact (hew1 (ix2 c b)).trans hb'.symm
  rw [e1, e2]

end Cert.Lib

end
-- ==== Proof.KernelProducts.lean ====
/-
  The two product launches of the idealized kernel, from blocks to the whole array.

  Each launch runs its body at twenty points; point t is given rows 5000 t … 5000 t + 4999 of the left array and the
  whole right array, and writes back rows 5000 t … of the result. The body's stored block is the product of its two
  blocks into a zero accumulator, which is those rows of the whole product; the twenty row blocks tile the result array,
  so after the launch the array holds the whole product of the two arrays the launch found.
-/
import proofs.«129625_j60988535603969_2_alg».proof.Proof.Gen.KernelIdeal.Frame
import proofs.«129625_j60988535603969_2_alg».proof.Proof.LibRowBlockProduct
import Idealize.ShloMosaic.Lib.Pipeline.Value
import Idealize.ShloMosaic.Lib.StackMember

set_option maxRecDepth 16384

noncomputable section

namespace Cert.KernelIdeal.Regions

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Facts₀

variable (V : (c : Dev nD) → (b : Ref sig .tc) → Buf (Elt Ideal) ((c : Thread nD τ).loc b))

theorem hz : (![0, 0] : Fin 2 → Nat) = fun _ => 0 := funext fun a => by fin_cases a <;> rfl

/-! ## Launch 0: x · W1, twenty blocks of 5000 rows -/

theorem dot0_plain : dot_S5000x256_S256x128_S5000x128_1_0_0_1_n_n = DotDims.plain 5000 256 128 := rfl

/-- The body's one stored value at a block index is the whole product read where the block puts the index: the body
    multiplies the 5000 rows it was given by the whole right factor into a zero accumulator (the change of float format
    before the product is the identity on exact values). -/
theorem body0_apply (x : Vec Ideal S5000x256 .f32) (w : Vec Ideal S256x128 .f32)
    (X : (⟨2, ![100000, 256]⟩ : Shape).Idx → EReal) (W : (⟨2, ![256, 128]⟩ : Shape).Idx → EReal)
    (ex : (⟨2, ![5000, 256]⟩ : Shape).Idx → (⟨2, ![100000, 256]⟩ : Shape).Idx)
    (ew : (⟨2, ![256, 128]⟩ : Shape).Idx → (⟨2, ![256, 128]⟩ : Shape).Idx)
    (eo : (⟨2, ![5000, 128]⟩ : Shape).Idx → (⟨2, ![100000, 128]⟩ : Shape).Idx) (off : Nat)
    (hx : ∀ y, x y = X (ex y)) (hw : ∀ y, w y = W (ew y))
    (hex0 : ∀ y, (ex y 0).val = off + (y 0).val) (hex1 : ∀ y, (ex y 1).val = (y 1).val)
    (hew0 : ∀ y, (ew y 0).val = (y 0).val) (hew1 : ∀ y, (ew y 1).val = (y 1).val)
    (heo0 : ∀ y, (eo y 0).val = off + (y 0).val) (heo1 : ∀ y, (eo y 1).val = (y 1).val)
    (j : (⟨2, ![5000, 128]⟩ : Shape).Idx) :
    k0_pay1 (F := Ideal) x w j = Host.dotGeneral (F := Ideal) (φ₁ := .f32) (φ₂ := .f32) (DotDims.plain 100000 256 128) none X W (eo j) := by
  unfold k0_pay1
  show matmul (F := Ideal) (φ₁ := .f32) (φ₂ := .f32) dot_S5000x256_S256x128_S5000x128_1_0_0_1_n_n none x w (constant S5000x128 .f32 0x00000000#32) j = _
  rw [dot0_plain]
  exact Cert.Lib.plain_product_row_block (φ₁ := .f32) (φ₂ := .f32) none x w X W ex ew eo off hx hw
    hex0 hex1 hew0 hew1 heo0 heo1 j

/-- The printed index maps over the twenty points: the left block and the result block are block t of their arrays, the
    right factor is whole at every point. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The whole product of the launch's two input arrays as the launch finds them. -/
def product0 (X : (⟨2, ![100000, 256]⟩ : Shape).Idx → EReal) (W : (⟨2, ![256, 128]⟩ : Shape).Idx → EReal) :
    (⟨2, ![100000, 128]⟩ : Shape).Idx → EReal :=
  Host.dotGeneral (F := Ideal) (φ₁ := .f32) (φ₂ := .f32) (DotDims.plain 100000 256 128) none X W

/-- What point t writes back is block t of the whole product. -/
theorem flushed0 (c : Dev nD) (t : Fin cfg0.N) :
    (dat0 V c).flushed 2 t
      = ((cfg0.win 2).blk t).view.read (Elt Ideal) (product0 (V c main_arg0) (V c main_arg4)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  obtain ⟨e0, e1, e2, e3, e4, e5⟩ := idx0 t
  funext j
  show k0_pay1 (F := Ideal) (iblk0 V c 0 t) (iblk0 V c 1 t) j
    = product0 (V c main_arg0) (V c main_arg4) (((cfg0.win 2).blk t).view.emb j)
  unfold product0
  refine body0_apply (iblk0 V c 0 t) (iblk0 V c 1 t) (V c main_arg0) (V c main_arg4)
    (((cfg0.win 0).blk t).view.emb) (((cfg0.win 1).blk t).view.emb) (((cfg0.win 2).blk t).view.emb) (t.val * 5000)
    (fun _ => rfl) (fun _ => rfl) ?_ ?_ ?_ ?_ ?_ ?_ j
  · intro y; show win0_0.index t (0 : Fin 2) * 5000 + 1 * (y 0).val = _; omega
  · intro y; show win0_0.index t (1 : Fin 2) * 256 + 1 * (y 1).val = _; omega
  · intro y; show win0_1.index t (0 : Fin 2) * 256 + 1 * (y 0).val = _; omega
  · intro y; show win0_1.index t (1 : Fin 2) * 128 + 1 * (y 1).val = _; omega
  · intro y; show win0_2.index t (0 : Fin 2) * 5000 + 1 * (y 0).val = _; omega
  · intro y; show win0_2.index t (1 : Fin 2) * 128 + 1 * (y 1).val = _; omega

/-- An index of the result array is in point t's block iff its row is among the block's 5000. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v19).slice (win0_2.rect t)).set ↔ _
  rw [View.set_slice_whole, Rect.mem_set_unit]
  exact Iff.rfl

/-- Every point covers: row r is in block r / 5000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  refine ⟨⟨(i 0).val / 5000, by show (i 0).val / 5000 < 20; omega⟩, flush0_2 _, ?_⟩
  rw [mem_blk0]
  obtain ⟨e0, e1, e2, e3, e4, e5⟩ := idx0 ⟨(i 0).val / 5000, by show (i 0).val / 5000 < 20; omega⟩
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ (i 0).val ∧ (i 0).val < (i 0).val / 5000 * 5000 + 5000; omega
  | ⟨1, _⟩ => show win0_2.index _ (1 : Fin 2) * 128 ≤ (i 1).val ∧ (i 1).val < win0_2.index _ (1 : Fin 2) * 128 + 128; rw [e5]; omega

/-- After the launch its result array holds the whole product of the two input arrays it found. -/
theorem final0 (c : Dev nD) :
    (dat0 V c).arrAt 2 cfg0.N = product0 (V c main_arg0) (V c main_arg4) :=
  (dat0 V c).arrAt_eq_of_cover 2 (product0 (V c main_arg0) (V c main_arg4)) (fun t _ => flushed0 V c t) (cover0)

/-! ## Launch 1: hidden · W2, twenty blocks of 5000 rows -/

theorem dot1_plain : dot_S5000x128_S128x128_S5000x128_1_0_0_1_n_n = DotDims.plain 5000 128 128 := rfl

/-- The body's one stored value at a block index is the whole product read where the block puts the index: the body
    multiplies the 5000 rows it was given by the whole right factor into a zero accumulator (the change of float format
    before the product is the identity on exact values). -/
theorem body1_apply (x : Vec Ideal S5000x128 .f32) (w : Vec Ideal S128x128 .f32)
    (X : (⟨2, ![100000, 128]⟩ : Shape).Idx → EReal) (W : (⟨2, ![128, 128]⟩ : Shape).Idx → EReal)
    (ex : (⟨2, ![5000, 128]⟩ : Shape).Idx → (⟨2, ![100000, 128]⟩ : Shape).Idx)
    (ew : (⟨2, ![128, 128]⟩ : Shape).Idx → (⟨2, ![128, 128]⟩ : Shape).Idx)
    (eo : (⟨2, ![5000, 128]⟩ : Shape).Idx → (⟨2, ![100000, 128]⟩ : Shape).Idx) (off : Nat)
    (hx : ∀ y, x y = X (ex y)) (hw : ∀ y, w y = W (ew y))
    (hex0 : ∀ y, (ex y 0).val = off + (y 0).val) (hex1 : ∀ y, (ex y 1).val = (y 1).val)
    (hew0 : ∀ y, (ew y 0).val = (y 0).val) (hew1 : ∀ y, (ew y 1).val = (y 1).val)
    (heo0 : ∀ y, (eo y 0).val = off + (y 0).val) (heo1 : ∀ y, (eo y 1).val = (y 1).val)
    (j : (⟨2, ![5000, 128]⟩ : Shape).Idx) :
    k1_pay1 (F := Ideal) x w j = Host.dotGeneral (F := Ideal) (φ₁ := .f32) (φ₂ := .f32) (DotDims.plain 100000 128 128) none X W (eo j) := by
  unfold k1_pay1
  rw [shapeCast_self]
  show matmul (F := Ideal) (φ₁ := .f32) (φ₂ := .f32) dot_S5000x128_S128x128_S5000x128_1_0_0_1_n_n none x w (constant S5000x128 .f32 0x00000000#32) j = _
  rw [dot1_plain]
  exact Cert.Lib.plain_product_row_block (φ₁ := .f32) (φ₂ := .f32) none x w X W ex ew eo off hx hw
    hex0 hex1 hew0 hew1 heo0 heo1 j

/-- The printed index maps over the twenty points: the left block and the result block are block t of their arrays, the
    right factor is whole at every point. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The whole product of the launch's two input arrays as the launch finds them. -/
def product1 (X : (⟨2, ![100000, 128]⟩ : Shape).Idx → EReal) (W : (⟨2, ![128, 128]⟩ : Shape).Idx → EReal) :
    (⟨2, ![100000, 128]⟩ : Shape).Idx → EReal :=
  Host.dotGeneral (F := Ideal) (φ₁ := .f32) (φ₂ := .f32) (DotDims.plain 100000 128 128) none X W

/-- What point t writes back is block t of the whole product. -/
theorem flushed1 (c : Dev nD) (t : Fin cfg1.N) :
    (dat1 V c).flushed 2 t
      = ((cfg1.win 2).blk t).view.read (Elt Ideal) (product1 (V c main_v44) (V c main_arg6)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  obtain ⟨e0, e1, e2, e3, e4, e5⟩ := idx1 t
  funext j
  show k1_pay1 (F := Ideal) (iblk1 V c 0 t) (iblk1 V c 1 t) j
    = product1 (V c main_v44) (V c main_arg6) (((cfg1.win 2).blk t).view.emb j)
  unfold product1
  refine body1_apply (iblk1 V c 0 t) (iblk1 V c 1 t) (V c main_v44) (V c main_arg6)
    (((cfg1.win 0).blk t).view.emb) (((cfg1.win 1).blk t).view.emb) (((cfg1.win 2).blk t).view.emb) (t.val * 5000)
    (fun _ => rfl) (fun _ => rfl) ?_ ?_ ?_ ?_ ?_ ?_ j
  · intro y; show win1_0.index t (0 : Fin 2) * 5000 + 1 * (y 0).val = _; omega
  · intro y; show win1_0.index t (1 : Fin 2) * 128 + 1 * (y 1).val = _; omega
  · intro y; show win1_1.index t (0 : Fin 2) * 128 + 1 * (y 0).val = _; omega
  · intro y; show win1_1.index t (1 : Fin 2) * 128 + 1 * (y 1).val = _; omega
  · intro y; show win1_2.index t (0 : Fin 2) * 5000 + 1 * (y 0).val = _; omega
  · intro y; show win1_2.index t (1 : Fin 2) * 128 + 1 * (y 1).val = _; omega

/-- An index of the result array is in point t's block iff its row is among the block's 5000. -/
theorem mem_blk1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- Every point covers: row r is in block r / 5000. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  refine ⟨⟨(i 0).val / 5000, by show (i 0).val / 5000 < 20; omega⟩, flush1_2 _, ?_⟩
  rw [mem_blk1]
  obtain ⟨e0, e1, e2, e3, e4, e5⟩ := idx1 ⟨(i 0).val / 5000, by show (i 0).val / 5000 < 20; omega⟩
  intro a
  match a with
  | ⟨0, _⟩ => show win1_2.index _ (0 : Fin 2) * 5000 ≤ (i 0).val ∧ (i 0).val < win1_2.index _ (0 : Fin 2) * 5000 + 5000; rw [e4]; show (i 0).val / 5000 * 5000 ≤ (i 0).val ∧ (i 0).val < (i 0).val / 5000 * 5000 + 5000; omega
  | ⟨1, _⟩ => show win1_2.index _ (1 : Fin 2) * 128 ≤ (i 1).val ∧ (i 1).val < win1_2.index _ (1 : Fin 2) * 128 + 128; rw [e5]; omega

/-- After the launch its result array holds the whole product of the two input arrays it found. -/
theorem final1 (c : Dev nD) :
    (dat1 V c).arrAt 2 cfg1.N = product1 (V c main_v44) (V c main_arg6) :=
  (dat1 V c).arrAt_eq_of_cover 2 (product1 (V c main_v44) (V c main_arg6)) (fun t _ => flushed1 V c t) (cover1)

end Cert.KernelIdeal.Regions

end
-- ==== Proof.Spec.lean ====
/-
  What the two programs compute, as functions of the argument arrays, over the extended reals.

  A two-layer graph convolution on 100000 nodes and 1600000 directed edges, a class head and a pair head.
  An edge e has a source word and a destination word (32-bit integers, any value). A message LANDS on node i when the
  destination word, read as a signed integer, is i (a destination outside 0 … 99999 lands nowhere). The row a message is
  READ from is another reading of a word: a negative word is first shifted up by 100000, then the signed value is clamped
  into 0 … 99999 (`node`). Every node also has a self-loop, so its degree is one more than the number of messages that
  land on it, and `dinv` is degree^(-1/2).

  One convolution of a table T with bias b (`conv`):
      out (i, f) = dinv i · ∑_{e lands on i} T (node (src e), f) · dinv (node (src e))  +  dinv i · dinv i · T (i, f)  +  b f.
  The embedding is conv (relu (conv (x · W1) + b1 …) · W2): `hidden`, `embed`.
  Class scores: the log-softmax over the 10 classes of relu (embed) · Wcls + bcls (`classScores`).
  Pair scores: for a pair (p, q) of words, embed (node p) · Wlink[0:128] + embed (node q) · Wlink[128:256] + blink (`pairScore`).
-/
import Idealize.ShloMosaic.PureOps.Ideal
import Idealize.ShloMosaic.Lib.ValueIdx

noncomputable section

namespace Cert.Spec

open Idealize.ShloMosaic Idealize.ShloMosaic.ValueIdx

/-- A [2, e] array of 32-bit words: row 0 the sources (or first members), row 1 the destinations (second members). -/
abbrev Pairs (e : Nat) := (⟨2, ![2, e]⟩ : Shape).Idx → BitVec 32
/-- An [a, b] array of extended reals. -/
abbrev Mat (a b : Nat) := (⟨2, ![a, b]⟩ : Shape).Idx → EReal
/-- An [a] array of extended reals. -/
abbrev Row (a : Nat) := (⟨1, ![a]⟩ : Shape).Idx → EReal

/-- A negative word is shifted up by the number of nodes. -/
def wrap (w : BitVec 32) : BitVec 32 := Scalar.select (IntOp.cmpi .slt w 0#32) (IntOp.addi w 100000#32) w

/-- The node whose row a word selects: shifted if negative, then read signed and clamped into 0 … 99999. -/
def node (w : BitVec 32) : Fin 100000 := ⟨min (wrap w).toInt.toNat (100000 - 1), by omega⟩

/-- The degree of node i with its self-loop: one more than the number of edges whose destination word reads i. -/
def deg (ei : Pairs 1600000) (i : Fin 100000) : EReal :=
  ((0 : EReal) + ∑ _e ∈ Finset.univ.filter (fun e : Fin 1600000 => (ei (ix2 1 e)).toInt = (i.val : ℤ)), (1 : EReal)) + 1

/-- degree^(-1/2). -/
def dinv (ei : Pairs 1600000) (i : Fin 100000) : EReal := Ideal.rsqrt (deg ei i)

/-- One symmetric-normalised convolution of the table T, the self-loop's share added analytically. -/
def conv (T : Fin 100000 → Fin 128 → EReal) (ei : Pairs 1600000) (b : Row 128) (i : Fin 100000) (f : Fin 128) : EReal :=
  ((dinv ei i * ((0 : EReal) + ∑ e ∈ Finset.univ.filter (fun e : Fin 1600000 => (ei (ix2 1 e)).toInt = (i.val : ℤ)),
        T (node (ei (ix2 0 e))) f * dinv ei (node (ei (ix2 0 e)))))
    + (dinv ei i * dinv ei i) * T i f) + b (ix1 f)

/-- x · W1. -/
def lin1 (x : Mat 100000 256) (w1 : Mat 256 128) (i : Fin 100000) (f : Fin 128) : EReal :=
  ∑ c : Fin 256, x (ix2 i c) * w1 (ix2 c f)

/-- The hidden layer: relu of the first convolution. -/
def hidden (x : Mat 100000 256) (ei : Pairs 1600000) (w1 : Mat 256 128) (b1 : Row 128) (i : Fin 100000) (f : Fin 128) : EReal :=
  max (conv (lin1 x w1) ei b1 i f) 0

/-- hidden · W2. -/
def lin2 (x : Mat 100000 256) (ei : Pairs 1600000) (w1 : Mat 256 128) (b1 : Row 128) (w2 : Mat 128 128)
    (i : Fin 100000) (f : Fin 128) : EReal :=
  ∑ c : Fin 128, hidden x ei w1 b1 i c * w2 (ix2 c f)

/-- The node embedding: the second convolution. -/
def embed (x : Mat 100000 256) (ei : Pairs 1600000) (w1 : Mat 256 128) (b1 : Row 128) (w2 : Mat 128 128) (b2 : Row 128)
    (i : Fin 100000) (f : Fin 128) : EReal :=
  conv (lin2 x ei w1 b1 w2) ei b2 i f

/-- The class logits of a table of embeddings H: relu (H) · Wcls + bcls. -/
def logit (H : Fin 100000 → Fin 128 → EReal) (wc : Mat 128 10) (bc : Row 10) (i : Fin 100000) (q : Fin 10) : EReal :=
  (∑ c : Fin 128, max (H i c) 0 * wc (ix2 c q)) + bc (ix1 q)

/-- The largest of ten values, taken from −∞ (twice, as both programs do). -/
def rowMax (l : Fin 10 → EReal) : EReal := max ⊥ ((Finset.univ : Finset (Fin 10)).fold max ⊥ l)

/-- The log-softmax of ten logits. -/
def logSoftmax (l : Fin 10 → EReal) (q : Fin 10) : EReal :=
  (l q - rowMax l) - Ideal.log (∑ q' : Fin 10, Ideal.exp (l q' - rowMax l))

/-- The class scores. -/
def classScores (H : Fin 100000 → Fin 128 → EReal) (wc : Mat 128 10) (bc : Row 10) (i : Fin 100000) (q : Fin 10) : EReal :=
  logSoftmax (logit H wc bc i) q

/-- The score of a pair of words against the two halves of the pair weights. -/
def pairScore (H : Fin 100000 → Fin 128 → EReal) (wl : Mat 256 1) (bl : Row 1) (p q : BitVec 32) : EReal :=
  ((∑ c : Fin 128, H (node p) c * wl (ix2 (⟨c.val, by omega⟩ : Fin 256) 0))
    + (∑ c : Fin 128, H (node q) c * wl (ix2 (⟨128 + c.val, by omega⟩ : Fin 256) 0))) + bl (ix1 0)

/-- The three results as arrays. -/
def outClasses (H : Fin 100000 → Fin 128 → EReal) (wc : Mat 128 10) (bc : Row 10) : (⟨2, ![100000, 10]⟩ : Shape).Idx → EReal :=
  fun j => classScores H wc bc (j 0) (j 1)
def outPairs (H : Fin 100000 → Fin 128 → EReal) (wl : Mat 256 1) (bl : Row 1) (ep : Pairs 200000) : (⟨1, ![200000]⟩ : Shape).Idx → EReal :=
  fun j => pairScore H wl bl (ep (ix2 0 (j 0))) (ep (ix2 1 (j 0)))

end Cert.Spec

end
-- ==== Proof.KernelHeadBody.lean ====
/-
  The last launch's two results on one block, read at an entry, over the extended reals.

  On a [5000, 128] block x of the embedding the body computes two arrays.

  The class head. The block is clipped below at 0 and multiplied by the class weights [128, 10] into a zero
  accumulator, so entry (a, q') is ∑_c max (x (a, c), 0) · wc (c, q'); the one-row bias is added to every row. Call
  row a of the result l. The row's maximum is taken from −∞ over the 10 columns, and once more against −∞; it is
  subtracted from the row; the exponentials of the differences are summed over the 10 columns; and the logarithm of
  that sum is subtracted: entry (a, q) is (l q − M) − log ∑_{q'} exp (l q' − M) with M the row maximum, the
  log-softmax of l at q. Changes of number format are the identity on extended reals, and a recast of an array to its
  own shape reads the same entries.

  The score columns. The block times the pair weights laid out as two columns [128, 2], into a zero accumulator: entry
  (a, k) is ∑_c x (a, c) · wm (c, k).

  The row reductions are read through the index that puts the reduced column back: over result row a, column k of
  the source is the entry (a, k).
-/
import proofs.«129625_j60988535603969_2_alg».proof.Proof.Gen.KernelIdeal.Skeleton
import proofs.«129625_j60988535603969_2_alg».proof.Proof.Spec
import proofs.«129625_j60988535603969_2_alg».proof.Proof.LibPlainMatmul
import Idealize.ShloMosaic.Lib.IdealHost
import Idealize.ShloMosaic.Lib.ValueLayout
import Idealize.ShloMosaic.Lib.Pipeline.Value
import Idealize.ShloMosaic.PureOps.Ideal.Laws

noncomputable section

namespace Cert.KernelIdeal.Head

open Idealize.ShloMosaic Idealize.ShloMosaic.ValueIdx Cert.KernelIdeal Cert.KernelIdeal.Gen Cert.Lib

/-- A shape cast between equal shapes reads the operand at the same index. -/
private theorem shapeCast_same_apply {α : Type} {s : Shape} (x : s.Idx → α) (h : s.ShapeCasts s) (j : s.Idx) :
    shapeCast s x h j = x j := shapeCast_apply x h j j rfl

/-- The loaded block, recast to its own shape, is the block. -/
theorem pay1_apply (x : Vec Ideal S5000x128 .f32) (a : Fin 5000) (c : Fin 128) :
    k2_pay1 (F := Ideal) x (ix2 a c) = x (ix2 a c) := by
  unfold k2_pay1
  exact shapeCast_same_apply x _ (ix2 a c)

/-- The score columns of a block: entry (a, k) is the product of row a of the block with column k of the weights. -/
theorem scoreBody_apply (x : Vec Ideal S5000x128 .f32) (wm : Vec Ideal S128x2 .f32) (a : Fin 5000) (k : Fin 2) :
    k2_pay3 (F := Ideal) x wm (ix2 a k) = ∑ c : Fin 128, x (ix2 a c) * wm (ix2 c k) := by
  unfold k2_pay3
  refine (matmul_plain_zero_apply (m := 5000) (k := 128) (n := 2) (φ₁ := .bf16) (φ₂ := .bf16) none _ _ a k).trans ?_
  refine Finset.sum_congr rfl fun c _ => ?_
  rw [truncf_apply, truncf_apply, pay1_apply, shapeCast_same_apply]

/-- The exponential of an array, read at an index. -/
private theorem exp_at {s : Shape} {φ : FTy} (x : FVec Ideal s φ) (i : s.Idx) : exp x i = Ideal.exp (x i) := rfl

/-- The logarithm of an array, read at an index. -/
private theorem log_at {s : Shape} {φ : FTy} (x : FVec Ideal s φ) (i : s.Idx) : log x i = Ideal.log (x i) := rfl

/-- A scalar constant given by its word is the extended real the word encodes. -/
private theorem scalar_ofBits (φ : FTy) (b : BitVec φ.bits) : Scalar.ofBits (F := Ideal) φ b = Ideal.ofBits φ b := rfl

/-- The word 0xFF800000 encodes −∞. -/
private theorem ofBits_neg_inf : Ideal.ofBits .f32 0xFF800000#32 = ⊥ := by simp [Ideal.ofBits, Ideal.ieee]

/-- A vector [a] recast as a column [a, 1] reads, at (i, u), the vector at i. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry of row p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index r of a row reduction, with column k put back, is (r, k). -/
private theorem lift_ix2_axis1 {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

variable {m : ℕ}

/-- The row maxima of an [m, 10] array, taken from −∞ twice, spread back over the columns. -/
private def rowMaxArr (v : FVec Ideal ⟨2, ![m, 10]⟩ .f32) (hr : (⟨2, ![m, 10]⟩ : Shape).Reduces [1] (⟨1, ![m]⟩ : Shape))
    (hc : (⟨1, ![m]⟩ : Shape).ShapeCasts ⟨2, ![m, 1]⟩) (hb : (⟨2, ![m, 1]⟩ : Shape).Broadcasts ⟨2, ![m, 10]⟩) :
    FVec Ideal ⟨2, ![m, 10]⟩ .f32 :=
  broadcastTo ⟨2, ![m, 10]⟩ (shapeCast ⟨2, ![m, 1]⟩
    (maximumf (broadcast ⟨1, ![m]⟩ (Scalar.ofBits (F := Ideal) .f32 0xFF800000#32))
      (multiReduction .maximumf [1] ⟨1, ![m]⟩ v 0xFF800000#32 hr (.inl rfl) rfl)) hc) hb

private theorem rowMaxArr_apply (v : FVec Ideal ⟨2, ![m, 10]⟩ .f32) (hr : (⟨2, ![m, 10]⟩ : Shape).Reduces [1] (⟨1, ![m]⟩ : Shape))
    (hc : (⟨1, ![m]⟩ : Shape).ShapeCasts ⟨2, ![m, 1]⟩) (hb : (⟨2, ![m, 1]⟩ : Shape).Broadcasts ⟨2, ![m, 10]⟩)
    (a : Fin m) (q : Fin 10) :
    rowMaxArr v hr hc hb (ix2 a q) = Cert.Spec.rowMax (fun q' => v (ix2 a q')) := by
  have hf : (v ∘ hr.lift (ix1 a)) = fun k : Fin ((⟨2, ![m, 10]⟩ : Shape).size 1) => v (ix2 a (⟨k.val, k.isLt⟩ : Fin 10)) :=
    funext fun k => by rw [Function.comp_apply, lift_ix2_axis1]
  unfold rowMaxArr Cert.Spec.rowMax
  rw [broadcastTo_a1_ab_apply, shapeCast_a_a1_apply, maximumf_apply, broadcast_apply, scalar_ofBits, ofBits_neg_inf]
  refine congrArg (max ⊥) ?_
  refine (Ideal.multiReduction_maximumf_single v _ hr _ _ (ix1 a)).trans ?_
  rw [Ideal.ofBits_def, ofBits_neg_inf, hf]
  rfl

/-- The log-softmax of the rows of an [m, 10] array, as the program computes it, is the log-softmax of each row. -/
private theorem logSoftmaxRows_apply (v : FVec Ideal ⟨2, ![m, 10]⟩ .f32)
    (hr : (⟨2, ![m, 10]⟩ : Shape).Reduces [1] (⟨1, ![m]⟩ : Shape))
    (hc : (⟨1, ![m]⟩ : Shape).ShapeCasts ⟨2, ![m, 1]⟩) (hb : (⟨2, ![m, 1]⟩ : Shape).Broadcasts ⟨2, ![m, 10]⟩)
    (a : Fin m) (q : Fin 10) :
    subf (subf v (rowMaxArr v hr hc hb))
        (broadcastTo ⟨2, ![m, 10]⟩ (log (shapeCast ⟨2, ![m, 1]⟩
          (multiReduction .add [1] ⟨1, ![m]⟩ (exp (subf v (rowMaxArr v hr hc hb))) 0x00000000#32 hr (.inl rfl) rfl) hc)) hb)
        (ix2 a q)
      = Cert.Spec.logSoftmax (fun q' => v (ix2 a q')) q := by
  have hs : ∀ k : Fin ((⟨2, ![m, 10]⟩ : Shape).size 1),
      exp (subf v (rowMaxArr v hr hc hb)) (hr.lift (ix1 a) k)
        = Ideal.exp (v (ix2 a (⟨k.val, k.isLt⟩ : Fin 10)) - Cert.Spec.rowMax (fun q' => v (ix2 a q'))) :=
    fun k => by rw [lift_ix2_axis1, exp_at, subf_apply, rowMaxArr_apply]
  unfold Cert.Spec.logSoftmax
  rw [subf_apply, subf_apply, rowMaxArr_apply, broadcastTo_a1_ab_apply, log_at, shapeCast_a_a1_apply]
  refine congrArg (fun t => (v (ix2 a q) - Cert.Spec.rowMax fun q' => v (ix2 a q')) - Ideal.log t) ?_
  refine (Ideal.multiReduction_add_single _ _ hr _ _ (ix1 a)).trans ?_
  simp only [hs]
  rfl

/-- The class head of a block at (a, q): the log-softmax, over the 10 classes, of relu (row a) · Wcls + bcls. -/
theorem headBody_apply (x : Vec Ideal S5000x128 .f32) (wc : Vec Ideal S128x10 .f32) (bc : Vec Ideal S1x10 .f32)
    (a : Fin 5000) (q : Fin 10) :
    k2_pay2 (F := Ideal) x wc bc (ix2 a q)
      = Cert.Spec.logSoftmax (fun q' => (∑ c : Fin 128, max (x (ix2 a c)) 0 * wc (ix2 c q')) + bc (ix2 0 q')) q := by
  unfold k2_pay2
  refine (logSoftmaxRows_apply (m := 5000) _ _ _ _ a q).trans ?_
  refine congrArg (fun l => Cert.Spec.logSoftmax l q) (funext fun q' => ?_)
  beta_reduce
  rw [addf_apply, broadcastTo_1b_ab_apply, shapeCast_same_apply]
  refine congrArg (fun t => t + bc (ix2 0 q')) ?_
  refine (matmul_plain_zero_apply (m := 5000) (k := 128) (n := 10) (φ₁ := .bf16) (φ₂ := .bf16) none _ _ a q').trans ?_
  refine Finset.sum_congr rfl fun c _ => ?_
  rw [truncf_apply, truncf_apply, maximumf_apply, pay1_apply, broadcast_apply, scalar_ofBits, Ideal.ofBits_zero_f32]

end Cert.KernelIdeal.Head
-- ==== Proof.LibBlockIndex.lean ====
/-
  Index maps of a block into its array, read at coordinates.

  A block of an array is read through an index map from the block's indices to the array's. Of such a map a proof about
  tiled computations needs only its coordinates: a coordinate is kept, or shifted by the block's offset, or pinned to the
  member of a stacked array the block belongs to. Knowing the coordinates, the map's value at the index built from
  coordinates (a, b) — or (0, a, b) for a block with a leading axis of length one — is the index built from the shifted
  coordinates.
-/
import Idealize.ShloMosaic.Lib.ValueIdx

noncomputable section

namespace Cert.Lib

open Idealize.ShloMosaic Idealize.ShloMosaic.ValueIdx

/-- An index map of a rank-2 array into itself that keeps both coordinates is the identity at (a, b). -/
theorem keep2 {n0 n1 : Nat} (e : (⟨2, ![n0, n1]⟩ : Shape).Idx → (⟨2, ![n0, n1]⟩ : Shape).Idx)
    (h0 : ∀ y, (e y 0).val = (y 0).val) (h1 : ∀ y, (e y 1).val = (y 1).val) (a : Fin n0) (b : Fin n1) :
    e (ix2 a b) = ix2 a b := by
  funext d; apply Fin.ext
  match d with
  | ⟨0, _⟩ => exact h0 (ix2 a b)
  | ⟨1, _⟩ => exact h1 (ix2 a b)

/-- An index map of a row block into a taller array that shifts rows by off and keeps columns lands at (p, b) when
    p = off + a. -/
theorem shift2 {n0 N0 n1 : Nat} (e : (⟨2, ![n0, n1]⟩ : Shape).Idx → (⟨2, ![N0, n1]⟩ : Shape).Idx) (off : Nat)
    (h0 : ∀ y, (e y 0).val = off + (y 0).val) (h1 : ∀ y, (e y 1).val = (y 1).val)
    (a : Fin n0) (b : Fin n1) (p : Fin N0) (hp : p.val = off + a.val) :
    e (ix2 a b) = ix2 p b := by
  funext d; apply Fin.ext
  match d with
  | ⟨0, _⟩ => exact (h0 (ix2 a b)).trans hp.symm
  | ⟨1, _⟩ => exact h1 (ix2 a b)

/-- An index map of a [1, n1, n2] block into a stacked [R, N1, n2] array that sits at member r, shifts the middle
    coordinate by off and keeps the last lands at (r, p, b) when p = off + a. -/
theorem shift3 {n1 R N1 n2 : Nat} (e : (⟨3, ![1, n1, n2]⟩ : Shape).Idx → (⟨3, ![R, N1, n2]⟩ : Shape).Idx) (r : Fin R) (off : Nat)
    (h0 : ∀ y, (e y 0).val = r.val) (h1 : ∀ y, (e y 1).val = off + (y 1).val) (h2 : ∀ y, (e y 2).val = (y 2).val)
    (a : Fin n1) (b : Fin n2) (p : Fin N1) (hp : p.val = off + a.val) :
    e (ix3 0 a b) = ix3 r p b := by
  funext d; apply Fin.ext
  match d with
  | ⟨0, _⟩ => exact h0 (ix3 0 a b)
  | ⟨1, _⟩ => exact (h1 (ix3 0 a b)).trans hp.symm
  | ⟨2, _⟩ => exact h2 (ix3 0 a b)

end Cert.Lib

end
-- ==== Proof.KernelHead.lean ====
/-
  The third launch of the idealized kernel, from blocks to the whole arrays.

  The launch runs its body at twenty points; point t is given rows 5000 t … 5000 t + 4999 of the embedding table and
  the whole class weights, class bias row and two-column pair weights, and writes back those rows of the class scores and
  of the two score columns. Row by row the body's two stored blocks are functions of one row of the embeddings: the
  log-softmax over the ten classes of relu (row) · Wcls + bcls, and row · (the two columns). The twenty row blocks tile
  both result arrays, so after the launch each holds that row function of the table the launch found, at every row.
-/
import proofs.«129625_j60988535603969_2_alg».proof.Proof.Gen.KernelIdeal.Frame
import proofs.«129625_j60988535603969_2_alg».proof.Proof.KernelHeadBody
import proofs.«129625_j60988535603969_2_alg».proof.Proof.KernelProducts
import proofs.«129625_j60988535603969_2_alg».proof.Proof.LibBlockIndex
import proofs.«129625_j60988535603969_2_alg».proof.Proof.Spec
import Idealize.ShloMosaic.Lib.Pipeline.Value

set_option maxRecDepth 16384

noncomputable section

namespace Cert.KernelIdeal.Regions

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Facts₀

variable (V : (c : Dev nD) → (b : Ref sig .tc) → Buf (Elt Ideal) ((c : Thread nD τ).loc b))

/-- The class scores of every row of a table H against class weights wc and a one-row bias bc. -/
def classesOf (H : (⟨2, ![100000, 128]⟩ : Shape).Idx → EReal) (wc : (⟨2, ![128, 10]⟩ : Shape).Idx → EReal)
    (bc : (⟨2, ![1, 10]⟩ : Shape).Idx → EReal) : (⟨2, ![100000, 10]⟩ : Shape).Idx → EReal :=
  fun j => Cert.Spec.logSoftmax (fun q' => (∑ c' : Fin 128, max (H (ix2 (j 0) c')) 0 * wc (ix2 c' q')) + bc (ix2 0 q')) (j 1)

/-- The two score columns of every row of a table H against two-column weights wm. -/
def scoresOf (H : (⟨2, ![100000, 128]⟩ : Shape).Idx → EReal) (wm : (⟨2, ![128, 2]⟩ : Shape).Idx → EReal) :
    (⟨2, ![100000, 2]⟩ : Shape).Idx → EReal :=
  fun j => ∑ c' : Fin 128, H (ix2 (j 0) c') * wm (ix2 c' (j 1))

/-- The printed index maps over the twenty points: the table's block and both results' blocks are block t, the three
    small operands are whole at every point. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

set_option maxHeartbeats 2000000 in
/-- What point t writes back to the class scores is block t of the row function of the table. -/
theorem flushedClasses (c : Dev nD) (t : Fin cfg2.N) :
    (dat2 V c).flushed 4 t
      = ((cfg2.win 4).blk t).view.read (Elt Ideal) (classesOf (V c main_v69) (V c main_arg8) (V c main_v73)) := by
  show (cfg2.win 4).cut (grid2.coords t) ((dat2 V c).after 4 t) = _
  rw [after2_4]
  unfold out2_4
  rw [View.canon_unit_zero hz]
  simp only [View.ld_unit_zero (S := S5000x128) hz, View.ld_unit_zero (S := S128x10) hz, View.ld_unit_zero (S := S1x10) hz]
  obtain ⟨e0, e1, e2, e3, e4, e5, e6, e7, e8, e9, e10, e11⟩ := idx2 t
  funext j
  obtain ⟨a, q, rfl⟩ : ∃ (a : Fin 5000) (q : Fin 10), j = ix2 a q := ⟨j 0, j 1, eq_ix2 j⟩
  have ha : a.val < 5000 := a.isLt
  have ht : t.val < 20 := t.isLt
  let p : Fin 100000 := ⟨t.val * 5000 + a.val, by omega⟩
  have hE4 : ((cfg2.win 4).blk t).view.emb (ix2 a q) = ix2 p q :=
    Cert.Lib.shift2 (((cfg2.win 4).blk t).view.emb) (t.val * 5000) (fun y => by show win2_4.index t (0 : Fin 2) * 5000 + 1 * (y 0).val = _; omega) (fun y => by show win2_4.index t (1 : Fin 2) * 10 + 1 * (y 1).val = _; omega) a q p rfl
  have hE0 : ∀ c' : Fin 128, ((cfg2.win 0).blk t).view.emb (ix2 a c') = ix2 p c' := fun c' =>
    Cert.Lib.shift2 (((cfg2.win 0).blk t).view.emb) (t.val * 5000) (fun y => by show win2_0.index t (0 : Fin 2) * 5000 + 1 * (y 0).val = _; omega) (fun y => by show win2_0.index t (1 : Fin 2) * 128 + 1 * (y 1).val = _; omega) a c' p rfl
  have hE1 : ∀ (c' : Fin 128) (q' : Fin 10), ((cfg2.win 1).blk t).view.emb (ix2 c' q') = ix2 c' q' := fun c' q' =>
    Cert.Lib.keep2 (((cfg2.win 1).blk t).view.emb) (fun y => by show win2_1.index t (0 : Fin 2) * 128 + 1 * (y 0).val = _; omega) (fun y => by show win2_1.index t (1 : Fin 2) * 10 + 1 * (y 1).val = _; omega) c' q'
  have hE2 : ∀ q' : Fin 10, ((cfg2.win 2).blk t).view.emb (ix2 0 q') = ix2 0 q' := fun q' =>
    Cert.Lib.keep2 (((cfg2.win 2).blk t).view.emb) (fun y => by show win2_2.index t (0 : Fin 2) * 1 + 1 * (y 0).val = _; omega) (fun y => by show win2_2.index t (1 : Fin 2) * 10 + 1 * (y 1).val = _; omega) 0 q'
  let Hh : (⟨2, ![100000, 128]⟩ : Shape).Idx → EReal := V c main_v69
  let Wc : (⟨2, ![128, 10]⟩ : Shape).Idx → EReal := V c main_arg8
  let Bc : (⟨2, ![1, 10]⟩ : Shape).Idx → EReal := V c main_v73
  show k2_pay2 (F := Ideal) (iblk2 V c 0 t) (iblk2 V c 1 t) (iblk2 V c 2 t) (ix2 a q)
    = classesOf Hh Wc Bc (((cfg2.win 4).blk t).view.emb (ix2 a q))
  refine (Cert.KernelIdeal.Head.headBody_apply (iblk2 V c 0 t) (iblk2 V c 1 t) (iblk2 V c 2 t) a q).trans ?_
  rw [hE4]
  show _ = Cert.Spec.logSoftmax (fun q' => (∑ c' : Fin 128, max (Hh (ix2 p c')) 0 * Wc (ix2 c' q')) + Bc (ix2 0 q')) q
  refine congrArg (fun l => Cert.Spec.logSoftmax l q) (funext fun q' => ?_)
  refine congrArg₂ (· + ·) (Finset.sum_congr rfl fun c' _ => ?_) ?_
  · show max (Hh (((cfg2.win 0).blk t).view.emb (ix2 a c'))) 0 * Wc (((cfg2.win 1).blk t).view.emb (ix2 c' q')) = _
    rw [hE0, hE1]
  · show Bc (((cfg2.win 2).blk t).view.emb (ix2 0 q')) = _
    rw [hE2]

set_option maxHeartbeats 2000000 in
/-- What point t writes back to the score columns is block t of the row function of the table. -/
theorem flushedScores (c : Dev nD) (t : Fin cfg2.N) :
    (dat2 V c).flushed 5 t
      = ((cfg2.win 5).blk t).view.read (Elt Ideal) (scoresOf (V c main_v69) (V c main_v72)) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x2) hz]
  obtain ⟨e0, e1, e2, e3, e4, e5, e6, e7, e8, e9, e10, e11⟩ := idx2 t
  funext j
  obtain ⟨a, k, rfl⟩ : ∃ (a : Fin 5000) (k : Fin 2), j = ix2 a k := ⟨j 0, j 1, eq_ix2 j⟩
  have ha : a.val < 5000 := a.isLt
  have ht : t.val < 20 := t.isLt
  let p : Fin 100000 := ⟨t.val * 5000 + a.val, by omega⟩
  have hE5 : ((cfg2.win 5).blk t).view.emb (ix2 a k) = ix2 p k :=
    Cert.Lib.shift2 (((cfg2.win 5).blk t).view.emb) (t.val * 5000) (fun y => by show win2_5.index t (0 : Fin 2) * 5000 + 1 * (y 0).val = _; omega) (fun y => by show win2_5.index t (1 : Fin 2) * 2 + 1 * (y 1).val = _; omega) a k p rfl
  have hE0 : ∀ c' : Fin 128, ((cfg2.win 0).blk t).view.emb (ix2 a c') = ix2 p c' := fun c' =>
    Cert.Lib.shift2 (((cfg2.win 0).blk t).view.emb) (t.val * 5000) (fun y => by show win2_0.index t (0 : Fin 2) * 5000 + 1 * (y 0).val = _; omega) (fun y => by show win2_0.index t (1 : Fin 2) * 128 + 1 * (y 1).val = _; omega) a c' p rfl
  have hE3 : ∀ (c' : Fin 128) (k' : Fin 2), ((cfg2.win 3).blk t).view.emb (ix2 c' k') = ix2 c' k' := fun c' k' =>
    Cert.Lib.keep2 (((cfg2.win 3).blk t).view.emb) (fun y => by show win2_3.index t (0 : Fin 2) * 128 + 1 * (y 0).val = _; omega) (fun y => by show win2_3.index t (1 : Fin 2) * 2 + 1 * (y 1).val = _; omega) c' k'
  let Hh : (⟨2, ![100000, 128]⟩ : Shape).Idx → EReal := V c main_v69
  let Wm : (⟨2, ![128, 2]⟩ : Shape).Idx → EReal := V c main_v72
  show k2_pay3 (F := Ideal) (iblk2 V c 0 t) (iblk2 V c 3 t) (ix2 a k)
    = scoresOf Hh Wm (((cfg2.win 5).blk t).view.emb (ix2 a k))
  refine (Cert.KernelIdeal.Head.scoreBody_apply (iblk2 V c 0 t) (iblk2 V c 3 t) a k).trans ?_
  rw [hE5]
  show _ = ∑ c' : Fin 128, Hh (ix2 p c') * Wm (ix2 c' k)
  refine Finset.sum_congr rfl fun c' _ => ?_
  show Hh (((cfg2.win 0).blk t).view.emb (ix2 a c')) * Wm (((cfg2.win 3).blk t).view.emb (ix2 c' k)) = _
  rw [hE0, hE3]

/-- An index of the class scores is in point t's block iff its row is among the block's 5000. -/
theorem mem_blkClasses (t : Fin cfg2.N) (i : S100000x10.Idx) :
    i ∈ ((cfg2.win 4).blk t).view.set ↔ ∀ a : Fin 2, win2_4.index t a * S5000x10.size a ≤ (i a).val ∧ (i a).val < win2_4.index t a * S5000x10.size a + S5000x10.size a := by
  show i ∈ ((View.whole main_v74_0).slice (win2_4.rect t)).set ↔ _
  rw [View.set_slice_whole, Rect.mem_set_unit]
  exact Iff.rfl

/-- Every row is in some point's block: row r in block r / 5000. -/
theorem coverClasses (i : S100000x10.Idx) :
    ∃ t : Fin cfg2.N, (cfg2.win 4).flush t = true ∧ i ∈ ((cfg2.win 4).blk t).view.set := by
  have hi0 : (i 0).val < 100000 := (i 0).isLt
  have hi1 : (i 1).val < 10 := (i 1).isLt
  refine ⟨⟨(i 0).val / 5000, by show (i 0).val / 5000 < 20; omega⟩, flush2_4 _, ?_⟩
  rw [mem_blkClasses]
  obtain ⟨e0, e1, e2, e3, e4, e5, e6, e7, e8, e9, e10, e11⟩ := idx2 ⟨(i 0).val / 5000, by show (i 0).val / 5000 < 20; omega⟩
  intro a
  match a with
  | ⟨0, _⟩ => show win2_4.index _ (0 : Fin 2) * 5000 ≤ (i 0).val ∧ (i 0).val < win2_4.index _ (0 : Fin 2) * 5000 + 5000; rw [e8]; show (i 0).val / 5000 * 5000 ≤ (i 0).val ∧ (i 0).val < (i 0).val / 5000 * 5000 + 5000; omega
  | ⟨1, _⟩ => show win2_4.index _ (1 : Fin 2) * 10 ≤ (i 1).val ∧ (i 1).val < win2_4.index _ (1 : Fin 2) * 10 + 10; rw [e9]; omega

/-- An index of the score columns is in point t's block iff its row is among the block's 5000. -/
theorem mem_blkScores (t : Fin cfg2.N) (i : S100000x2.Idx) :
    i ∈ ((cfg2.win 5).blk t).view.set ↔ ∀ a : Fin 2, win2_5.index t a * S5000x2.size a ≤ (i a).val ∧ (i a).val < win2_5.index t a * S5000x2.size a + S5000x2.size a := by
  show i ∈ ((View.whole main_v74_1).slice (win2_5.rect t)).set ↔ _
  rw [View.set_slice_whole, Rect.mem_set_unit]
  exact Iff.rfl

/-- Every row is in some point's block: row r in block r / 5000. -/
theorem coverScores (i : S100000x2.Idx) :
    ∃ t : Fin cfg2.N, (cfg2.win 5).flush t = true ∧ i ∈ ((cfg2.win 5).blk t).view.set := by
  have hi0 : (i 0).val < 100000 := (i 0).isLt
  have hi1 : (i 1).val < 2 := (i 1).isLt
  refine ⟨⟨(i 0).val / 5000, by show (i 0).val / 5000 < 20; omega⟩, flush2_5 _, ?_⟩
  rw [mem_blkScores]
  obtain ⟨e0, e1, e2, e3, e4, e5, e6, e7, e8, e9, e10, e11⟩ := idx2 ⟨(i 0).val / 5000, by show (i 0).val / 5000 < 20; omega⟩
  intro a
  match a with
  | ⟨0, _⟩ => show win2_5.index _ (0 : Fin 2) * 5000 ≤ (i 0).val ∧ (i 0).val < win2_5.index _ (0 : Fin 2) * 5000 + 5000; rw [e10]; show (i 0).val / 5000 * 5000 ≤ (i 0).val ∧ (i 0).val < (i 0).val / 5000 * 5000 + 5000; omega
  | ⟨1, _⟩ => show win2_5.index _ (1 : Fin 2) * 2 ≤ (i 1).val ∧ (i 1).val < win2_5.index _ (1 : Fin 2) * 2 + 2; rw [e11]; omega

/-- After the launch the class scores hold the row function of the table the launch found. -/
theorem finalClasses (c : Dev nD) :
    (dat2 V c).arrAt 4 cfg2.N = classesOf (V c main_v69) (V c main_arg8) (V c main_v73) :=
  (dat2 V c).arrAt_eq_of_cover 4 (classesOf (V c main_v69) (V c main_arg8) (V c main_v73)) (fun t _ => flushedClasses V c t) coverClasses

/-- After the launch the score columns hold the row function of the table the launch found. -/
theorem finalScores (c : Dev nD) :
    (dat2 V c).arrAt 5 cfg2.N = scoresOf (V c main_v69) (V c main_v72) :=
  (dat2 V c).arrAt_eq_of_cover 5 (scoresOf (V c main_v69) (V c main_v72)) (fun t _ => flushedScores V c t) coverScores

end Cert.KernelIdeal.Regions

end
-- ==== Proof.LibIndexedRows.lean ====
/-
  Reading a row gather, an accumulating row scatter and a joined pair of flat arrays at one index.

  A table T has N rows and F columns; a list of E start indices, each a machine word read as a signed integer,
  names rows of it.

  Gather. The gathered array has one row per start index: its entry (e, f) is T (r, f), where r is the e-th start
  index clamped into [0, N - 1] (a negative index reads row 0, an index past the end reads the last row). The
  flat version (a table with N entries and no columns) is the same statement without f.

  Accumulating scatter. Update row e is added to the table's row whose number is the e-th start index; an index
  that is not a row number (negative, or N and above) adds nowhere. Row e keeps its columns: entry (e, q) of the
  updates lands on (n, f) exactly when the index is n and q = f. So entry (n, f) of the result is the table's
  entry plus the sum, over the updates e whose index is n, of the update's entry (e, f). The sum is over the
  extended reals, where addition is commutative and associative, so no finiteness is needed.

  Joining. Two flat arrays u (length a) and v (length b) joined end to end: position j < a reads u j, position
  a + k reads v k.
-/
import Idealize.ShloMosaic.PureOps.Ideal
import Idealize.ShloMosaic.Lib.ValueIdx
import Idealize.ShloMosaic.Lib.Pipeline.Value

noncomputable section

namespace Cert.Lib

open Idealize.ShloMosaic Idealize.ShloMosaic.ValueIdx

/-- Update rows [E, F] scattered into a table [N, F] through start indices [E, 1]: entry (e, q) of the updates
    lands on (n, f) exactly when its start index, read signed, is n and the column is kept, q = f. -/
theorem resultIdx_rows {N F E w : Nat} (d : ScatterDims ⟨2, ![N, F]⟩ ⟨2, ![E, 1]⟩ ⟨2, ![E, F]⟩)
    (h1 : d.updateWindowDims = [1]) (h2 : d.insertedWindowDims = [0]) (h3 : d.scatterDimsToOperandDims = [0])
    (h4 : d.indexVectorDim = 1) (idx : IVec ⟨2, ![E, 1]⟩ w) (e : Fin E) (q : Fin F) (n : Fin N) (f : Fin F) :
    d.resultIdx? (ix2 e q) idx = some (ix2 n f) ↔ (idx (ix2 e 0)).toInt = (n.val : Int) ∧ q = f := by
  obtain ⟨uw, iw, sd, iv, wf⟩ := d
  simp only at h1 h2 h3 h4
  subst h1 h2 h3 h4
  have hs0 : ScatterDims.start ⟨[1], [0], [0], 1, wf⟩ (ix2 e q) idx 0 = (idx (ix2 e 0)).toInt := by
    unfold ScatterDims.start
    rw [dif_pos (by simp)]
    congr 2
    funext b
    match b with
    | ⟨0, _⟩ => rfl
    | ⟨1, _⟩ => rfl
  have hs1 : ScatterDims.start ⟨[1], [0], [0], 1, wf⟩ (ix2 e q) idx 1 = 0 := by
    unfold ScatterDims.start
    rw [dif_neg (by simp)]
  have hw0 : ScatterDims.window ⟨[1], [0], [0], 1, wf⟩ (ix2 e q) 0 = 0 := by
    unfold ScatterDims.window
    rw [dif_neg (by simp [ScatterDims.sKept, Shape.kept])]
  have hw1 : ScatterDims.window ⟨[1], [0], [0], 1, wf⟩ (ix2 e q) 1 = q.val := by
    unfold ScatterDims.window
    rw [dif_pos (by simp [ScatterDims.sKept, Shape.kept])]
    rfl
  unfold ScatterDims.resultIdx?
  constructor
  · intro h
    split at h
    · rename_i hc
      have hc0 := hc 0
      rw [hs0, hw0] at hc0
      have e0 := congrArg Fin.val (congrFun (Option.some.inj h) 0)
      have e1 := congrArg Fin.val (congrFun (Option.some.inj h) 1)
      simp only [hs0, hw0] at e0
      simp only [hs1, hw1] at e1
      have hN : (n.val : Int) < (N : Int) := by exact_mod_cast n.isLt
      refine ⟨?_, Fin.ext ?_⟩
      · change ((idx (ix2 e 0)).toInt + ((0 : Nat) : Int)).toNat = n.val at e0
        change 0 ≤ (idx (ix2 e 0)).toInt + ((0 : Nat) : Int) ∧ _ at hc0
        omega
      · change ((0 : Int) + ((q.val : Nat) : Int)).toNat = f.val at e1
        omega
    · exact absurd h (by simp)
  · rintro ⟨h, rfl⟩
    refine (dif_pos ?_).trans ?_
    · intro a
      match a with
      | ⟨0, _⟩ =>
        have := n.isLt
        show 0 ≤ ScatterDims.start ⟨[1], [0], [0], 1, wf⟩ (ix2 e q) idx 0 + ((ScatterDims.window ⟨[1], [0], [0], 1, wf⟩ (ix2 e q) 0 : Nat) : Int)
          ∧ ScatterDims.start ⟨[1], [0], [0], 1, wf⟩ (ix2 e q) idx 0 + ((ScatterDims.window ⟨[1], [0], [0], 1, wf⟩ (ix2 e q) 0 : Nat) : Int) < (N : Int)
        rw [hs0, hw0]
        omega
      | ⟨1, _⟩ =>
        have := q.isLt
        show 0 ≤ ScatterDims.start ⟨[1], [0], [0], 1, wf⟩ (ix2 e q) idx 1 + ((ScatterDims.window ⟨[1], [0], [0], 1, wf⟩ (ix2 e q) 1 : Nat) : Int)
          ∧ ScatterDims.start ⟨[1], [0], [0], 1, wf⟩ (ix2 e q) idx 1 + ((ScatterDims.window ⟨[1], [0], [0], 1, wf⟩ (ix2 e q) 1 : Nat) : Int) < (F : Int)
        rw [hs1, hw1]
        omega
    · congr 1
      funext a
      match a with
      | ⟨0, _⟩ =>
        apply Fin.ext
        show (ScatterDims.start ⟨[1], [0], [0], 1, wf⟩ (ix2 e q) idx 0 + ((ScatterDims.window ⟨[1], [0], [0], 1, wf⟩ (ix2 e q) 0 : Nat) : Int)).toNat = n.val
        rw [hs0, hw0]
        omega
      | ⟨1, _⟩ =>
        apply Fin.ext
        show (ScatterDims.start ⟨[1], [0], [0], 1, wf⟩ (ix2 e q) idx 1 + ((ScatterDims.window ⟨[1], [0], [0], 1, wf⟩ (ix2 e q) 1 : Nat) : Int)).toNat = q.val
        rw [hs1, hw1]
        omega

/-- Entry (n, f) of an accumulating row scatter: the table's entry plus the sum, over the updates whose start
    index is n, of the update's entry in column f. -/
theorem hostScatterAdd_rows_apply {N F E w : Nat} (d : ScatterDims ⟨2, ![N, F]⟩ ⟨2, ![E, 1]⟩ ⟨2, ![E, F]⟩)
    (h1 : d.updateWindowDims = [1]) (h2 : d.insertedWindowDims = [0]) (h3 : d.scatterDimsToOperandDims = [0])
    (h4 : d.indexVectorDim = 1) (x : (⟨2, ![N, F]⟩ : Shape).Idx → EReal) (idx : IVec ⟨2, ![E, 1]⟩ w)
    (upd : (⟨2, ![E, F]⟩ : Shape).Idx → EReal) (n : Fin N) (f : Fin F) :
    Ideal.hostScatterAdd d x idx upd (ix2 n f)
      = x (ix2 n f) + ∑ e ∈ Finset.univ.filter (fun e : Fin E => (idx (ix2 e 0)).toInt = (n.val : Int)), upd (ix2 e f) := by
  unfold Ideal.hostScatterAdd
  congr 1
  have key : ∀ j : (⟨2, ![E, F]⟩ : Shape).Idx, d.resultIdx? j idx = some (ix2 n f) ↔
      (idx (ix2 (j 0 : Fin E) 0)).toInt = (n.val : Int) ∧ (j 1 : Fin F) = f := fun j => by
    conv_lhs => rw [eq_ix2 j]
    exact resultIdx_rows d h1 h2 h3 h4 idx _ _ n f
  refine Finset.sum_nbij' (fun j => (j 0 : Fin E)) (fun e => ix2 e f) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key (ix2 e f)).2 ⟨(Finset.mem_filter.1 he).2, rfl⟩⟩
  · intro j hj
    have hf := ((key j).1 (Finset.mem_filter.1 hj).2).2
    show ix2 (j 0 : Fin E) f = j
    rw [← hf]
    exact (eq_ix2 j).symm
  · intro e _
    rfl
  · intro j hj
    have hf := ((key j).1 (Finset.mem_filter.1 hj).2).2
    show upd j = upd (ix2 (j 0 : Fin E) f)
    rw [← hf]
    exact congrArg upd (eq_ix2 j)

/-- The row a start index selects: read signed, clamped into [0, N - 1]. -/
def clampRow (N : Nat) (hN : 0 < N) {w : Nat} (v : BitVec w) : Fin N := ⟨min v.toInt.toNat (N - 1), by omega⟩

/-- Entry (e, f) of a row gather: the table's entry in column f of the row the e-th start index selects. -/
theorem rowGather_apply {N F E w : Nat} (hN : 0 < N) {α : Type} (g : GatherDims ⟨2, ![N, F]⟩ ⟨2, ![E, 1]⟩ ⟨2, ![E, F]⟩)
    (h1 : g.offsetDims = [1]) (h2 : g.collapsedSliceDims = [0]) (h3 : g.operandBatchingDims = [])
    (h4 : g.startIndexMap = [0]) (h5 : g.indexVectorDim = 1) (h6 : g.sliceSizes = ![1, F])
    (T : (⟨2, ![N, F]⟩ : Shape).Idx → α) (idx : IVec ⟨2, ![E, 1]⟩ w) (e : Fin E) (f : Fin F) :
    Host.gather g T idx (ix2 e f) = T (ix2 (clampRow N hN (idx (ix2 e 0))) f) := by
  obtain ⟨od, cd, ob, sb, sm, iv, ss, wf⟩ := g
  simp only at h1 h2 h3 h4 h5 h6
  subst h1 h2 h3 h4 h5 h6
  unfold Host.gather
  congr 1
  funext a
  refine Fin.ext ?_
  match a with
  | ⟨0, _⟩ =>
    show GatherDims.start (⟨[1], [0], [], sb, [0], 1, ![1, F], wf⟩ : GatherDims ⟨2, ![N, F]⟩ ⟨2, ![E, 1]⟩ ⟨2, ![E, F]⟩) (ix2 e f) idx 0
      + GatherDims.batchCoord (⟨[1], [0], [], sb, [0], 1, ![1, F], wf⟩ : GatherDims ⟨2, ![N, F]⟩ ⟨2, ![E, 1]⟩ ⟨2, ![E, F]⟩) (ix2 e f) 0
      + GatherDims.offCoord (⟨[1], [0], [], sb, [0], 1, ![1, F], wf⟩ : GatherDims ⟨2, ![N, F]⟩ ⟨2, ![E, 1]⟩ ⟨2, ![E, F]⟩) (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[1], [0], [], sb, [0], 1, ![1, F], wf⟩ : GatherDims ⟨2, ![N, F]⟩ ⟨2, ![E, 1]⟩ ⟨2, ![E, F]⟩) (ix2 e f)
        ⟨List.idxOf (0 : Fin 2) [0], List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show GatherDims.start (⟨[1], [0], [], sb, [0], 1, ![1, F], wf⟩ : GatherDims ⟨2, ![N, F]⟩ ⟨2, ![E, 1]⟩ ⟨2, ![E, F]⟩) (ix2 e f) idx 1
      + GatherDims.batchCoord (⟨[1], [0], [], sb, [0], 1, ![1, F], wf⟩ : GatherDims ⟨2, ![N, F]⟩ ⟨2, ![E, 1]⟩ ⟨2, ![E, F]⟩) (ix2 e f) 1
      + GatherDims.offCoord (⟨[1], [0], [], sb, [0], 1, ![1, F], wf⟩ : GatherDims ⟨2, ![N, F]⟩ ⟨2, ![E, 1]⟩ ⟨2, ![E, F]⟩) (ix2 e f) 1 = f.val
    rw [GatherDims.batchCoord_eq_zero _ _ _ List.not_mem_nil]
    unfold GatherDims.start
    rw [dif_neg (by simp)]
    unfold GatherDims.offCoord
    rw [dif_pos (by simp [GatherDims.sKept, Shape.kept])]
    simp only [Nat.zero_add, Nat.add_zero]
    rfl

/-- Entry e of a flat gather: the table's entry at the position the e-th start index selects. -/
theorem flatGather_apply {N E w : Nat} (hN : 0 < N) {α : Type} (g : GatherDims ⟨1, ![N]⟩ ⟨2, ![E, 1]⟩ ⟨1, ![E]⟩)
    (h1 : g.offsetDims = []) (h2 : g.collapsedSliceDims = [0]) (h3 : g.operandBatchingDims = [])
    (h4 : g.startIndexMap = [0]) (h5 : g.indexVectorDim = 1) (h6 : g.sliceSizes = ![1])
    (T : (⟨1, ![N]⟩ : Shape).Idx → α) (idx : IVec ⟨2, ![E, 1]⟩ w) (e : Fin E) :
    Host.gather g T idx (ix1 e) = T (ix1 (clampRow N hN (idx (ix2 e 0)))) := by
  obtain ⟨od, cd, ob, sb, sm, iv, ss, wf⟩ := g
  simp only at h1 h2 h3 h4 h5 h6
  subst h1 h2 h3 h4 h5 h6
  unfold Host.gather
  congr 1
  funext a
  obtain rfl : a = 0 := Subsingleton.elim _ _
  refine Fin.ext ?_
  show GatherDims.start (⟨[], [0], [], sb, [0], 1, ![1], wf⟩ : GatherDims ⟨1, ![N]⟩ ⟨2, ![E, 1]⟩ ⟨1, ![E]⟩) (ix1 e) idx 0
    + GatherDims.batchCoord (⟨[], [0], [], sb, [0], 1, ![1], wf⟩ : GatherDims ⟨1, ![N]⟩ ⟨2, ![E, 1]⟩ ⟨1, ![E]⟩) (ix1 e) 0
    + GatherDims.offCoord (⟨[], [0], [], sb, [0], 1, ![1], wf⟩ : GatherDims ⟨1, ![N]⟩ ⟨2, ![E, 1]⟩ ⟨1, ![E]⟩) (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  have hsi : GatherDims.siIdx (⟨[], [0], [], sb, [0], 1, ![1], wf⟩ : GatherDims ⟨1, ![N]⟩ ⟨2, ![E, 1]⟩ ⟨1, ![E]⟩) (ix1 e)
      ⟨List.idxOf (0 : Fin 1) [0], List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- Two flat arrays joined end to end, read at a position j inside the first: the first array's entry j. -/
theorem concat1_apply_left {a b c : Nat} {α : Type} (u : (⟨1, ![a]⟩ : Shape).Idx → α) (v : (⟨1, ![b]⟩ : Shape).Idx → α)
    (h : Shape.Concatenates [⟨1, ![a]⟩, ⟨1, ![b]⟩] ⟨1, ![c]⟩ 0) (j : Fin c) (k : Fin a) (hk : j.val = k.val) :
    concatenate ⟨1, ![c]⟩ 0 [⟨⟨1, ![a]⟩, u⟩, ⟨⟨1, ![b]⟩, v⟩] h (ix1 j) = u (ix1 k) :=
  concatenate_pair_apply_left 0 u v h (ix1 j) rfl (ix1 k) fun ax => by
    match ax with
    | ⟨0, _⟩ => exact hk.symm

/-- … and read at position a + k, past the first array: the second array's entry k. -/
theorem concat1_apply_right {a b c : Nat} {α : Type} (u : (⟨1, ![a]⟩ : Shape).Idx → α) (v : (⟨1, ![b]⟩ : Shape).Idx → α)
    (h : Shape.Concatenates [⟨1, ![a]⟩, ⟨1, ![b]⟩] ⟨1, ![c]⟩ 0) (j : Fin c) (k : Fin b) (hk : j.val = a + k.val) :
    concatenate ⟨1, ![c]⟩ 0 [⟨⟨1, ![a]⟩, u⟩, ⟨⟨1, ![b]⟩, v⟩] h (ix1 j) = v (ix1 k) :=
  concatenate_pair_apply_right 0 u v h (ix1 j) rfl rfl (ix1 k)
    (fun ax hax => by
      match ax, hax with
      | ⟨0, _⟩, hax => exact absurd rfl hax)
    (by show k.val + a = j.val; omega)

end Cert.Lib

end
-- ==== Proof.LibSegmentCount.lean ====
/-
  An accumulating scatter along the rows, read at one slot, over the extended reals.

  The scatter has one start index per update e, a row number read as a signed integer; update e lands on row n
  exactly when that integer is n, and an index outside the rows lands nowhere. So slot n of the result is the
  operand's slot plus the sum of the updates whose start index is n. This is stated for the two layouts a
  segment sum is written in: flat updates [E] into [N], and one-column updates [E, 1] into [N, 1]. Scattering
  ones into zeros therefore gives, in either layout, the number of updates whose index is n: a natural number,
  so a real one. Last, for a natural k, a · (1 / max(k, 1)) = a / max(k, 1) for every extended real a, infinite
  ones included: the divisor is a nonzero real, and dividing by it is multiplying by its inverse.
-/
import Idealize.ShloMosaic.PureOps.Ideal
import Idealize.ShloMosaic.Lib.ValueIdx

noncomputable section

namespace Cert.Lib

open Idealize.ShloMosaic Idealize.ShloMosaic.ValueIdx

variable {N E w : Nat}

/-- A window of one row starting at the signed integer z lies inside N rows exactly when z is a row number. -/
private theorem row_window_iff (z : Int) (n : Fin N)
    (h : 0 ≤ z + ((0 : Nat) : Int) ∧ z + ((0 : Nat) : Int) < (N : Int)) :
    (z + ((0 : Nat) : Int)).toNat = n.val ↔ z = (n.val : Int) := by
  omega

/-- Flat updates [E] scattered into [N] through start indices [E, 1]: update e lands on slot n exactly when its
    start index, read signed, is n. -/
theorem resultIdx_flat (d : ScatterDims ⟨1, ![N]⟩ ⟨2, ![E, 1]⟩ ⟨1, ![E]⟩) (h1 : d.updateWindowDims = [])
    (h2 : d.insertedWindowDims = [0]) (h3 : d.scatterDimsToOperandDims = [0]) (h4 : d.indexVectorDim = 1)
    (idx : IVec ⟨2, ![E, 1]⟩ w) (e : Fin E) (n : Fin N) :
    d.resultIdx? (ix1 e) idx = some (ix1 n) ↔ (idx (ix2 e 0)).toInt = (n.val : Int) := by
  obtain ⟨uw, iw, sd, iv, wf⟩ := d
  simp only at h1 h2 h3 h4
  subst h1 h2 h3 h4
  have hs : ∀ a, ScatterDims.start ⟨[], [0], [0], 1, wf⟩ (ix1 e) idx a = (idx (ix2 e 0)).toInt := by
    intro a
    have ha : a = 0 := Subsingleton.elim _ _
    subst ha
    unfold ScatterDims.start
    rw [dif_pos (by simp)]
    congr 2
    funext b
    match b with
    | ⟨0, _⟩ => rfl
    | ⟨1, _⟩ => rfl
  have hw : ∀ a, ScatterDims.window ⟨[], [0], [0], 1, wf⟩ (ix1 e) a = 0 := by
    intro a
    have ha : a = 0 := Subsingleton.elim _ _
    subst ha
    unfold ScatterDims.window
    rw [dif_neg (by simp [ScatterDims.sKept, Shape.kept])]
  unfold ScatterDims.resultIdx?
  simp only [hs, hw]
  constructor
  · intro h
    split at h
    · rename_i hc
      have h0 := congrArg Fin.val (congrFun (Option.some.inj h) 0)
      exact (row_window_iff _ n (hc 0)).1 h0
    · exact absurd h (by simp)
  · intro h
    have hc : ∀ a : Fin 1, 0 ≤ (idx (ix2 e 0)).toInt + ((0 : Nat) : Int) ∧ (idx (ix2 e 0)).toInt + ((0 : Nat) : Int) < ((![N] a : Nat) : Int) := by
      intro a
      have ha : a = 0 := Subsingleton.elim _ _
      subst ha
      have := n.isLt
      show 0 ≤ (idx (ix2 e 0)).toInt + ((0 : Nat) : Int) ∧ (idx (ix2 e 0)).toInt + ((0 : Nat) : Int) < (N : Int)
      omega
    rw [dif_pos hc]
    congr 1
    funext a
    have ha : a = 0 := Subsingleton.elim _ _
    subst ha
    exact Fin.ext ((row_window_iff _ n (hc 0)).2 h)

/-- One-column updates [E, 1] scattered into [N, 1] through start indices [E, 1]: update (e, 0) lands on slot
    (n, 0) exactly when its start index, read signed, is n. -/
theorem resultIdx_col (d : ScatterDims ⟨2, ![N, 1]⟩ ⟨2, ![E, 1]⟩ ⟨2, ![E, 1]⟩) (h1 : d.updateWindowDims = [1])
    (h2 : d.insertedWindowDims = [0]) (h3 : d.scatterDimsToOperandDims = [0]) (h4 : d.indexVectorDim = 1)
    (idx : IVec ⟨2, ![E, 1]⟩ w) (e : Fin E) (q : Fin 1) (n : Fin N) (r : Fin 1) :
    d.resultIdx? (ix2 e q) idx = some (ix2 n r) ↔ (idx (ix2 e 0)).toInt = (n.val : Int) := by
  obtain ⟨uw, iw, sd, iv, wf⟩ := d
  simp only at h1 h2 h3 h4
  subst h1 h2 h3 h4
  have hq : q = 0 := Subsingleton.elim _ _
  have hr : r.val = 0 := by have := r.isLt; omega
  subst hq
  have hs : ∀ a : Fin 2, ScatterDims.start ⟨[1], [0], [0], 1, wf⟩ (ix2 e 0) idx a
      = if a.val = 0 then (idx (ix2 e 0)).toInt else 0 := by
    intro a
    unfold ScatterDims.start
    match a with
    | ⟨0, _⟩ =>
      rw [dif_pos (by simp)]
      show (idx _).toInt = (idx (ix2 e 0)).toInt
      congr 2
      funext b
      match b with
      | ⟨0, _⟩ => rfl
      | ⟨1, _⟩ => rfl
    | ⟨1, _⟩ =>
      rw [dif_neg (by simp)]
      rfl
  have hw : ∀ a : Fin 2, ScatterDims.window ⟨[1], [0], [0], 1, wf⟩ (ix2 e (0 : Fin 1)) a = 0 := by
    intro a
    unfold ScatterDims.window
    match a with
    | ⟨0, _⟩ => rw [dif_neg (by simp [ScatterDims.sKept, Shape.kept])]
    | ⟨1, _⟩ => rw [dif_pos (by simp [ScatterDims.sKept, Shape.kept])]; rfl
  unfold ScatterDims.resultIdx?
  simp only [hs, hw]
  constructor
  · intro h
    split at h
    · rename_i hc
      have h0 := congrArg Fin.val (congrFun (Option.some.inj h) 0)
      exact (row_window_iff _ n (hc 0)).1 h0
    · exact absurd h (by simp)
  · intro h
    refine (dif_pos ?_).trans ?_
    · intro a
      match a with
      | ⟨0, _⟩ =>
        have := n.isLt
        show 0 ≤ (idx (ix2 e 0)).toInt + ((0 : Nat) : Int) ∧ (idx (ix2 e 0)).toInt + ((0 : Nat) : Int) < (N : Int)
        omega
      | ⟨1, _⟩ =>
        show 0 ≤ (0 : Int) + ((0 : Nat) : Int) ∧ (0 : Int) + ((0 : Nat) : Int) < ((1 : Nat) : Int)
        omega
    · congr 1
      funext a
      match a with
      | ⟨0, _⟩ =>
        apply Fin.ext
        show ((idx (ix2 e 0)).toInt + ((0 : Nat) : Int)).toNat = n.val
        omega
      | ⟨1, _⟩ =>
        apply Fin.ext
        show ((0 : Int) + ((0 : Nat) : Int)).toNat = r.val
        omega

/-- Slot n of a flat accumulating scatter: the operand's slot plus the sum of the updates whose index is n. -/
theorem hostScatterAdd_flat_apply (d : ScatterDims ⟨1, ![N]⟩ ⟨2, ![E, 1]⟩ ⟨1, ![E]⟩) (h1 : d.updateWindowDims = [])
    (h2 : d.insertedWindowDims = [0]) (h3 : d.scatterDimsToOperandDims = [0]) (h4 : d.indexVectorDim = 1)
    (x : (⟨1, ![N]⟩ : Shape).Idx → EReal) (idx : IVec ⟨2, ![E, 1]⟩ w) (upd : (⟨1, ![E]⟩ : Shape).Idx → EReal)
    (n : Fin N) :
    Ideal.hostScatterAdd d x idx upd (ix1 n)
      = x (ix1 n) + ∑ e ∈ Finset.univ.filter (fun e : Fin E => (idx (ix2 e 0)).toInt = (n.val : Int)), upd (ix1 e) := by
  unfold Ideal.hostScatterAdd
  congr 1
  refine Finset.sum_nbij' (fun j => (j 0 : Fin E)) (fun e => ix1 e) ?_ ?_ ?_ ?_ ?_
  · intro j hj
    have h := (Finset.mem_filter.1 hj).2
    rw [eq_ix1 j] at h
    exact Finset.mem_filter.2 ⟨Finset.mem_univ _, (resultIdx_flat d h1 h2 h3 h4 idx _ n).1 h⟩
  · intro e he
    exact Finset.mem_filter.2 ⟨Finset.mem_univ _,
      (resultIdx_flat d h1 h2 h3 h4 idx e n).2 (Finset.mem_filter.1 he).2⟩
  · intro j _
    exact (eq_ix1 j).symm
  · intro e _
    rfl
  · intro j _
    exact congrArg upd (eq_ix1 j)

/-- Slot (n, 0) of a one-column accumulating scatter: the operand's slot plus the sum of the updates whose index
    is n. -/
theorem hostScatterAdd_col_apply (d : ScatterDims ⟨2, ![N, 1]⟩ ⟨2, ![E, 1]⟩ ⟨2, ![E, 1]⟩)
    (h1 : d.updateWindowDims = [1]) (h2 : d.insertedWindowDims = [0]) (h3 : d.scatterDimsToOperandDims = [0])
    (h4 : d.indexVectorDim = 1) (x : (⟨2, ![N, 1]⟩ : Shape).Idx → EReal) (idx : IVec ⟨2, ![E, 1]⟩ w)
    (upd : (⟨2, ![E, 1]⟩ : Shape).Idx → EReal) (n : Fin N) (r : Fin 1) :
    Ideal.hostScatterAdd d x idx upd (ix2 n r)
      = x (ix2 n r) + ∑ e ∈ Finset.univ.filter (fun e : Fin E => (idx (ix2 e 0)).toInt = (n.val : Int)), upd (ix2 e 0) := by
  unfold Ideal.hostScatterAdd
  congr 1
  have hj1 : ∀ j : (⟨2, ![E, 1]⟩ : Shape).Idx, j = ix2 (j 0 : Fin E) (0 : Fin 1) := fun j => by
    funext a
    match a with
    | ⟨0, _⟩ => rfl
    | ⟨1, _⟩ => exact Fin.ext (by have := idx2_lt1 j; show (j 1).val = 0; omega)
  refine Finset.sum_nbij' (fun j => (j 0 : Fin E)) (fun e => ix2 e (0 : Fin 1)) ?_ ?_ ?_ ?_ ?_
  · intro j hj
    have h := (Finset.mem_filter.1 hj).2
    rw [hj1 j] at h
    exact Finset.mem_filter.2 ⟨Finset.mem_univ _, (resultIdx_col d h1 h2 h3 h4 idx _ 0 n r).1 h⟩
  · intro e he
    exact Finset.mem_filter.2 ⟨Finset.mem_univ _,
      (resultIdx_col d h1 h2 h3 h4 idx e 0 n r).2 (Finset.mem_filter.1 he).2⟩
  · intro j _
    exact (hj1 j).symm
  · intro e _
    rfl
  · intro j _
    exact congrArg upd (hj1 j)

/-- The number of updates whose start index, read signed, is the row n. -/
def landCount (idx : IVec ⟨2, ![E, 1]⟩ w) (n : Fin N) : Nat :=
  (Finset.univ.filter (fun e : Fin E => (idx (ix2 e 0)).toInt = (n.val : Int))).card

/-- A sum of ones over a finite set is the set's size, a real number. -/
theorem sum_ones_coe {ι : Type*} (s : Finset ι) : ∑ _e ∈ s, (1 : EReal) = ((s.card : ℝ) : EReal) := by
  classical
  induction s using Finset.induction_on with
  | empty => simp
  | insert a s ha ih =>
    rw [Finset.sum_insert ha, ih, Finset.card_insert_of_notMem ha, Nat.cast_add, Nat.cast_one, EReal.coe_add,
      EReal.coe_one, add_comm]

/-- Ones scattered into zeros, flat layout: slot n counts the updates whose index is n. -/
theorem scatter_ones_flat (d : ScatterDims ⟨1, ![N]⟩ ⟨2, ![E, 1]⟩ ⟨1, ![E]⟩) (h1 : d.updateWindowDims = [])
    (h2 : d.insertedWindowDims = [0]) (h3 : d.scatterDimsToOperandDims = [0]) (h4 : d.indexVectorDim = 1)
    (idx : IVec ⟨2, ![E, 1]⟩ w) (n : Fin N) :
    Ideal.hostScatterAdd d (fun _ => 0) idx (fun _ => 1) (ix1 n) = ((landCount idx n : ℝ) : EReal) := by
  rw [hostScatterAdd_flat_apply d h1 h2 h3 h4, zero_add, sum_ones_coe]; rfl

/-- Ones scattered into zeros, one-column layout: slot (n, 0) counts the updates whose index is n. -/
theorem scatter_ones_col (d : ScatterDims ⟨2, ![N, 1]⟩ ⟨2, ![E, 1]⟩ ⟨2, ![E, 1]⟩) (h1 : d.updateWindowDims = [1])
    (h2 : d.insertedWindowDims = [0]) (h3 : d.scatterDimsToOperandDims = [0]) (h4 : d.indexVectorDim = 1)
    (idx : IVec ⟨2, ![E, 1]⟩ w) (n : Fin N) (r : Fin 1) :
    Ideal.hostScatterAdd d (fun _ => 0) idx (fun _ => 1) (ix2 n r) = ((landCount idx n : ℝ) : EReal) := by
  rw [hostScatterAdd_col_apply d h1 h2 h3 h4, zero_add, sum_ones_coe]; rfl

/-- For a natural k, a · (1 / max(k, 1)) = a / max(k, 1) on every extended real a: the divisor is a real number
    that is at least one. -/
theorem mul_inv_max_count (a : EReal) (k : Nat) :
    a * Ideal.div 1 (max (((k : ℝ) : EReal)) 1) = Ideal.div a (max (((k : ℝ) : EReal)) 1) := by
  have hm : max (((k : ℝ) : EReal)) 1 = (((max (k : ℝ) 1 : ℝ)) : EReal) := by
    rw [← EReal.coe_one]; exact (EReal.coe_strictMono.monotone.map_max).symm
  have hne : max (k : ℝ) 1 ≠ 0 := (lt_of_lt_of_le one_pos (le_max_right _ _)).ne'
  rw [hm, Ideal.div_coe hne, Ideal.div_coe hne, one_mul]

end Cert.Lib

end
-- ==== Proof.LibHostSpread.lean ====
/-
  The host's spreading operation read at an index, for the small layouts a per-row statistic and a per-column bias go
  through: a scalar spread over a whole array reads the scalar everywhere; an [a, 1] column spread over [a, b] reads, at
  (p, c), the column's entry of row p; a [1, b] row spread over [a, b] reads the row's entry of column c; a vector [a]
  spread along dimension 0 of [a, 1] reads, at (i, ·), the vector at i — and is the same array as the vector recast to
  that column.
-/
import Idealize.ShloMosaic.Lib.Pipeline.Value
import Idealize.ShloMosaic.Lib.ValueIdx
import Idealize.ShloMosaic.Lib.ValueLayout

noncomputable section

namespace Cert.Lib

open Idealize.ShloMosaic Idealize.ShloMosaic.ValueIdx

variable {α : Type}

/-- A scalar spread over an array of any shape reads the scalar at every index. -/
theorem splat_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 (fun a => a.elim0)

/-- An `[a, 1]` column spread over `[a, b]` (both axes kept) reads, at `(p, c)`, the column's entry of row `p`. -/
theorem spread_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, b]` row spread over `[a, b]` (both axes kept) reads, at `(p, c)`, the row's entry of column `c`. -/
theorem spread_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` spread along dimension 0 of `[a, 1]` reads, at `(i, u)`, the vector at `i`. -/
theorem spread_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A vector recast as a column is the vector spread along dimension 0 of the column's shape. -/
theorem shapeCast_col_eq_spread {a : ℕ} (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ ![0] h' x := by
  funext j
  obtain ⟨i, u, rfl⟩ : ∃ (i : Fin a) (u : Fin 1), j = ix2 i u := ⟨j 0, j 1, eq_ix2 j⟩
  rw [spread_a_a1_apply x h' i u]
  refine shapeCast_apply x h _ _ ?_
  have hu : u.val = 0 := by omega
  rw [Shape.rowMajor_val_two, Shape.rowMajor_val_one]
  show i.val = i.val * 1 + u.val
  rw [hu, Nat.mul_one, Nat.add_zero]

end Cert.Lib

end
-- ==== Proof.KernelChainRead.lean ====
/-
  The host arithmetic between the launches, read at one index, over the extended reals.

  Each whole-array function of the chain is evaluated at a single index and found to be the entry the specification
  names:

  • the two rows of a [2, e] word array, taken out as flat lists, read the array's entries (0, e) and (1, e);
  • the shift of negative words, at one word, is the specification's shift of that word;
  • a per-node value repeated along the features reads the node's value;
  • degree^(-1/2): zeros, with a one added onto node n for every edge whose destination word reads n, plus one, then
    the inverse square root — the specification's dinv, the count being the sum of ones over the edges that land on n;
  • one convolution step at (i, f): the gathered row of edge e is row node (src e) of the table scaled by dinv, so the
    scattered sum at (i, f) is the sum over the edges landing on i of T (node (src e), f) · dinv (node (src e)); scaled
    by dinv i, plus dinv i · dinv i · T (i, f), plus the bias at f — the specification's conv;
  • relu at an entry is the larger of the entry and 0; the two halves of the pair weights side by side read the
    weights at c and at 128 + c; the class bias as a one-row table reads the bias;
  • the pair scores at pair e: column 0 of the scores at the first member's row, plus column 1 at the second member's
    row, plus the pair bias.

  A row a word selects is the word read signed and clamped into 0 … 99999, after the shift of negative words; that is
  the specification's node.
-/
import proofs.«129625_j60988535603969_2_alg».proof.Proof.KernelChain
import proofs.«129625_j60988535603969_2_alg».proof.Proof.Spec
import proofs.«129625_j60988535603969_2_alg».proof.Proof.LibIndexedRows
import proofs.«129625_j60988535603969_2_alg».proof.Proof.LibSegmentCount
import proofs.«129625_j60988535603969_2_alg».proof.Proof.LibHostSpread
import Idealize.ShloMosaic.Lib.IdealHost
import Idealize.ShloMosaic.Lib.ValueLayout
import Idealize.ShloMosaic.Lib.Pipeline.Value
import Idealize.ShloMosaic.PureOps.Ideal.Laws

noncomputable section

namespace Cert.KernelIdeal.Chain

open Idealize.ShloMosaic Idealize.ShloMosaic.ValueIdx Cert.KernelIdeal Cert.KernelIdeal.Facts₀ Cert.Lib

/-- The host's inverse square root of an array, read at an index, is the inverse square root of the entry. -/
private theorem hostRsqrt_apply {s : Shape} {φ : FTy} (x : FVec Ideal s φ) (i : s.Idx) :
    Host.rsqrt x i = Ideal.rsqrt (x i) := rfl

/-- Over the extended reals the host's accumulating scatter is the exact sum. -/
private theorem hostScatterAdd_eq {s si u : Shape} {φ : FTy} {w : Nat} (d : ScatterDims s si u) (x : FVec Ideal s φ)
    (idx : IVec si w) (upd : FVec Ideal u φ) : Host.scatterAdd d x idx upd = Ideal.hostScatterAdd d x idx upd := rfl

/-- Row 0 of the edge array, as a flat list. -/
theorem srcW_apply (ei : (⟨S2x1600000, .i32⟩ : BufTy).Contents (Elt Ideal)) (e : Fin 1600000) :
    srcW (F := Ideal) ei (ix1 e) = ei (ix2 0 e) := by
  unfold srcW
  rw [shapeCast_1a_a_apply _ shapeCasts_S1x1600000_S1600000 e]
  exact slice2_axis0_apply 0 ei slices_S2x1600000_S1x1600000_0_0 (0 : Fin 1) e (0 : Fin 2) rfl

/-- Row 1 of the edge array, as a flat list. -/
theorem dstW_apply (ei : (⟨S2x1600000, .i32⟩ : BufTy).Contents (Elt Ideal)) (e : Fin 1600000) :
    dstW (F := Ideal) ei (ix1 e) = ei (ix2 1 e) := by
  unfold dstW
  rw [shapeCast_1a_a_apply _ shapeCasts_S1x1600000_S1600000 e]
  exact slice2_axis0_apply 1 ei slices_S2x1600000_S1x1600000_1_0 (0 : Fin 1) e (1 : Fin 2) rfl

/-- Row 0 of a pair array, as a flat list. -/
theorem fstW_apply (ep : (⟨S2x200000, .i32⟩ : BufTy).Contents (Elt Ideal)) (e : Fin 200000) :
    fstW (F := Ideal) ep (ix1 e) = ep (ix2 0 e) := by
  unfold fstW
  rw [shapeCast_1a_a_apply _ shapeCasts_S1x200000_S200000 e]
  exact slice2_axis0_apply 0 ep slices_S2x200000_S1x200000_0_0 (0 : Fin 1) e (0 : Fin 2) rfl

/-- Row 1 of a pair array, as a flat list. -/
theorem sndW_apply (ep : (⟨S2x200000, .i32⟩ : BufTy).Contents (Elt Ideal)) (e : Fin 200000) :
    sndW (F := Ideal) ep (ix1 e) = ep (ix2 1 e) := by
  unfold sndW
  rw [shapeCast_1a_a_apply _ shapeCasts_S1x200000_S200000 e]
  exact slice2_axis0_apply 1 ep slices_S2x200000_S1x200000_1_0 (0 : Fin 1) e (1 : Fin 2) rfl

/-- degree^(-1/2) as the host computes it, at node i: ones are added onto the nodes the destination words name,
one more is added for the loop, and the inverse square root is taken. -/
theorem dinvA_apply (ei : (⟨S2x1600000, .i32⟩ : BufTy).Contents (Elt Ideal)) (i : Fin 100000) :
    dinvA (F := Ideal) (dstW ei) (ix1 i) = Cert.Spec.dinv ei i := by
  unfold dinvA Cert.Spec.dinv Cert.Spec.deg
  rw [hostRsqrt_apply, addf_apply, hostScatterAdd_eq,
    hostScatterAdd_flat_apply scatter_S100000_S1600000x1_S1600000_n_0_0_1 rfl rfl rfl rfl]
  have hidx : ∀ e : Fin 1600000,
      broadcastInDim S1600000x1 ![0] bcast_S1600000_S1600000x1_0 (dstW (F := Ideal) ei) (ix2 e 0) = ei (ix2 1 e) :=
    fun e => by rw [spread_a_a1_apply, dstW_apply]
  have hone : ∀ e : Fin 1600000,
      broadcastInDim S1600000 ![] bcast_S_S1600000 (constant (F := Ideal) S_ .f32 0x3F800000#32) (ix1 e) = (1 : EReal) :=
    fun e => by rw [splat_apply, constant_apply, Ideal.ofBits_one_f32]
  rw [splat_apply, constant_apply, Ideal.ofBits_zero_f32, splat_apply, constant_apply, Ideal.ofBits_one_f32]
  simp only [hidx, hone]

/-- An integer comparison of two arrays, read at an index, compares the entries. -/
private theorem cmpi_at {s : Shape} {w : Nat} (p : CmpIPredicate) (x y : IVec s w) (i : s.Idx) :
    cmpi p x y i = IntOp.cmpi p (x i) (y i) := rfl

/-- An integer sum of two arrays, read at an index, adds the entries. -/
private theorem addi_at {s : Shape} {w : Nat} (x y : IVec s w) (i : s.Idx) : addi x y i = IntOp.addi (x i) (y i) := rfl

/-- An [a, 1] column recast as a vector reads, at i, the column's entry of row i. -/
private theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The shift of negative words on the edge list, at one edge. -/
theorem wrapE_apply (w : (⟨S1600000, .i32⟩ : BufTy).Contents (Elt Ideal)) (e : Fin 1600000) :
    wrapE (F := Ideal) w (ix1 e) = Cert.Spec.wrap (w (ix1 e)) := by
  unfold wrapE Cert.Spec.wrap
  rw [select_apply, cmpi_at, addi_at, splat_apply, constantI_apply, splat_apply, constantI_apply]

/-- The shift of negative words on a pair list, at one pair. -/
theorem wrapP_apply (w : (⟨S200000, .i32⟩ : BufTy).Contents (Elt Ideal)) (e : Fin 200000) :
    wrapP (F := Ideal) w (ix1 e) = Cert.Spec.wrap (w (ix1 e)) := by
  unfold wrapP Cert.Spec.wrap
  rw [select_apply, cmpi_at, addi_at, splat_apply, constantI_apply, splat_apply, constantI_apply]

/-- A per-node value repeated along the features reads, at (i, f), the node's value. -/
theorem spread_apply (d : (⟨S100000, .f32⟩ : BufTy).Contents (Elt Ideal)) (i : Fin 100000) (f : Fin 128) :
    spread (F := Ideal) d (ix2 i f) = d (ix1 i) := by
  unfold spread
  rw [spread_a1_ab_apply, spread_a_a1_apply]

/-- relu on a whole table, at one entry. -/
theorem reluA_apply (v : (⟨S100000x128, .f32⟩ : BufTy).Contents (Elt Ideal)) (i : Fin 100000) (f : Fin 128) :
    reluA (F := Ideal) v (ix2 i f) = max (v (ix2 i f)) 0 := by
  unfold reluA
  rw [maximumf_apply, splat_apply, constant_apply, Ideal.ofBits_zero_f32]

/-- Column 0 of the pair weights laid side by side is the first half of the weights. -/
theorem wcombA_apply0 (wl : (⟨S256x1, .f32⟩ : BufTy).Contents (Elt Ideal)) (c : Fin 128) :
    wcombA (F := Ideal) wl (ix2 c 0) = wl (ix2 (⟨c.val, by omega⟩ : Fin 256) 0) := by
  unfold wcombA
  rw [concatenate_pair_apply_left (s₁ := S128x1) (s₂ := S128x1) (1 : Fin 2) _ _ concatenates_S128x1_S128x1_S128x2_d1 (ix2 c (0 : Fin 2)) rfl
    (ix2 c (0 : Fin 1)) (fun b => by
      match b with
      | ⟨0, _⟩ => rfl
      | ⟨1, _⟩ => rfl)]
  exact slice2_axis0_apply 0 wl slices_S256x1_S128x1_0_0 c (0 : Fin 1) ⟨c.val, by omega⟩ (Nat.zero_add _).symm

/-- Column 1 of the pair weights laid side by side is the second half of the weights. -/
theorem wcombA_apply1 (wl : (⟨S256x1, .f32⟩ : BufTy).Contents (Elt Ideal)) (c : Fin 128) :
    wcombA (F := Ideal) wl (ix2 c 1) = wl (ix2 (⟨128 + c.val, by omega⟩ : Fin 256) 0) := by
  unfold wcombA
  rw [concatenate_pair_apply_right (s₁ := S128x1) (s₂ := S128x1) (1 : Fin 2) _ _ concatenates_S128x1_S128x1_S128x2_d1 (ix2 c (1 : Fin 2)) rfl rfl
    (ix2 c (0 : Fin 1)) (fun b hb => by
      match b, hb with
      | ⟨0, _⟩, _ => rfl
      | ⟨1, _⟩, hb => exact absurd rfl hb) rfl]
  exact slice2_axis0_apply 128 wl slices_S256x1_S128x1_128_0 c (0 : Fin 1) ⟨128 + c.val, by omega⟩ rfl

/-- The class bias as a one-row table reads the bias. -/
theorem biasRowA_apply (bc : (⟨S10, .f32⟩ : BufTy).Contents (Elt Ideal)) (q : Fin 10) :
    biasRowA (F := Ideal) bc (ix2 0 q) = bc (ix1 q) := by
  unfold biasRowA
  exact shapeCast_a_1a_apply bc shapeCasts_S10_S1x10 (0 : Fin 1) q

/-- Column 0 of the two score columns, at node r. -/
theorem score0_apply (sc : (⟨S100000x2, .f32⟩ : BufTy).Contents (Elt Ideal)) (r : Fin 100000) :
    score0 (F := Ideal) sc (ix1 r) = sc (ix2 r 0) := by
  unfold score0
  rw [shapeCast_a1_a_apply _ shapeCasts_S100000x1_S100000 r]
  exact slice2_axis1_apply 0 sc slices_S100000x2_S100000x1_0_0 r (0 : Fin 1) (0 : Fin 2) rfl

/-- Column 1 of the two score columns, at node r. -/
theorem score1_apply (sc : (⟨S100000x2, .f32⟩ : BufTy).Contents (Elt Ideal)) (r : Fin 100000) :
    score1 (F := Ideal) sc (ix1 r) = sc (ix2 r 1) := by
  unfold score1
  rw [shapeCast_a1_a_apply _ shapeCasts_S100000x1_S100000 r]
  exact slice2_axis1_apply 1 sc slices_S100000x2_S100000x1_0_1 r (0 : Fin 1) (1 : Fin 2) rfl

/-- The pair scores at pair e: column 0 at the first member's row, plus column 1 at the second member's row, plus the
pair bias. -/
theorem pairsA_apply (sc : (⟨S100000x2, .f32⟩ : BufTy).Contents (Elt Ideal))
    (ep : (⟨S2x200000, .i32⟩ : BufTy).Contents (Elt Ideal)) (bl : (⟨S1, .f32⟩ : BufTy).Contents (Elt Ideal)) (e : Fin 200000) :
    pairsA (F := Ideal) sc (fstW ep) (sndW ep) bl (ix1 e)
      = (sc (ix2 (Cert.Spec.node (ep (ix2 0 e))) 0) + sc (ix2 (Cert.Spec.node (ep (ix2 1 e))) 1)) + bl (ix1 0) := by
  have hb : shapeCast S_ bl shapeCasts_S1_S_ ix0 = bl (ix1 0) := by
    refine shapeCast_apply bl shapeCasts_S1_S_ ix0 (ix1 0) ?_
    rw [Shape.rowMajor_val_one]
    exact (Shape.rowMajorPi_zero _ _).symm
  unfold pairsA
  rw [addf_apply, addf_apply, splat_apply, hb,
    flatGather_apply (by norm_num) gather_S100000_S200000x1_S200000_n_0_n_n_0_1_1 rfl rfl rfl rfl rfl rfl,
    flatGather_apply (by norm_num) gather_S100000_S200000x1_S200000_n_0_n_n_0_1_1 rfl rfl rfl rfl rfl rfl,
    score0_apply, score1_apply, spread_a_a1_apply, spread_a_a1_apply, wrapP_apply, wrapP_apply, fstW_apply, sndW_apply]
  rfl

/-- A vector [b] spread along dimension 1 of [1, b] reads, at (u, c), the vector at c. -/
private theorem spread_b_1b_apply {α : Type} {b : ℕ} (x : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- One convolution step as the host computes it, at (i, f): the rows are scaled by dinv, the rows the source words
select are gathered and added onto the nodes the destination words name, the sums are scaled by dinv again, and the
loop's share dinv i · dinv i · xt (i, f) and the bias are added. -/
theorem convA_apply (xt : (⟨S100000x128, .f32⟩ : BufTy).Contents (Elt Ideal))
    (ei : (⟨S2x1600000, .i32⟩ : BufTy).Contents (Elt Ideal)) (b : (⟨S128, .f32⟩ : BufTy).Contents (Elt Ideal))
    (i : Fin 100000) (f : Fin 128) :
    convA (F := Ideal) xt (srcW ei) (dstW ei) (dinvA (dstW ei)) b (ix2 i f)
      = Cert.Spec.conv (fun i f => xt (ix2 i f)) ei b i f := by
  have hd : ∀ k : Fin 100000, dinvA (F := Ideal) (dstW ei) (ix1 k) = Cert.Spec.dinv ei k := dinvA_apply ei
  have hidx : ∀ e : Fin 1600000,
      broadcastInDim S1600000x1 ![0] bcast_S1600000_S1600000x1_0 (dstW (F := Ideal) ei) (ix2 e 0) = ei (ix2 1 e) :=
    fun e => by rw [spread_a_a1_apply, dstW_apply]
  have hupd : ∀ e : Fin 1600000,
      Host.gather gather_S100000x128_S1600000x1_S1600000x128_1_0_n_n_0_1_1128
          (mulf (F := Ideal) (s := S100000x128) (φ := .f32) xt (spread (F := Ideal) (dinvA (dstW ei))))
          (broadcastInDim S1600000x1 ![0] bcast_S1600000_S1600000x1_0 (wrapE (F := Ideal) (srcW ei))) (ix2 e f)
        = xt (ix2 (Cert.Spec.node (ei (ix2 0 e))) f) * Cert.Spec.dinv ei (Cert.Spec.node (ei (ix2 0 e))) := by
    intro e
    rw [rowGather_apply (by norm_num) gather_S100000x128_S1600000x1_S1600000x128_1_0_n_n_0_1_1128 rfl rfl rfl rfl rfl rfl,
      spread_a_a1_apply, wrapE_apply, srcW_apply, mulf_apply, spread_apply, hd]
    rfl
  unfold convA Cert.Spec.conv
  rw [addf_apply, addf_apply, mulf_apply, mulf_apply, spread_apply, spread_apply, mulf_apply, hd, hostScatterAdd_eq,
    hostScatterAdd_rows_apply scatter_S100000x128_S1600000x1_S1600000x128_1_0_0_1 rfl rfl rfl rfl,
    splat_apply, constant_apply, Ideal.ofBits_zero_f32, spread_1b_ab_apply, spread_b_1b_apply]
  simp only [hidx, hupd]

end Cert.KernelIdeal.Chain
-- ==== Proof.KernelValue.lean ====
/-
  What the idealized kernel computes: its three results as the specification's functions of the argument arrays.

  The run ends with every buffer at the last boundary's contents. Walking a result buffer back through the boundaries —
  a host stretch applies its operations to what it found, a launch leaves in its result array the function of the arrays
  it found that its blocks tile — and reading the whole-array operations entry by entry gives: the first launch's table is
  x · W1; the hidden layer is relu of one convolution step on it; the second launch's table is hidden · W2; the embedding
  is one convolution step on that; the class scores are the log-softmax head of the embedding rows; and a pair's score is
  the first score column at the first member's node plus the second column at the second member's node plus the bias.
-/
import proofs.«129625_j60988535603969_2_alg».proof.Proof.KernelWalk
import proofs.«129625_j60988535603969_2_alg».proof.Proof.KernelProducts
import proofs.«129625_j60988535603969_2_alg».proof.Proof.KernelHead
import proofs.«129625_j60988535603969_2_alg».proof.Proof.KernelChainRead
import proofs.«129625_j60988535603969_2_alg».proof.Proof.Spec
import Idealize.ShloMosaic.Lib.StackMember

set_option maxRecDepth 16384

noncomputable section

namespace Cert.KernelIdeal.Results

open Idealize.ShloMosaic Idealize.ShloMosaic.TcCoe Idealize.ShloMosaic.Tactic Idealize.ShloMosaic.ValueIdx
open Idealize.SL Idealize.SL.Sem
open Cert.KernelIdeal Cert.KernelIdeal.Gen Cert.KernelIdeal.Facts₀

variable (m : (ℓ : Loc nD τ sig) → Buf (Elt Ideal) ℓ) (ρ : Dev nD → PrngReg)

/-! ## After the first stretch -/

theorem w1_arg0 (c : Dev nD) : W1 m ρ c (Proc.devRef .tc main_arg0) = (m ((c : Thread nD τ).loc main_arg0)) := Walk.k0_arg0 (W0 m ρ c)
theorem w1_arg4 (c : Dev nD) : W1 m ρ c (Proc.devRef .tc main_arg4) = (m ((c : Thread nD τ).loc main_arg4)) := Walk.k0_arg4 (W0 m ρ c)
theorem w1_arg5 (c : Dev nD) : W1 m ρ c (Proc.devRef .tc main_arg5) = (m ((c : Thread nD τ).loc main_arg5)) := Walk.k0_arg5 (W0 m ρ c)
theorem w1_arg6 (c : Dev nD) : W1 m ρ c (Proc.devRef .tc main_arg6) = (m ((c : Thread nD τ).loc main_arg6)) := Walk.k0_arg6 (W0 m ρ c)
theorem w1_arg7 (c : Dev nD) : W1 m ρ c (Proc.devRef .tc main_arg7) = (m ((c : Thread nD τ).loc main_arg7)) := Walk.k0_arg7 (W0 m ρ c)
theorem w1_arg8 (c : Dev nD) : W1 m ρ c (Proc.devRef .tc main_arg8) = (m ((c : Thread nD τ).loc main_arg8)) := Walk.k0_arg8 (W0 m ρ c)
theorem w1_arg9 (c : Dev nD) : W1 m ρ c (Proc.devRef .tc main_arg9) = (m ((c : Thread nD τ).loc main_arg9)) := Walk.k0_arg9 (W0 m ρ c)
theorem w1_arg10 (c : Dev nD) : W1 m ρ c (Proc.devRef .tc main_arg10) = (m ((c : Thread nD τ).loc main_arg10)) := Walk.k0_arg10 (W0 m ρ c)
theorem w1_arg11 (c : Dev nD) : W1 m ρ c (Proc.devRef .tc main_arg11) = (m ((c : Thread nD τ).loc main_arg11)) := Walk.k0_arg11 (W0 m ρ c)
theorem w1_src (c : Dev nD) : W1 m ρ c (Proc.devRef .tc main_v1) = Chain.srcW (m ((c : Thread nD τ).loc main_arg1)) := Walk.s0_src (W0 m ρ c)
theorem w1_dst (c : Dev nD) : W1 m ρ c (Proc.devRef .tc main_v3) = Chain.dstW (m ((c : Thread nD τ).loc main_arg1)) := Walk.s0_dst (W0 m ρ c)
theorem w1_pos0 (c : Dev nD) : W1 m ρ c (Proc.devRef .tc main_v5) = Chain.fstW (m ((c : Thread nD τ).loc main_arg2)) := Walk.s0_pos0 (W0 m ρ c)
theorem w1_pos1 (c : Dev nD) : W1 m ρ c (Proc.devRef .tc main_v7) = Chain.sndW (m ((c : Thread nD τ).loc main_arg2)) := Walk.s0_pos1 (W0 m ρ c)
theorem w1_neg0 (c : Dev nD) : W1 m ρ c (Proc.devRef .tc main_v9) = Chain.fstW (m ((c : Thread nD τ).loc main_arg3)) := Walk.s0_neg0 (W0 m ρ c)
theorem w1_neg1 (c : Dev nD) : W1 m ρ c (Proc.devRef .tc main_v11) = Chain.sndW (m ((c : Thread nD τ).loc main_arg3)) := Walk.s0_neg1 (W0 m ρ c)
theorem w1_dinv (c : Dev nD) : W1 m ρ c (Proc.devRef .tc main_v18) = Chain.dinvA (Chain.dstW (m ((c : Thread nD τ).loc main_arg1))) := Walk.s0_dinv (W0 m ρ c)

/-! ## Buffers no later stretch or launch writes keep what the first stretch left -/

theorem c2_v1 (c : Dev nD) : W2 m ρ c (Proc.devRef .tc main_v1) = W1 m ρ c (Proc.devRef .tc main_v1) := W2_of_ne m ρ c main_v1 (by decide)
theorem c2_v3 (c : Dev nD) : W2 m ρ c (Proc.devRef .tc main_v3) = W1 m ρ c (Proc.devRef .tc main_v3) := W2_of_ne m ρ c main_v3 (by decide)
theorem c2_v18 (c : Dev nD) : W2 m ρ c (Proc.devRef .tc main_v18) = W1 m ρ c (Proc.devRef .tc main_v18) := W2_of_ne m ρ c main_v18 (by decide)
theorem c2_arg5 (c : Dev nD) : W2 m ρ c (Proc.devRef .tc main_arg5) = W1 m ρ c (Proc.devRef .tc main_arg5) := W2_of_ne m ρ c main_arg5 (by decide)
theorem c4_v1 (c : Dev nD) : W4 m ρ c (Proc.devRef .tc main_v1) = W1 m ρ c (Proc.devRef .tc main_v1) :=
  (Walk.k11_v1 (W3 m ρ c)).trans ((Walk.k1_v1 (W2 m ρ c)).trans (W2_of_ne m ρ c main_v1 (by decide)))
theorem c4_v3 (c : Dev nD) : W4 m ρ c (Proc.devRef .tc main_v3) = W1 m ρ c (Proc.devRef .tc main_v3) :=
  (Walk.k11_v3 (W3 m ρ c)).trans ((Walk.k1_v3 (W2 m ρ c)).trans (W2_of_ne m ρ c main_v3 (by decide)))
theorem c4_v18 (c : Dev nD) : W4 m ρ c (Proc.devRef .tc main_v18) = W1 m ρ c (Proc.devRef .tc main_v18) :=
  (Walk.k11_v18 (W3 m ρ c)).trans ((Walk.k1_v18 (W2 m ρ c)).trans (W2_of_ne m ρ c main_v18 (by decide)))
theorem c4_v5 (c : Dev nD) : W4 m ρ c (Proc.devRef .tc main_v5) = W1 m ρ c (Proc.devRef .tc main_v5) :=
  (Walk.k11_v5 (W3 m ρ c)).trans ((Walk.k1_v5 (W2 m ρ c)).trans (W2_of_ne m ρ c main_v5 (by decide)))
theorem c4_v7 (c : Dev nD) : W4 m ρ c (Proc.devRef .tc main_v7) = W1 m ρ c (Proc.devRef .tc main_v7) :=
  (Walk.k11_v7 (W3 m ρ c)).trans ((Walk.k1_v7 (W2 m ρ c)).trans (W2_of_ne m ρ c main_v7 (by decide)))
theorem c4_v9 (c : Dev nD) : W4 m ρ c (Proc.devRef .tc main_v9) = W1 m ρ c (Proc.devRef .tc main_v9) :=
  (Walk.k11_v9 (W3 m ρ c)).trans ((Walk.k1_v9 (W2 m ρ c)).trans (W2_of_ne m ρ c main_v9 (by decide)))
theorem c4_v11 (c : Dev nD) : W4 m ρ c (Proc.devRef .tc main_v11) = W1 m ρ c (Proc.devRef .tc main_v11) :=
  (Walk.k11_v11 (W3 m ρ c)).trans ((Walk.k1_v11 (W2 m ρ c)).trans (W2_of_ne m ρ c main_v11 (by decide)))
theorem c4_arg6 (c : Dev nD) : W4 m ρ c (Proc.devRef .tc main_arg6) = W1 m ρ c (Proc.devRef .tc main_arg6) :=
  (Walk.k11_arg6 (W3 m ρ c)).trans ((Walk.k1_arg6 (W2 m ρ c)).trans (W2_of_ne m ρ c main_arg6 (by decide)))
theorem c4_arg7 (c : Dev nD) : W4 m ρ c (Proc.devRef .tc main_arg7) = W1 m ρ c (Proc.devRef .tc main_arg7) :=
  (Walk.k11_arg7 (W3 m ρ c)).trans ((Walk.k1_arg7 (W2 m ρ c)).trans (W2_of_ne m ρ c main_arg7 (by decide)))
theorem c4_arg8 (c : Dev nD) : W4 m ρ c (Proc.devRef .tc main_arg8) = W1 m ρ c (Proc.devRef .tc main_arg8) :=
  (Walk.k11_arg8 (W3 m ρ c)).trans ((Walk.k1_arg8 (W2 m ρ c)).trans (W2_of_ne m ρ c main_arg8 (by decide)))
theorem c4_arg9 (c : Dev nD) : W4 m ρ c (Proc.devRef .tc main_arg9) = W1 m ρ c (Proc.devRef .tc main_arg9) :=
  (Walk.k11_arg9 (W3 m ρ c)).trans ((Walk.k1_arg9 (W2 m ρ c)).trans (W2_of_ne m ρ c main_arg9 (by decide)))
theorem c4_arg10 (c : Dev nD) : W4 m ρ c (Proc.devRef .tc main_arg10) = W1 m ρ c (Proc.devRef .tc main_arg10) :=
  (Walk.k11_arg10 (W3 m ρ c)).trans ((Walk.k1_arg10 (W2 m ρ c)).trans (W2_of_ne m ρ c main_arg10 (by decide)))
theorem c4_arg11 (c : Dev nD) : W4 m ρ c (Proc.devRef .tc main_arg11) = W1 m ρ c (Proc.devRef .tc main_arg11) :=
  (Walk.k11_arg11 (W3 m ρ c)).trans ((Walk.k1_arg11 (W2 m ρ c)).trans (W2_of_ne m ρ c main_arg11 (by decide)))
theorem c5_v1 (c : Dev nD) : W5 m ρ c (Proc.devRef .tc main_v1) = W1 m ρ c (Proc.devRef .tc main_v1) :=
  (W5_of_ne m ρ c main_v1 (by decide)).trans (c4_v1 m ρ c)
theorem c5_v3 (c : Dev nD) : W5 m ρ c (Proc.devRef .tc main_v3) = W1 m ρ c (Proc.devRef .tc main_v3) :=
  (W5_of_ne m ρ c main_v3 (by decide)).trans (c4_v3 m ρ c)
theorem c5_v18 (c : Dev nD) : W5 m ρ c (Proc.devRef .tc main_v18) = W1 m ρ c (Proc.devRef .tc main_v18) :=
  (W5_of_ne m ρ c main_v18 (by decide)).trans (c4_v18 m ρ c)
theorem c5_v5 (c : Dev nD) : W5 m ρ c (Proc.devRef .tc main_v5) = W1 m ρ c (Proc.devRef .tc main_v5) :=
  (W5_of_ne m ρ c main_v5 (by decide)).trans (c4_v5 m ρ c)
theorem c5_v7 (c : Dev nD) : W5 m ρ c (Proc.devRef .tc main_v7) = W1 m ρ c (Proc.devRef .tc main_v7) :=
  (W5_of_ne m ρ c main_v7 (by decide)).trans (c4_v7 m ρ c)
theorem c5_v9 (c : Dev nD) : W5 m ρ c (Proc.devRef .tc main_v9) = W1 m ρ c (Proc.devRef .tc main_v9) :=
  (W5_of_ne m ρ c main_v9 (by decide)).trans (c4_v9 m ρ c)
theorem c5_v11 (c : Dev nD) : W5 m ρ c (Proc.devRef .tc main_v11) = W1 m ρ c (Proc.devRef .tc main_v11) :=
  (W5_of_ne m ρ c main_v11 (by decide)).trans (c4_v11 m ρ c)
theorem c5_arg7 (c : Dev nD) : W5 m ρ c (Proc.devRef .tc main_arg7) = W1 m ρ c (Proc.devRef .tc main_arg7) :=
  (W5_of_ne m ρ c main_arg7 (by decide)).trans (c4_arg7 m ρ c)
theorem c5_arg8 (c : Dev nD) : W5 m ρ c (Proc.devRef .tc main_arg8) = W1 m ρ c (Proc.devRef .tc main_arg8) :=
  (W5_of_ne m ρ c main_arg8 (by decide)).trans (c4_arg8 m ρ c)
theorem c5_arg9 (c : Dev nD) : W5 m ρ c (Proc.devRef .tc main_arg9) = W1 m ρ c (Proc.devRef .tc main_arg9) :=
  (W5_of_ne m ρ c main_arg9 (by decide)).trans (c4_arg9 m ρ c)
theorem c5_arg10 (c : Dev nD) : W5 m ρ c (Proc.devRef .tc main_arg10) = W1 m ρ c (Proc.devRef .tc main_arg10) :=
  (W5_of_ne m ρ c main_arg10 (by decide)).trans (c4_arg10 m ρ c)
theorem c5_arg11 (c : Dev nD) : W5 m ρ c (Proc.devRef .tc main_arg11) = W1 m ρ c (Proc.devRef .tc main_arg11) :=
  (W5_of_ne m ρ c main_arg11 (by decide)).trans (c4_arg11 m ρ c)
theorem c7_v5 (c : Dev nD) : W7 m ρ c (Proc.devRef .tc main_v5) = W1 m ρ c (Proc.devRef .tc main_v5) :=
  (W7_of_ne m ρ c main_v5 (by decide)).trans ((Walk.k2_v5 (W5 m ρ c)).trans (c5_v5 m ρ c))
theorem c7_v7 (c : Dev nD) : W7 m ρ c (Proc.devRef .tc main_v7) = W1 m ρ c (Proc.devRef .tc main_v7) :=
  (W7_of_ne m ρ c main_v7 (by decide)).trans ((Walk.k2_v7 (W5 m ρ c)).trans (c5_v7 m ρ c))
theorem c7_v9 (c : Dev nD) : W7 m ρ c (Proc.devRef .tc main_v9) = W1 m ρ c (Proc.devRef .tc main_v9) :=
  (W7_of_ne m ρ c main_v9 (by decide)).trans ((Walk.k2_v9 (W5 m ρ c)).trans (c5_v9 m ρ c))
theorem c7_v11 (c : Dev nD) : W7 m ρ c (Proc.devRef .tc main_v11) = W1 m ρ c (Proc.devRef .tc main_v11) :=
  (W7_of_ne m ρ c main_v11 (by decide)).trans ((Walk.k2_v11 (W5 m ρ c)).trans (c5_v11 m ρ c))
theorem c7_arg11 (c : Dev nD) : W7 m ρ c (Proc.devRef .tc main_arg11) = W1 m ρ c (Proc.devRef .tc main_arg11) :=
  (W7_of_ne m ρ c main_arg11 (by decide)).trans ((Walk.k2_arg11 (W5 m ρ c)).trans (c5_arg11 m ρ c))
theorem c6_arg8 (c : Dev nD) : W6 m ρ c (Proc.devRef .tc main_arg8) = W1 m ρ c (Proc.devRef .tc main_arg8) :=
  (Walk.k2_arg8 (W5 m ρ c)).trans (c5_arg8 m ρ c)

/-! ## The tables and layers, as whole arrays -/

/-- x · W1, as the first launch leaves it. -/
def table1 (c : Dev nD) : (⟨2, ![100000, 128]⟩ : Shape).Idx → EReal := Regions.product0 (m ((c : Thread nD τ).loc main_arg0)) (m ((c : Thread nD τ).loc main_arg4))
/-- The hidden layer. -/
def hiddenA (c : Dev nD) : (⟨2, ![100000, 128]⟩ : Shape).Idx → EReal :=
  Chain.reluA (F := Ideal) (Chain.convA (F := Ideal) (table1 m c) (Chain.srcW (m ((c : Thread nD τ).loc main_arg1))) (Chain.dstW (m ((c : Thread nD τ).loc main_arg1))) (Chain.dinvA (Chain.dstW (m ((c : Thread nD τ).loc main_arg1)))) (m ((c : Thread nD τ).loc main_arg5)))
/-- hidden · W2, as the second launch leaves it. -/
def table2 (c : Dev nD) : (⟨2, ![100000, 128]⟩ : Shape).Idx → EReal := Regions.product1 (hiddenA m c) (m ((c : Thread nD τ).loc main_arg6))
/-- The embedding. -/
def embedA (c : Dev nD) : (⟨2, ![100000, 128]⟩ : Shape).Idx → EReal :=
  Chain.convA (F := Ideal) (table2 m c) (Chain.srcW (m ((c : Thread nD τ).loc main_arg1))) (Chain.dstW (m ((c : Thread nD τ).loc main_arg1))) (Chain.dinvA (Chain.dstW (m ((c : Thread nD τ).loc main_arg1)))) (m ((c : Thread nD τ).loc main_arg7))

theorem w2_table1 (c : Dev nD) : W2 m ρ c (Proc.devRef .tc main_v19) = table1 m c := by
  refine (W2_arr m ρ c 2).trans ((Regions.final0 (V1 m ρ) c).trans ?_)
  show Regions.product0 (W1 m ρ c (Proc.devRef .tc main_arg0)) (W1 m ρ c (Proc.devRef .tc main_arg4)) = _
  rw [w1_arg0, w1_arg4]; rfl

theorem w4_hidden (c : Dev nD) : W4 m ρ c (Proc.devRef .tc main_v44) = hiddenA m c := by
  refine (Walk.s11_relu (W3 m ρ c)).trans ?_
  refine congrArg (Chain.reluA (F := Ideal)) ?_
  refine (Walk.s1_conv (W2 m ρ c)).trans ?_
  rw [w2_table1, c2_v1, c2_v3, c2_v18, c2_arg5, w1_src, w1_dst, w1_dinv, w1_arg5]

theorem w5_table2 (c : Dev nD) : W5 m ρ c (Proc.devRef .tc main_v45) = table2 m c := by
  refine (W5_arr m ρ c 2).trans ((Regions.final1 (V4 m ρ) c).trans ?_)
  show Regions.product1 (W4 m ρ c (Proc.devRef .tc main_v44)) (W4 m ρ c (Proc.devRef .tc main_arg6)) = _
  rw [w4_hidden, c4_arg6, w1_arg6]; rfl

theorem w6_embed (c : Dev nD) : W6 m ρ c (Proc.devRef .tc main_v69) = embedA m c := by
  refine (Walk.s2_conv (W5 m ρ c)).trans ?_
  rw [w5_table2, c5_v1, c5_v3, c5_v18, c5_arg7, w1_src, w1_dst, w1_dinv, w1_arg7]; rfl

theorem w6_wcomb (c : Dev nD) : W6 m ρ c (Proc.devRef .tc main_v72) = Chain.wcombA (F := Ideal) (m ((c : Thread nD τ).loc main_arg10)) := by
  refine (Walk.s2_wcomb (W5 m ρ c)).trans ?_
  rw [c5_arg10, w1_arg10]
theorem w6_bias (c : Dev nD) : W6 m ρ c (Proc.devRef .tc main_v73) = Chain.biasRowA (F := Ideal) (m ((c : Thread nD τ).loc main_arg9)) := by
  refine (Walk.s2_bias (W5 m ρ c)).trans ?_
  rw [c5_arg9, w1_arg9]

theorem w7_classes (c : Dev nD) : W7 m ρ c (Proc.devRef .tc main_v74_0)
    = Regions.classesOf (embedA m c) (m ((c : Thread nD τ).loc main_arg8)) (Chain.biasRowA (F := Ideal) (m ((c : Thread nD τ).loc main_arg9))) := by
  refine (W7_arr m ρ c 4).trans ((Regions.finalClasses (V6 m ρ) c).trans ?_)
  show Regions.classesOf (W6 m ρ c (Proc.devRef .tc main_v69)) (W6 m ρ c (Proc.devRef .tc main_arg8)) (W6 m ρ c (Proc.devRef .tc main_v73)) = _
  rw [w6_embed, c6_arg8, w1_arg8, w6_bias]

theorem w7_scores (c : Dev nD) : W7 m ρ c (Proc.devRef .tc main_v74_1)
    = Regions.scoresOf (embedA m c) (Chain.wcombA (F := Ideal) (m ((c : Thread nD τ).loc main_arg10))) := by
  refine (W7_arr m ρ c 5).trans ((Regions.finalScores (V6 m ρ) c).trans ?_)
  show Regions.scoresOf (W6 m ρ c (Proc.devRef .tc main_v69)) (W6 m ρ c (Proc.devRef .tc main_v72)) = _
  rw [w6_embed, w6_wcomb]

/-! ## Entry by entry -/

theorem table1_apply (c : Dev nD) (i : Fin 100000) (f : Fin 128) :
    table1 m c (ix2 i f) = Cert.Spec.lin1 (m ((c : Thread nD τ).loc main_arg0)) (m ((c : Thread nD τ).loc main_arg4)) i f :=
  StackMember.dotGeneral_plain_apply none _ _ i f

theorem hiddenA_apply (c : Dev nD) (i : Fin 100000) (f : Fin 128) :
    hiddenA m c (ix2 i f) = Cert.Spec.hidden (m ((c : Thread nD τ).loc main_arg0)) (m ((c : Thread nD τ).loc main_arg1)) (m ((c : Thread nD τ).loc main_arg4)) (m ((c : Thread nD τ).loc main_arg5)) i f := by
  unfold hiddenA Cert.Spec.hidden
  rw [Chain.reluA_apply, Chain.convA_apply]
  refine congrArg (fun T => max (Cert.Spec.conv T (m ((c : Thread nD τ).loc main_arg1)) (m ((c : Thread nD τ).loc main_arg5)) i f) 0) ?_
  funext i' f'; exact table1_apply m c i' f'

theorem table2_apply (c : Dev nD) (i : Fin 100000) (f : Fin 128) :
    table2 m c (ix2 i f) = Cert.Spec.lin2 (m ((c : Thread nD τ).loc main_arg0)) (m ((c : Thread nD τ).loc main_arg1)) (m ((c : Thread nD τ).loc main_arg4)) (m ((c : Thread nD τ).loc main_arg5)) (m ((c : Thread nD τ).loc main_arg6)) i f := by
  unfold table2 Regions.product1 Cert.Spec.lin2
  rw [StackMember.dotGeneral_plain_apply]
  refine Finset.sum_congr rfl fun c' _ => ?_
  rw [hiddenA_apply]

theorem embedA_apply (c : Dev nD) (i : Fin 100000) (f : Fin 128) :
    embedA m c (ix2 i f) = Cert.Spec.embed (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) i f := by
  unfold embedA Cert.Spec.embed
  rw [Chain.convA_apply]
  refine congrArg (fun T => Cert.Spec.conv T (m ((c : Thread nD τ).loc main_arg1)) (m ((c : Thread nD τ).loc main_arg7)) i f) ?_
  funext i' f'; exact table2_apply m c i' f'

/-! ## The three results -/

/-- The class scores. -/
theorem classes (c : Dev nD) : W8 m ρ c (Proc.devRef .tc main_v74_0)
    = Cert.Spec.outClasses (Cert.Spec.embed (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) (m ((c : Thread nD τ).loc main_arg8)) (m ((c : Thread nD τ).loc main_arg9)) := by
  refine (Walk.k3_v74_0 (W7 m ρ c)).trans ((w7_classes m ρ c).trans ?_)
  funext j
  obtain ⟨i, q, rfl⟩ : ∃ (i : Fin 100000) (q : Fin 10), j = ix2 i q := ⟨j 0, j 1, eq_ix2 j⟩
  show Cert.Spec.logSoftmax (fun q' => (∑ c' : Fin 128, max (embedA m c (ix2 i c')) 0 * (m ((c : Thread nD τ).loc main_arg8)) (ix2 c' q')) + Chain.biasRowA (F := Ideal) (m ((c : Thread nD τ).loc main_arg9)) (ix2 0 q')) q
    = Cert.Spec.logSoftmax (Cert.Spec.logit (Cert.Spec.embed (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) (m ((c : Thread nD τ).loc main_arg8)) (m ((c : Thread nD τ).loc main_arg9)) i) q
  refine congrArg (fun l => Cert.Spec.logSoftmax l q) (funext fun q' => ?_)
  unfold Cert.Spec.logit
  rw [Chain.biasRowA_apply]
  refine congrArg (· + (m ((c : Thread nD τ).loc main_arg9)) (ix1 q')) (Finset.sum_congr rfl fun c' _ => ?_)
  rw [embedA_apply]

/-- A list of pairs scored. -/
theorem pairs_of (c : Dev nD) (ep : (⟨2, ![2, 200000]⟩ : Shape).Idx → BitVec 32) :
    Chain.pairsA (F := Ideal) (Regions.scoresOf (embedA m c) (Chain.wcombA (F := Ideal) (m ((c : Thread nD τ).loc main_arg10)))) (Chain.fstW ep) (Chain.sndW ep) (m ((c : Thread nD τ).loc main_arg11))
      = Cert.Spec.outPairs (Cert.Spec.embed (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) (m ((c : Thread nD τ).loc main_arg10)) (m ((c : Thread nD τ).loc main_arg11)) ep := by
  funext j
  obtain ⟨e, rfl⟩ : ∃ e : Fin 200000, j = ix1 e := ⟨j 0, eq_ix1 j⟩
  rw [Chain.pairsA_apply]
  show _ = Cert.Spec.pairScore _ (m ((c : Thread nD τ).loc main_arg10)) (m ((c : Thread nD τ).loc main_arg11)) (ep (ix2 0 e)) (ep (ix2 1 e))
  unfold Cert.Spec.pairScore
  refine congrArg (· + (m ((c : Thread nD τ).loc main_arg11)) (ix1 0)) (congrArg₂ (· + ·) ?_ ?_)
  · show (∑ c' : Fin 128, embedA m c (ix2 (Cert.Spec.node (ep (ix2 0 e))) c') * Chain.wcombA (F := Ideal) (m ((c : Thread nD τ).loc main_arg10)) (ix2 c' 0)) = _
    refine Finset.sum_congr rfl fun c' _ => ?_
    rw [embedA_apply, Chain.wcombA_apply0]
  · show (∑ c' : Fin 128, embedA m c (ix2 (Cert.Spec.node (ep (ix2 1 e))) c') * Chain.wcombA (F := Ideal) (m ((c : Thread nD τ).loc main_arg10)) (ix2 c' 1)) = _
    refine Finset.sum_congr rfl fun c' _ => ?_
    rw [embedA_apply, Chain.wcombA_apply1]

/-- The positive pairs' scores. -/
theorem pairsPos (c : Dev nD) : W8 m ρ c (Proc.devRef .tc main_v96)
    = Cert.Spec.outPairs (Cert.Spec.embed (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) (m ((c : Thread nD τ).loc main_arg10)) (m ((c : Thread nD τ).loc main_arg11)) (m ((c : Thread nD τ).loc main_arg2)) := by
  refine (Walk.s3_pos (W7 m ρ c)).trans ?_
  rw [w7_scores, c7_v5, c7_v7, c7_arg11, w1_pos0, w1_pos1, w1_arg11]
  exact pairs_of m c (m ((c : Thread nD τ).loc main_arg2))

/-- The negative pairs' scores. -/
theorem pairsNeg (c : Dev nD) : W8 m ρ c (Proc.devRef .tc main_v113)
    = Cert.Spec.outPairs (Cert.Spec.embed (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) (m ((c : Thread nD τ).loc main_arg10)) (m ((c : Thread nD τ).loc main_arg11)) (m ((c : Thread nD τ).loc main_arg3)) := by
  refine (Walk.s3_neg (W7 m ρ c)).trans ?_
  rw [w7_scores, c7_v9, c7_v11, c7_arg11, w1_neg0, w1_neg1, w1_arg11]
  exact pairs_of m c (m ((c : Thread nD τ).loc main_arg3))

end Cert.KernelIdeal.Results

end
-- ==== Proof.RefWalk.lean ====
/-
  The reference's 183 host operations, read a stretch at a time.

  The run ends with every buffer at the fold of the operations over the launch contents. The fold over the whole list is the
  fold over its consecutive stretches one after another, and each stretch, read from arbitrary starting contents, leaves
  in the buffers it writes the stage functions of what it found and leaves every other buffer alone: the first stretch
  ends with the hidden layer (and the split edge words), the second with the embedding, the third with the class scores,
  the fourth with the two pair lists' concatenated embedding rows, the fifth with the pair scores. Chained, each result
  buffer ends at its stage function of the argument arrays.
-/
import proofs.«129625_j60988535603969_2_alg».proof.Proof.RefRunPatched
import proofs.«129625_j60988535603969_2_alg».proof.Proof.RefReadPatched

set_option maxRecDepth 16384
set_option maxHeartbeats 8000000

noncomputable section

namespace Cert.ReferenceIdeal.RefValue

open Cert.ReferenceIdeal Cert.ReferenceIdeal.Gen Cert.ReferenceIdeal.ReadP Cert.ReferenceIdeal.ValueP
open Idealize.ShloMosaic Idealize.ShloMosaic.TcCoe Idealize.ShloMosaic.Tactic Idealize.SL.Sem Idealize.ShloMosaic.StableHlo

variable {F : FTy → Type} [FloatOps F]

/-- The fold over two lists one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## The outlined functions' operations, spelt plainly

An operation of an outlined function is printed through typed references: its function is wrapped in transports between
the value's type and the buffer's type. The two types are the same, so the wrapped operation is the plain one; stated for
an arbitrary function, so that a reduction over a whole array is never opened to see it. -/

/-- A two-operand operation spelt through typed references whose types are the buffers' own is the plain operation. -/
theorem tref_binary_plain (a b y : Ref sig .tc) (ha : a.space ≠ .host) (ha' : a.isScoped = false) (hb : b.space ≠ .host)
    (hb' : b.isScoped = false) (hy : y.space ≠ .host) (hy' : y.isScoped = false)
    (g : a.ty.Contents (Elt F) → b.ty.Contents (Elt F) → y.ty.Contents (Elt F)) :
    (TRef.binary (τ := τ) (TRef.of (T := a.ty) a rfl ha ha') (TRef.of (T := b.ty) b rfl hb hb') (TRef.of (T := y.ty) y rfl hy hy') g
      : HloOp τ sig (Elt F))
      = StableHlo.binary a b y g (TRef.dev (TRef.of (T := a.ty) a rfl ha ha')) (TRef.dev (TRef.of (T := b.ty) b rfl hb hb')) (TRef.dev (TRef.of (T := y.ty) y rfl hy hy')) := rfl

/-- The row maximum of the logits. -/
theorem max_reduce_plain : (TRef.binary (TRef.of (T := ⟨S100000x10, .f32⟩) main_v89) (TRef.of (T := ⟨S_, .f32⟩) main_call2_cst) (TRef.of (T := ⟨S100000, .f32⟩) main_call2_v0) (fun x v => Host.reduce FloatOps.maximumf x v reducesTo_S100000x10_S100000_d1 h_S_) : HloOp τ sig (Elt F)) = binary main_v89 main_call2_cst main_call2_v0 (fun x v => Host.reduce FloatOps.maximumf x v reducesTo_S100000x10_S100000_d1 h_S_ : (⟨S100000x10, .f32⟩ : BufTy).Contents (Elt F) → (⟨S_, .f32⟩ : BufTy).Contents (Elt F) → (⟨S100000, .f32⟩ : BufTy).Contents (Elt F)) :=
  tref_binary_plain main_v89 main_call2_cst main_call2_v0 _ _ _ _ _ _ _
/-- The row sum of the exponentials. -/
theorem sum_reduce_plain : (TRef.binary (TRef.of (T := ⟨S100000x10, .f32⟩) main_call2_v6) (TRef.of (T := ⟨S_, .f32⟩) main_call2_cst_1) (TRef.of (T := ⟨S100000, .f32⟩) main_call2_v7) (fun x v => Host.reduceAdd x v reducesTo_S100000x10_S100000_d1 h_S_) : HloOp τ sig (Elt F)) = binary main_call2_v6 main_call2_cst_1 main_call2_v7 (fun x v => Host.reduceAdd x v reducesTo_S100000x10_S100000_d1 h_S_ : (⟨S100000x10, .f32⟩ : BufTy).Contents (Elt F) → (⟨S_, .f32⟩ : BufTy).Contents (Elt F) → (⟨S100000, .f32⟩ : BufTy).Contents (Elt F)) :=
  tref_binary_plain main_call2_v6 main_call2_cst_1 main_call2_v7 _ _ _ _ _ _ _

/-- The third stretch is its plain spelling. -/
theorem ops2_plain : (ops2 : List (HloOp τ sig (Elt F))) = ops2p := by
  show (_ : List (HloOp τ sig (Elt F))) = _
  unfold ops2 ops2p
  rw [max_reduce_plain, sum_reduce_plain]
  rfl

variable (V : Valuation τ sig (Elt F))

/-! ## First stretch: the edge words, the first layer, relu -/

theorem s0_hidden : after ops0 V (Proc.devRef .tc main_v44)
    = val_main_v44 (F := F) (V (Proc.devRef .tc main_arg0)) (V (Proc.devRef .tc main_arg1)) (V (Proc.devRef .tc main_arg4)) (V (Proc.devRef .tc main_arg5)) := by
  after_results_simp <;> rfl
theorem s0_src : after ops0 V (Proc.devRef .tc main_v1) = val_main_v1 (F := F) (V (Proc.devRef .tc main_arg1)) := by after_results_simp <;> rfl
theorem s0_dst : after ops0 V (Proc.devRef .tc main_v3) = val_main_v3 (F := F) (V (Proc.devRef .tc main_arg1)) := by after_results_simp <;> rfl
theorem keep0_arg2 : after ops0 V (Proc.devRef .tc main_arg2) = V (Proc.devRef .tc main_arg2) := by after_results_simp <;> rfl
theorem keep0_arg3 : after ops0 V (Proc.devRef .tc main_arg3) = V (Proc.devRef .tc main_arg3) := by after_results_simp <;> rfl
theorem keep0_arg6 : after ops0 V (Proc.devRef .tc main_arg6) = V (Proc.devRef .tc main_arg6) := by after_results_simp <;> rfl
theorem keep0_arg7 : after ops0 V (Proc.devRef .tc main_arg7) = V (Proc.devRef .tc main_arg7) := by after_results_simp <;> rfl
theorem keep0_arg8 : after ops0 V (Proc.devRef .tc main_arg8) = V (Proc.devRef .tc main_arg8) := by after_results_simp <;> rfl
theorem keep0_arg9 : after ops0 V (Proc.devRef .tc main_arg9) = V (Proc.devRef .tc main_arg9) := by after_results_simp <;> rfl
theorem keep0_arg10 : after ops0 V (Proc.devRef .tc main_arg10) = V (Proc.devRef .tc main_arg10) := by after_results_simp <;> rfl
theorem keep0_arg11 : after ops0 V (Proc.devRef .tc main_arg11) = V (Proc.devRef .tc main_arg11) := by after_results_simp <;> rfl

/-! ## Second stretch: the second layer -/

theorem s1_embed (x0 : (⟨S100000x256, .f32⟩ : BufTy).Contents (Elt F)) (x1 : (⟨S2x1600000, .i32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F))
    (h44 : V (Proc.devRef .tc main_v44) = val_main_v44 (F := F) x0 x1 x4 x5) (h1 : V (Proc.devRef .tc main_v1) = val_main_v1 (F := F) x1)
    (h3 : V (Proc.devRef .tc main_v3) = val_main_v3 (F := F) x1) (h6 : V (Proc.devRef .tc main_arg6) = x6) (h7 : V (Proc.devRef .tc main_arg7) = x7) :
    after ops1 V (Proc.devRef .tc main_v84) = val_main_v84 (F := F) x0 x1 x4 x5 x6 x7 := by
  after_results_simp
  simp only [val_main_v45, val_main_v46, val_main_v47, val_main_v48, val_main_cst_7, val_main_v49, val_main_cst_8, val_main_v50, val_main_v51, val_main_v52, val_main_v53, val_main_c_9, val_main_v54, val_main_v55, val_main_c_10, val_main_v56, val_main_v57, val_main_v58, val_main_v59, val_main_v60, val_main_c_11, val_main_v61, val_main_v62, val_main_c_12, val_main_v63, val_main_v64, val_main_v65, val_main_v66, val_main_v67, val_main_v68, val_main_c_13, val_main_v69, val_main_v70, val_main_c_14, val_main_v71, val_main_v72, val_main_v73, val_main_v74, val_main_v75, val_main_v76, val_main_v77, val_main_v78, val_main_cst_15, val_main_v79, val_main_v80, val_main_v81, val_main_v82, val_main_v83, val_main_v84]
  rw [← h44, ← h1, ← h3, ← h6, ← h7] <;> rfl
theorem keep1_arg2 : after ops1 V (Proc.devRef .tc main_arg2) = V (Proc.devRef .tc main_arg2) := by after_results_simp <;> rfl
theorem keep1_arg3 : after ops1 V (Proc.devRef .tc main_arg3) = V (Proc.devRef .tc main_arg3) := by after_results_simp <;> rfl
theorem keep1_arg8 : after ops1 V (Proc.devRef .tc main_arg8) = V (Proc.devRef .tc main_arg8) := by after_results_simp <;> rfl
theorem keep1_arg9 : after ops1 V (Proc.devRef .tc main_arg9) = V (Proc.devRef .tc main_arg9) := by after_results_simp <;> rfl
theorem keep1_arg10 : after ops1 V (Proc.devRef .tc main_arg10) = V (Proc.devRef .tc main_arg10) := by after_results_simp <;> rfl
theorem keep1_arg11 : after ops1 V (Proc.devRef .tc main_arg11) = V (Proc.devRef .tc main_arg11) := by after_results_simp <;> rfl

/-! ## Third stretch: the class head -/

theorem s2_classes (x0 : (⟨S100000x256, .f32⟩ : BufTy).Contents (Elt F)) (x1 : (⟨S2x1600000, .i32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x10, .f32⟩ : BufTy).Contents (Elt F)) (x9 : (⟨S10, .f32⟩ : BufTy).Contents (Elt F))
    (h84 : V (Proc.devRef .tc main_v84) = val_main_v84 (F := F) x0 x1 x4 x5 x6 x7) (h8 : V (Proc.devRef .tc main_arg8) = x8) (h9 : V (Proc.devRef .tc main_arg9) = x9) :
    after ops2p V (Proc.devRef .tc main_v90) = val_main_v90 (F := F) x0 x1 x4 x5 x6 x7 x8 x9 := by
  after_results_simp
  simp only [val_main_call1_cst, val_main_call1_v0, val_main_v85, val_main_v86, val_main_v87, val_main_v88, val_main_v89, val_main_call2_cst, val_main_call2_v0, val_main_call2_cst_0, val_main_call2_v1, val_main_call2_v2, val_main_call2_v3, val_main_call2_v4, val_main_call2_v5, val_main_call2_v6, val_main_call2_cst_1, val_main_call2_v7, val_main_call2_v8, val_main_call2_v9, val_main_call2_v10, val_main_v90]
  rw [← h84, ← h8, ← h9] <;> rfl
theorem keep2_v84 : after ops2 V (Proc.devRef .tc main_v84) = V (Proc.devRef .tc main_v84) := by after_results_simp <;> rfl
theorem keep2_arg2 : after ops2 V (Proc.devRef .tc main_arg2) = V (Proc.devRef .tc main_arg2) := by after_results_simp <;> rfl
theorem keep2_arg3 : after ops2 V (Proc.devRef .tc main_arg3) = V (Proc.devRef .tc main_arg3) := by after_results_simp <;> rfl
theorem keep2_arg10 : after ops2 V (Proc.devRef .tc main_arg10) = V (Proc.devRef .tc main_arg10) := by after_results_simp <;> rfl
theorem keep2_arg11 : after ops2 V (Proc.devRef .tc main_arg11) = V (Proc.devRef .tc main_arg11) := by after_results_simp <;> rfl

/-! ## Fourth stretch: the pairs' embedding rows, side by side -/

theorem s3_pos (x0 : (⟨S100000x256, .f32⟩ : BufTy).Contents (Elt F)) (x1 : (⟨S2x1600000, .i32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x2 : (⟨S2x200000, .i32⟩ : BufTy).Contents (Elt F))
    (h84 : V (Proc.devRef .tc main_v84) = val_main_v84 (F := F) x0 x1 x4 x5 x6 x7) (h2 : V (Proc.devRef .tc main_arg2) = x2) :
    after ops3 V (Proc.devRef .tc main_v109) = val_main_v109 (F := F) x0 x1 x2 x4 x5 x6 x7 := by
  after_results_simp
  simp only [val_main_v91, val_main_v92, val_main_c_16, val_main_v93, val_main_v94, val_main_c_17, val_main_v95, val_main_v96, val_main_v97, val_main_v98, val_main_v99, val_main_v100, val_main_v101, val_main_c_18, val_main_v102, val_main_v103, val_main_c_19, val_main_v104, val_main_v105, val_main_v106, val_main_v107, val_main_v108, val_main_v109]
  rw [← h84, ← h2] <;> rfl
theorem s3_neg (x0 : (⟨S100000x256, .f32⟩ : BufTy).Contents (Elt F)) (x1 : (⟨S2x1600000, .i32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x3 : (⟨S2x200000, .i32⟩ : BufTy).Contents (Elt F))
    (h84 : V (Proc.devRef .tc main_v84) = val_main_v84 (F := F) x0 x1 x4 x5 x6 x7) (h3 : V (Proc.devRef .tc main_arg3) = x3) :
    after ops3 V (Proc.devRef .tc main_v128) = val_main_v128 (F := F) x0 x1 x3 x4 x5 x6 x7 := by
  after_results_simp
  simp only [val_main_v110, val_main_v111, val_main_c_20, val_main_v112, val_main_v113, val_main_c_21, val_main_v114, val_main_v115, val_main_v116, val_main_v117, val_main_v118, val_main_v119, val_main_v120, val_main_c_22, val_main_v121, val_main_v122, val_main_c_23, val_main_v123, val_main_v124, val_main_v125, val_main_v126, val_main_v127, val_main_v128]
  rw [← h84, ← h3] <;> rfl
theorem keep3_v90 : after ops3 V (Proc.devRef .tc main_v90) = V (Proc.devRef .tc main_v90) := by after_results_simp <;> rfl
theorem keep3_arg10 : after ops3 V (Proc.devRef .tc main_arg10) = V (Proc.devRef .tc main_arg10) := by after_results_simp <;> rfl
theorem keep3_arg11 : after ops3 V (Proc.devRef .tc main_arg11) = V (Proc.devRef .tc main_arg11) := by after_results_simp <;> rfl

/-! ## Fifth stretch: the pair scores -/

theorem s4_pos (x0 : (⟨S100000x256, .f32⟩ : BufTy).Contents (Elt F)) (x1 : (⟨S2x1600000, .i32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x2 : (⟨S2x200000, .i32⟩ : BufTy).Contents (Elt F)) (x10 : (⟨S256x1, .f32⟩ : BufTy).Contents (Elt F)) (x11 : (⟨S1, .f32⟩ : BufTy).Contents (Elt F))
    (h109 : V (Proc.devRef .tc main_v109) = val_main_v109 (F := F) x0 x1 x2 x4 x5 x6 x7) (h10 : V (Proc.devRef .tc main_arg10) = x10) (h11 : V (Proc.devRef .tc main_arg11) = x11) :
    after ops4 V (Proc.devRef .tc main_v133) = val_main_v133 (F := F) x0 x1 x2 x4 x5 x6 x7 x10 x11 := by
  after_results_simp
  simp only [val_main_v129, val_main_v130, val_main_v131, val_main_v132, val_main_v133]
  rw [← h109, ← h10, ← h11] <;> rfl
theorem s4_neg (x0 : (⟨S100000x256, .f32⟩ : BufTy).Contents (Elt F)) (x1 : (⟨S2x1600000, .i32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x3 : (⟨S2x200000, .i32⟩ : BufTy).Contents (Elt F)) (x10 : (⟨S256x1, .f32⟩ : BufTy).Contents (Elt F)) (x11 : (⟨S1, .f32⟩ : BufTy).Contents (Elt F))
    (h128 : V (Proc.devRef .tc main_v128) = val_main_v128 (F := F) x0 x1 x3 x4 x5 x6 x7) (h10 : V (Proc.devRef .tc main_arg10) = x10) (h11 : V (Proc.devRef .tc main_arg11) = x11) :
    after ops4 V (Proc.devRef .tc main_v138) = val_main_v138 (F := F) x0 x1 x3 x4 x5 x6 x7 x10 x11 := by
  after_results_simp
  simp only [val_main_v134, val_main_v135, val_main_v136, val_main_v137, val_main_v138]
  rw [← h128, ← h10, ← h11] <;> rfl
theorem keep4_v90 : after ops4 V (Proc.devRef .tc main_v90) = V (Proc.devRef .tc main_v90) := by after_results_simp <;> rfl

/-! ## No operation writes an argument -/

theorem keep_arg0 : after ops V (Proc.devRef .tc main_arg0) = V (Proc.devRef .tc main_arg0) := by after_results_simp <;> rfl
theorem keep_arg1 : after ops V (Proc.devRef .tc main_arg1) = V (Proc.devRef .tc main_arg1) := by after_results_simp <;> rfl
theorem keep_arg2 : after ops V (Proc.devRef .tc main_arg2) = V (Proc.devRef .tc main_arg2) := by after_results_simp <;> rfl
theorem keep_arg3 : after ops V (Proc.devRef .tc main_arg3) = V (Proc.devRef .tc main_arg3) := by after_results_simp <;> rfl
theorem keep_arg4 : after ops V (Proc.devRef .tc main_arg4) = V (Proc.devRef .tc main_arg4) := by after_results_simp <;> rfl
theorem keep_arg5 : after ops V (Proc.devRef .tc main_arg5) = V (Proc.devRef .tc main_arg5) := by after_results_simp <;> rfl
theorem keep_arg6 : after ops V (Proc.devRef .tc main_arg6) = V (Proc.devRef .tc main_arg6) := by after_results_simp <;> rfl
theorem keep_arg7 : after ops V (Proc.devRef .tc main_arg7) = V (Proc.devRef .tc main_arg7) := by after_results_simp <;> rfl
theorem keep_arg8 : after ops V (Proc.devRef .tc main_arg8) = V (Proc.devRef .tc main_arg8) := by after_results_simp <;> rfl
theorem keep_arg9 : after ops V (Proc.devRef .tc main_arg9) = V (Proc.devRef .tc main_arg9) := by after_results_simp <;> rfl
theorem keep_arg10 : after ops V (Proc.devRef .tc main_arg10) = V (Proc.devRef .tc main_arg10) := by after_results_simp <;> rfl
theorem keep_arg11 : after ops V (Proc.devRef .tc main_arg11) = V (Proc.devRef .tc main_arg11) := by after_results_simp <;> rfl

end Cert.ReferenceIdeal.RefValue

end
-- ==== Proof.RefResults.lean ====
/-
  What the reference computes: its three results at their stage functions of the argument arrays.

  The fold of the 183 operations over the launch contents is the five stretches chained. The hidden layer comes out of the
  first stretch, the embedding out of the second (fed the hidden layer and the edge words the first left), the class scores
  out of the third, the pairs' rows out of the fourth and their scores out of the fifth; a buffer a later stretch does not
  write keeps what an earlier one left, and no operation writes an argument. So every weakly fair execution ends with the
  class scores, the positive pairs' scores and the negative pairs' scores at the last stages of their heads, read at the
  launch contents of the arguments, and with the arguments as launched.
-/
import proofs.«129625_j60988535603969_2_alg».proof.Proof.RefWalk

set_option maxRecDepth 16384
set_option maxHeartbeats 2000000

noncomputable section

namespace Cert.ReferenceIdeal.RefValue

open Cert.ReferenceIdeal Cert.ReferenceIdeal.Gen Cert.ReferenceIdeal.ReadP Cert.ReferenceIdeal.ValueP
open Idealize.ShloMosaic Idealize.ShloMosaic.TcCoe Idealize.ShloMosaic.Tactic Idealize.SL.Sem Idealize.ShloMosaic.StableHlo

variable {F : FTy → Type} [FloatOps F] (m : (ℓ : Loc nD τ sig) → Buf (Elt F) ℓ) (d : Dev nD)

/-- The embedding, after the first two stretches. -/
theorem fold_embed : after ops1 (after ops0 (launchContents m d)) (Proc.devRef .tc main_v84)
    = val_main_v84 (F := F) (m ((d.tc : Thread nD τ).loc main_arg0)) (m ((d.tc : Thread nD τ).loc main_arg1)) (m ((d.tc : Thread nD τ).loc main_arg4)) (m ((d.tc : Thread nD τ).loc main_arg5)) (m ((d.tc : Thread nD τ).loc main_arg6)) (m ((d.tc : Thread nD τ).loc main_arg7)) :=
  s1_embed (after ops0 (launchContents m d)) (m ((d.tc : Thread nD τ).loc main_arg0)) (m ((d.tc : Thread nD τ).loc main_arg1)) (m ((d.tc : Thread nD τ).loc main_arg4)) (m ((d.tc : Thread nD τ).loc main_arg5)) (m ((d.tc : Thread nD τ).loc main_arg6)) (m ((d.tc : Thread nD τ).loc main_arg7))
    (s0_hidden (launchContents m d)) (s0_src (launchContents m d)) (s0_dst (launchContents m d)) (keep0_arg6 (launchContents m d)) (keep0_arg7 (launchContents m d))

/-- The class scores. -/
theorem fold_classes : after ops (launchContents m d) (Proc.devRef .tc main_v90)
    = val_main_v90 (F := F) (m ((d.tc : Thread nD τ).loc main_arg0)) (m ((d.tc : Thread nD τ).loc main_arg1)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) := by
  rw [ops_split, after_append, after_append, after_append, after_append, keep4_v90, keep3_v90, ops2_plain]
  exact s2_classes (after ops1 (after ops0 (launchContents m d))) (m ((d.tc : Thread nD τ).loc main_arg0)) (m ((d.tc : Thread nD τ).loc main_arg1)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9))
    (fold_embed m d) ((keep1_arg8 _).trans (keep0_arg8 _)) ((keep1_arg9 _).trans (keep0_arg9 _))

/-- The positive pairs' scores. -/
theorem fold_pos : after ops (launchContents m d) (Proc.devRef .tc main_v133)
    = val_main_v133 (F := F) (m ((d.tc : Thread nD τ).loc main_arg0)) (m ((d.tc : Thread nD τ).loc main_arg1)) (m ((d.tc : Thread nD τ).loc main_arg2)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg10)) (m ((d.tc : Thread nD τ).loc main_arg11)) := by
  rw [ops_split, after_append, after_append, after_append, after_append]
  refine s4_pos _ (m ((d.tc : Thread nD τ).loc main_arg0)) (m ((d.tc : Thread nD τ).loc main_arg1)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg2)) (m ((d.tc : Thread nD τ).loc main_arg10)) (m ((d.tc : Thread nD τ).loc main_arg11)) ?_
    ((keep3_arg10 _).trans ((keep2_arg10 _).trans ((keep1_arg10 _).trans (keep0_arg10 _))))
    ((keep3_arg11 _).trans ((keep2_arg11 _).trans ((keep1_arg11 _).trans (keep0_arg11 _))))
  exact s3_pos _ (m ((d.tc : Thread nD τ).loc main_arg0)) (m ((d.tc : Thread nD τ).loc main_arg1)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg2))
    ((keep2_v84 _).trans (fold_embed m d)) ((keep2_arg2 _).trans ((keep1_arg2 _).trans (keep0_arg2 _)))

/-- The negative pairs' scores. -/
theorem fold_neg : after ops (launchContents m d) (Proc.devRef .tc main_v138)
    = val_main_v138 (F := F) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg10)) (m ((d.tc : Thread nD τ).loc main_arg11)) := by
  rw [ops_split, after_append, after_append, after_append, after_append]
  refine s4_neg _ (m ((d.tc : Thread nD τ).loc main_arg0)) (m ((d.tc : Thread nD τ).loc main_arg1)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg3)) (m ((d.tc : Thread nD τ).loc main_arg10)) (m ((d.tc : Thread nD τ).loc main_arg11)) ?_
    ((keep3_arg10 _).trans ((keep2_arg10 _).trans ((keep1_arg10 _).trans (keep0_arg10 _))))
    ((keep3_arg11 _).trans ((keep2_arg11 _).trans ((keep1_arg11 _).trans (keep0_arg11 _))))
  exact s3_neg _ (m ((d.tc : Thread nD τ).loc main_arg0)) (m ((d.tc : Thread nD τ).loc main_arg1)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg3))
    ((keep2_v84 _).trans (fold_embed m d)) ((keep2_arg3 _).trans ((keep1_arg3 _).trans (keep0_arg3 _)))

/-- Every weakly fair execution of the reference terminates with its three results at the last stages of their heads, read
    at the launch contents of the arguments, and with the twelve arguments as launched. -/
theorem run (m : (ℓ : Loc nD τ sig) → Buf (Elt F) ℓ) (ρ : Dev nD → PrngReg) :
    θ_run defs (onTc (τ := τ) (main (F := F))) ⟨m, fun _ => 0, ρ⟩ fun r => ∀ d : Dev nD,
      r.2.mem ((d.tc : Thread nD τ).loc main_v90)
        = val_main_v90 (F := F) (m ((d.tc : Thread nD τ).loc main_arg0)) (m ((d.tc : Thread nD τ).loc main_arg1)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9))
      ∧ r.2.mem ((d.tc : Thread nD τ).loc main_v133)
        = val_main_v133 (F := F) (m ((d.tc : Thread nD τ).loc main_arg0)) (m ((d.tc : Thread nD τ).loc main_arg1)) (m ((d.tc : Thread nD τ).loc main_arg2)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg10)) (m ((d.tc : Thread nD τ).loc main_arg11))
      ∧ r.2.mem ((d.tc : Thread nD τ).loc main_v138)
        = val_main_v138 (F := F) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg10)) (m ((d.tc : Thread nD τ).loc main_arg11))
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3)
      ∧ r.2.mem ((d.tc : Thread nD τ).loc main_arg4) = m ((d.tc : Thread nD τ).loc main_arg4)
      ∧ r.2.mem ((d.tc : Thread nD τ).loc main_arg5) = m ((d.tc : Thread nD τ).loc main_arg5)
      ∧ r.2.mem ((d.tc : Thread nD τ).loc main_arg6) = m ((d.tc : Thread nD τ).loc main_arg6)
      ∧ r.2.mem ((d.tc : Thread nD τ).loc main_arg7) = m ((d.tc : Thread nD τ).loc main_arg7)
      ∧ r.2.mem ((d.tc : Thread nD τ).loc main_arg8) = m ((d.tc : Thread nD τ).loc main_arg8)
      ∧ r.2.mem ((d.tc : Thread nD τ).loc main_arg9) = m ((d.tc : Thread nD τ).loc main_arg9)
      ∧ r.2.mem ((d.tc : Thread nD τ).loc main_arg10) = m ((d.tc : Thread nD τ).loc main_arg10)
      ∧ r.2.mem ((d.tc : Thread nD τ).loc main_arg11) = m ((d.tc : Thread nD τ).loc main_arg11) :=
  (θ_run defs _ _).mono (fun _ h d =>
    ⟨(h d main_v90).trans (fold_classes m d), (h d main_v133).trans (fold_pos m d), (h d main_v138).trans (fold_neg m d),
      (h d main_arg0).trans (keep_arg0 (launchContents m d)),
      (h d main_arg1).trans (keep_arg1 (launchContents m d)),
      (h d main_arg2).trans (keep_arg2 (launchContents m d)),
      (h d main_arg3).trans (keep_arg3 (launchContents m d)),
      (h d main_arg4).trans (keep_arg4 (launchContents m d)),
      (h d main_arg5).trans (keep_arg5 (launchContents m d)),
      (h d main_arg6).trans (keep_arg6 (launchContents m d)),
      (h d main_arg7).trans (keep_arg7 (launchContents m d)),
      (h d main_arg8).trans (keep_arg8 (launchContents m d)),
      (h d main_arg9).trans (keep_arg9 (launchContents m d)),
      (h d main_arg10).trans (keep_arg10 (launchContents m d)),
      (h d main_arg11).trans (keep_arg11 (launchContents m d))⟩)
    (run_raw m ρ)

end Cert.ReferenceIdeal.RefValue

end
-- ==== Proof.LibSelfLoopAggregation.lean ====
/-
  Self-loops of a symmetrically normalised graph convolution, added two ways, over the extended reals.

  A graph on n nodes has E edges; edge e carries a destination word, read as a signed integer dstZ e, and two
  clamped row readings srow e, drow e (the table rows its message is gathered from). A message lands on node i
  exactly when dstZ e = i; a destination outside the nodes lands nowhere. All that is known of drow is that it
  is i whenever dstZ e is i.

  The self-loops can be added by lengthening the edge list: M = E + n edges, the first E being the true edges
  and edge E + k being the loop (k, k). Each message is the table entry T (src) weighted by dv (src) * dv (dst).
  Or they can be added analytically: scale the table by dv before gathering, sum the E true edges into node i,
  multiply by dv i afterwards, and add dv i * dv i * T i for the loop.

  With REAL data the two agree: the long sum splits into the true edges and the loops; among the loops only
  k = i lands on node i; and dv i factors out of the true-edge sum by distributivity. On the extended reals
  distributivity can fail at infinities, which is why every datum here is the coercion of a real: both sides
  are then coercions of real numbers, and the identity is proved in the reals.

  The same split, with every message replaced by 1, says that the in-degree with loops is the in-degree without
  them plus 1; and a count plus 1 is a real number that is at least 1.
-/
import Mathlib.Data.EReal.Basic
import Mathlib.Algebra.BigOperators.Fin
import Mathlib.Algebra.Order.BigOperators.Group.Finset

noncomputable section

namespace Cert.Lib

open Finset

/-- A finite sum of reals, coerced term by term, is the coercion of the real sum. -/
theorem coe_finset_sum {ι : Type*} (s : Finset ι) (f : ι → ℝ) :
    ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- The split of a filtered sum over the long edge list, for any real summand: the true edges whose
destination is i, plus the one loop at i. The hypotheses are stated over the two halves of Fin (E + n). -/
private theorem split_sum {n E : ℕ} (dstZ : Fin E → ℤ) (dstZ' : Fin (E + n) → ℤ)
    (hlo : ∀ e : Fin E, dstZ' (Fin.castAdd n e) = dstZ e)
    (hhi : ∀ k : Fin n, dstZ' (Fin.natAdd E k) = (k.val : ℤ))
    (f : Fin (E + n) → ℝ) (i : Fin n) :
    ∑ j ∈ univ.filter (fun j : Fin (E + n) => dstZ' j = (i.val : ℤ)), f j
      = ∑ e ∈ univ.filter (fun e : Fin E => dstZ e = (i.val : ℤ)), f (Fin.castAdd n e)
        + f (Fin.natAdd E i) := by
  rw [Finset.sum_filter, Fin.sum_univ_add, Finset.sum_filter]
  congr 1
  · refine Finset.sum_congr rfl fun e _ => ?_
    rw [hlo e]
  · rw [Finset.sum_eq_single i]
    · rw [hhi i, if_pos rfl]
    · intro k _ hk
      rw [hhi k, if_neg]
      intro h
      exact hk (Fin.ext (by exact_mod_cast h))
    · intro h
      exact absurd (Finset.mem_univ i) h

/-- The aggregation identity in the reals, hypotheses over the two halves of Fin (E + n). -/
private theorem aggregation_real {n E : ℕ}
    (dstZ : Fin E → ℤ) (srow drow : Fin E → Fin n)
    (dstZ' : Fin (E + n) → ℤ) (srow' drow' : Fin (E + n) → Fin n)
    (hlo : ∀ e : Fin E, dstZ' (Fin.castAdd n e) = dstZ e ∧ srow' (Fin.castAdd n e) = srow e
      ∧ drow' (Fin.castAdd n e) = drow e)
    (hhi : ∀ k : Fin n, dstZ' (Fin.natAdd E k) = (k.val : ℤ) ∧ srow' (Fin.natAdd E k) = k
      ∧ drow' (Fin.natAdd E k) = k)
    (hd : ∀ (e : Fin E) (i : Fin n), dstZ e = (i.val : ℤ) → drow e = i)
    (T dv : Fin n → ℝ) (i : Fin n) :
    ∑ j ∈ univ.filter (fun j : Fin (E + n) => dstZ' j = (i.val : ℤ)),
        T (srow' j) * (dv (srow' j) * dv (drow' j))
      = dv i * (∑ e ∈ univ.filter (fun e : Fin E => dstZ e = (i.val : ℤ)), T (srow e) * dv (srow e))
        + dv i * dv i * T i := by
  rw [split_sum dstZ dstZ' (fun e => (hlo e).1) (fun k => (hhi k).1)
    (fun j => T (srow' j) * (dv (srow' j) * dv (drow' j))) i]
  rw [(hhi i).2.1, (hhi i).2.2, Finset.mul_sum]
  congr 1
  · refine Finset.sum_congr rfl fun e he => ?_
    rw [(hlo e).2.1, (hlo e).2.2, hd e i (Finset.mem_filter.mp he).2]
    ring
  · ring

/-- Adding the self-loops as n extra edges (k, k), each message weighted by dv (src) * dv (dst), gives at node i
the same extended real as scaling by dv, summing the true edges, multiplying by dv i and adding
dv i * dv i * T i, provided the table T and the weights dv are real. -/
theorem selfLoop_aggregation {n E M : ℕ} (hM : M = E + n)
    (dstZ : Fin E → ℤ) (srow drow : Fin E → Fin n)
    (dstZ' : Fin M → ℤ) (srow' drow' : Fin M → Fin n)
    (hlo : ∀ (j : Fin M) (h : j.val < E), dstZ' j = dstZ ⟨j.val, h⟩ ∧ srow' j = srow ⟨j.val, h⟩ ∧ drow' j = drow ⟨j.val, h⟩)
    (hhi : ∀ (j : Fin M), E ≤ j.val → dstZ' j = ((j.val - E : ℕ) : ℤ) ∧ (srow' j).val = j.val - E ∧ (drow' j).val = j.val - E)
    (hd : ∀ (e : Fin E) (i : Fin n), dstZ e = (i.val : ℤ) → drow e = i)
    (T dv : Fin n → ℝ) (i : Fin n) :
    (0 : EReal) + ∑ j ∈ Finset.univ.filter (fun j : Fin M => dstZ' j = (i.val : ℤ)),
        ((T (srow' j) : EReal) * ((dv (srow' j) : EReal) * (dv (drow' j) : EReal)))
      = ((dv i : EReal) * ((0 : EReal) + ∑ e ∈ Finset.univ.filter (fun e : Fin E => dstZ e = (i.val : ℤ)),
            ((T (srow e) : EReal) * (dv (srow e) : EReal))))
        + ((dv i : EReal) * (dv i : EReal)) * (T i : EReal) := by
  subst hM
  have hlo' : ∀ e : Fin E, dstZ' (Fin.castAdd n e) = dstZ e ∧ srow' (Fin.castAdd n e) = srow e
      ∧ drow' (Fin.castAdd n e) = drow e := fun e => hlo (Fin.castAdd n e) e.isLt
  have hhi' : ∀ k : Fin n, dstZ' (Fin.natAdd E k) = (k.val : ℤ) ∧ srow' (Fin.natAdd E k) = k
      ∧ drow' (Fin.natAdd E k) = k := by
    intro k
    have h := hhi (Fin.natAdd E k) (by simp)
    have hv : (Fin.natAdd E k).val - E = k.val := by simp
    rw [hv] at h
    exact ⟨h.1, Fin.ext h.2.1, Fin.ext h.2.2⟩
  have key := aggregation_real dstZ srow drow dstZ' srow' drow' hlo' hhi' hd T dv i
  simp only [← EReal.coe_mul, coe_finset_sum, zero_add, ← EReal.coe_add]
  rw [key]

/-- The in-degree counted over the long edge list is the in-degree over the true edges plus 1 (the loop). -/
theorem selfLoop_degree {n E M : ℕ} (hM : M = E + n) (dstZ : Fin E → ℤ) (dstZ' : Fin M → ℤ)
    (hlo : ∀ (j : Fin M) (h : j.val < E), dstZ' j = dstZ ⟨j.val, h⟩)
    (hhi : ∀ (j : Fin M), E ≤ j.val → dstZ' j = ((j.val - E : ℕ) : ℤ)) (i : Fin n) :
    (0 : EReal) + ∑ _j ∈ Finset.univ.filter (fun j : Fin M => dstZ' j = (i.val : ℤ)), (1 : EReal)
      = ((0 : EReal) + ∑ _e ∈ Finset.univ.filter (fun e : Fin E => dstZ e = (i.val : ℤ)), (1 : EReal)) + 1 := by
  subst hM
  have hlo' : ∀ e : Fin E, dstZ' (Fin.castAdd n e) = dstZ e := fun e => hlo (Fin.castAdd n e) e.isLt
  have hhi' : ∀ k : Fin n, dstZ' (Fin.natAdd E k) = (k.val : ℤ) := by
    intro k
    have h := hhi (Fin.natAdd E k) (by simp)
    have hv : (Fin.natAdd E k).val - E = k.val := by simp
    rw [hv] at h
    exact h
  have key := split_sum dstZ dstZ' hlo' hhi' (fun _ => (1 : ℝ)) i
  have h1 : ∀ {ι : Type} (s : Finset ι), ∑ _k ∈ s, (1 : EReal) = ((∑ _k ∈ s, (1 : ℝ) : ℝ) : EReal) := by
    intro ι s
    rw [← coe_finset_sum]
    simp
  rw [h1, h1, key]
  simp only [zero_add, EReal.coe_add, EReal.coe_one]

/-- A count of edges plus 1 is a real number, at least 1. -/
theorem degree_real {E : ℕ} (dstZ : Fin E → ℤ) (z : ℤ) :
    ∃ r : ℝ, 1 ≤ r ∧ ((0 : EReal) + ∑ _e ∈ Finset.univ.filter (fun e : Fin E => dstZ e = z), (1 : EReal)) + 1 = (r : EReal) := by
  refine ⟨(∑ _e ∈ Finset.univ.filter (fun e : Fin E => dstZ e = z), (1 : ℝ)) + 1, ?_, ?_⟩
  · have : (0 : ℝ) ≤ ∑ _e ∈ Finset.univ.filter (fun e : Fin E => dstZ e = z), (1 : ℝ) :=
      Finset.sum_nonneg fun _ _ => zero_le_one
    linarith
  · rw [EReal.coe_add, ← coe_finset_sum, zero_add]
    simp

end Cert.Lib
-- ==== Proof.SpecLong.lean ====
/-
  The convolution with its self-loops written as edges, and its equality with the analytic form.

  One program adds the self-loops of the graph convolution by lengthening the edge list: after the 1600000 true
  edges come 100000 more, edge 1600000 + k being the loop (k, k), its two words the number k written in 32 bits.
  Degrees are then counted over the long list, and every message, a loop's included, is the table entry of its
  source row weighted by dinv (source row) · dinv (destination row). The other form (Spec.conv) counts the degree
  as the true in-degree plus 1, sums the true edges only, and adds dinv i · dinv i · T i for the loop.

  Word facts: a number below 100000 written in 32 bits reads back, signed, as itself; a word that reads as a node
  number i is not negative, so the shift of negative words leaves it alone and the clamp does nothing: it
  selects row i.

  The degrees agree (the loop at i is the one extra edge landing on i); degree^(-1/2) is a real number because
  the degree is a real number at least 1; and when the table is real both convolutions are the same extended
  real: the long sum splits into the true edges and the loops, only the loop at i lands on i, and dinv i factors
  out of the true-edge sum by distributivity in the reals.

  Last, realness is preserved along the layers: a finite sum of products of reals is real, a convolution of a
  real table with a real bias is real, and the larger of a real and 0 is real.
-/
import proofs.«129625_j60988535603969_2_alg».proof.Proof.Spec
import proofs.«129625_j60988535603969_2_alg».proof.Proof.LibSelfLoopAggregation
import Idealize.ShloMosaic.PureOps.Ideal

noncomputable section

namespace Cert.Spec

open Idealize.ShloMosaic Idealize.ShloMosaic.ValueIdx Cert.Lib

/-- A small natural number, written as a 32-bit word, reads back as itself. -/
theorem toInt_ofNat_lt (k : Nat) (h : k < 100000) : (BitVec.ofNat 32 k).toInt = (k : ℤ) := by
  rw [BitVec.toInt_eq_toNat_cond, BitVec.toNat_ofNat]
  omega

/-- A word that is not negative is left alone by the shift. -/
theorem wrap_of_nonneg (w : BitVec 32) (h : 0 ≤ w.toInt) : wrap w = w := by
  have hs : w.slt 0#32 = false := by
    simp only [BitVec.slt, BitVec.toInt_zero, decide_eq_false_iff_not, not_lt]
    exact h
  unfold wrap Scalar.select IntOp.cmpi
  simp only [hs]
  exact if_neg (by decide)

/-- A word that reads as the node number i selects row i. -/
theorem node_of_toInt (w : BitVec 32) (i : Fin 100000) (h : w.toInt = (i.val : ℤ)) : node w = i := by
  have hw : wrap w = w := wrap_of_nonneg w (by omega)
  apply Fin.ext
  simp only [node, hw, h]
  have := i.isLt
  omega

/-- The word written from a natural number below the node count selects the row of that number. -/
theorem node_ofNat_val (k : Nat) (hk : k < 100000) : (node (BitVec.ofNat 32 k)).val = k := by
  rw [node_of_toInt (BitVec.ofNat 32 k) ⟨k, hk⟩ (toInt_ofNat_lt k hk)]

/-- The word written from a node number selects that node's row. -/
theorem node_ofNat (k : Fin 100000) : node (BitVec.ofNat 32 k.val) = k :=
  node_of_toInt _ k (toInt_ofNat_lt k.val k.isLt)

/-- The source words of the long edge list: the 1600000 true edges, then the word k for k = 0 … 99999. -/
def srcL (ei : Pairs 1600000) (j : Fin 1700000) : BitVec 32 :=
  if h : j.val < 1600000 then ei (ix2 0 ⟨j.val, h⟩) else BitVec.ofNat 32 (j.val - 1600000)

/-- The destination words of the long edge list: the 1600000 true edges, then the word k for k = 0 … 99999. -/
def dstL (ei : Pairs 1600000) (j : Fin 1700000) : BitVec 32 :=
  if h : j.val < 1600000 then ei (ix2 1 ⟨j.val, h⟩) else BitVec.ofNat 32 (j.val - 1600000)

/-- The degree of node i counted over the long edge list (the loop is one of its edges). -/
def degL (ei : Pairs 1600000) (i : Fin 100000) : EReal :=
  (0 : EReal) + ∑ _j ∈ Finset.univ.filter (fun j : Fin 1700000 => (dstL ei j).toInt = (i.val : ℤ)), (1 : EReal)

/-- degree^(-1/2), the degree counted over the long edge list. -/
def dinvL (ei : Pairs 1600000) (i : Fin 100000) : EReal := Ideal.rsqrt (degL ei i)

/-- One convolution over the long edge list: every message, loops included, is weighted by dinv (src) · dinv (dst). -/
def convL (T : Fin 100000 → Fin 128 → EReal) (ei : Pairs 1600000) (b : Row 128) (i : Fin 100000) (f : Fin 128) : EReal :=
  ((0 : EReal) + ∑ j ∈ Finset.univ.filter (fun j : Fin 1700000 => (dstL ei j).toInt = (i.val : ℤ)),
      T (node (srcL ei j)) f * (dinvL ei (node (srcL ei j)) * dinvL ei (node (dstL ei j)))) + b (ix1 f)

/-- On the true edges the long lists are the edge array's two rows. -/
private theorem long_lo (ei : Pairs 1600000) (j : Fin 1700000) (h : j.val < 1600000) :
    srcL ei j = ei (ix2 0 ⟨j.val, h⟩) ∧ dstL ei j = ei (ix2 1 ⟨j.val, h⟩) := by
  unfold srcL dstL
  rw [dif_pos h, dif_pos h]
  exact ⟨rfl, rfl⟩

/-- Past the true edges both long lists hold the word of the loop's node. -/
private theorem long_hi (ei : Pairs 1600000) (j : Fin 1700000) (h : 1600000 ≤ j.val) :
    srcL ei j = BitVec.ofNat 32 (j.val - 1600000) ∧ dstL ei j = BitVec.ofNat 32 (j.val - 1600000) := by
  have hn : ¬ j.val < 1600000 := by omega
  unfold srcL dstL
  rw [dif_neg hn, dif_neg hn]
  exact ⟨rfl, rfl⟩

/-- The degree over the long list is the degree with the loop added analytically. -/
theorem degL_eq (ei : Pairs 1600000) (i : Fin 100000) : degL ei i = deg ei i := by
  unfold degL deg
  refine selfLoop_degree (n := 100000) (E := 1600000) (M := 1700000) (by norm_num)
    (fun e => (ei (ix2 1 e)).toInt) (fun j => (dstL ei j).toInt) ?_ ?_ i
  · intro j h
    rw [(long_lo ei j h).2]
  · intro j h
    have hj := j.isLt
    rw [(long_hi ei j h).2]
    exact toInt_ofNat_lt _ (by omega)

theorem dinvL_eq (ei : Pairs 1600000) (i : Fin 100000) : dinvL ei i = dinv ei i := by
  unfold dinvL dinv
  rw [degL_eq]

/-- degree^(-1/2) is a real number: the degree is a real number that is at least 1. -/
theorem dinv_real (ei : Pairs 1600000) (i : Fin 100000) : ∃ r : ℝ, dinv ei i = (r : EReal) := by
  obtain ⟨r, hr1, hr⟩ := degree_real (fun e : Fin 1600000 => (ei (ix2 1 e)).toInt) (i.val : ℤ)
  refine ⟨(Real.sqrt r)⁻¹, ?_⟩
  unfold dinv deg
  rw [hr, Ideal.rsqrt_coe, if_neg (by linarith), if_neg (by linarith)]

/-- With a real table, the convolution over the long edge list is the convolution with the loop's share added
analytically. -/
theorem convL_eq (T : Fin 100000 → Fin 128 → EReal) (hT : ∀ i f, ∃ r : ℝ, T i f = (r : EReal))
    (ei : Pairs 1600000) (b : Row 128) (i : Fin 100000) (f : Fin 128) :
    convL T ei b i f = conv T ei b i f := by
  choose Tr hTr using hT
  choose dr hdr using (fun k => dinv_real ei k)
  unfold convL conv
  simp only [dinvL_eq, hTr, hdr]
  refine congrArg (fun t => t + b (ix1 f)) ?_
  refine selfLoop_aggregation (n := 100000) (E := 1600000) (M := 1700000) (by norm_num)
    (fun e => (ei (ix2 1 e)).toInt) (fun e => node (ei (ix2 0 e))) (fun e => node (ei (ix2 1 e)))
    (fun j => (dstL ei j).toInt) (fun j => node (srcL ei j)) (fun j => node (dstL ei j))
    ?_ ?_ ?_ (fun k => Tr k f) dr i
  · intro j h
    obtain ⟨h1, h2⟩ := long_lo ei j h
    exact ⟨by rw [h2], by rw [h1], by rw [h2]⟩
  · intro j h
    have hj := j.isLt
    have hk : j.val - 1600000 < 100000 := by omega
    obtain ⟨h1, h2⟩ := long_hi ei j h
    refine ⟨?_, ?_, ?_⟩
    · rw [h2]
      exact toInt_ofNat_lt _ hk
    · rw [h1]
      exact node_ofNat_val _ hk
    · rw [h2]
      exact node_ofNat_val _ hk
  · intro e k h
    exact node_of_toInt _ k h

/-- The larger of a real and 0 is real. -/
private theorem max_zero_coe (r : ℝ) : max (r : EReal) 0 = ((max r 0 : ℝ) : EReal) := by
  rw [← EReal.coe_zero]
  exact (EReal.coe_strictMono.monotone.map_max).symm

/-- x · W1 is real when x and W1 are. -/
theorem lin1_real (x : Mat 100000 256) (w1 : Mat 256 128)
    (hx : ∀ j, ∃ r : ℝ, x j = (r : EReal)) (hw : ∀ j, ∃ r : ℝ, w1 j = (r : EReal)) :
    ∀ i f, ∃ r : ℝ, lin1 x w1 i f = (r : EReal) := by
  choose xr hxr using hx
  choose wr hwr using hw
  intro i f
  refine ⟨∑ c : Fin 256, xr (ix2 i c) * wr (ix2 c f), ?_⟩
  unfold lin1
  simp only [hxr, hwr, ← EReal.coe_mul]
  exact coe_finset_sum _ _

/-- A convolution of a real table with a real bias is real. -/
theorem conv_real (T : Fin 100000 → Fin 128 → EReal) (hT : ∀ i f, ∃ r : ℝ, T i f = (r : EReal))
    (ei : Pairs 1600000) (b : Row 128) (hb : ∀ j, ∃ r : ℝ, b j = (r : EReal)) :
    ∀ i f, ∃ r : ℝ, conv T ei b i f = (r : EReal) := by
  choose Tr hTr using hT
  choose br hbr using hb
  choose dr hdr using (fun k => dinv_real ei k)
  intro i f
  unfold conv
  simp only [hTr, hbr, hdr, ← EReal.coe_mul, coe_finset_sum, zero_add, ← EReal.coe_add]
  exact ⟨_, rfl⟩

/-- The hidden layer is real when the features, the first weights and the first bias are. -/
theorem hidden_real (x : Mat 100000 256) (ei : Pairs 1600000) (w1 : Mat 256 128) (b1 : Row 128)
    (hx : ∀ j, ∃ r : ℝ, x j = (r : EReal)) (hw1 : ∀ j, ∃ r : ℝ, w1 j = (r : EReal))
    (hb1 : ∀ j, ∃ r : ℝ, b1 j = (r : EReal)) :
    ∀ i f, ∃ r : ℝ, hidden x ei w1 b1 i f = (r : EReal) := by
  intro i f
  obtain ⟨r, hr⟩ := conv_real (lin1 x w1) (lin1_real x w1 hx hw1) ei b1 hb1 i f
  refine ⟨max r 0, ?_⟩
  unfold hidden
  rw [hr, max_zero_coe]

/-- hidden · W2 is real when the features, both weights and the first bias are. -/
theorem lin2_real (x : Mat 100000 256) (ei : Pairs 1600000) (w1 : Mat 256 128) (b1 : Row 128) (w2 : Mat 128 128)
    (hx : ∀ j, ∃ r : ℝ, x j = (r : EReal)) (hw1 : ∀ j, ∃ r : ℝ, w1 j = (r : EReal))
    (hb1 : ∀ j, ∃ r : ℝ, b1 j = (r : EReal)) (hw2 : ∀ j, ∃ r : ℝ, w2 j = (r : EReal)) :
    ∀ i f, ∃ r : ℝ, lin2 x ei w1 b1 w2 i f = (r : EReal) := by
  choose hr hhr using hidden_real x ei w1 b1 hx hw1 hb1
  choose wr hwr using hw2
  intro i f
  refine ⟨∑ c : Fin 128, hr i c * wr (ix2 c f), ?_⟩
  unfold lin2
  simp only [hhr, hwr, ← EReal.coe_mul]
  exact coe_finset_sum _ _

end Cert.Spec
-- ==== Proof.RefLayers.lean ====
/-
  THE REFERENCE PROGRAM'S TWO CONVOLUTION LAYERS, READ AT ONE ENTRY.

  The reference program adds the self-loops of the graph convolution by lengthening the edge list: after the 1600000
  true edges come 100000 more positions, position 1600000 + k holding the word k at both ends. Every quantity of a
  layer is then an expression of that long list, and this file reads each at one index.

  • The long source and destination lists at position j: the edge array's row 0 (row 1) entry j while j < 1600000,
    and the word j - 1600000 past that (the two lists joined end to end with the list 0, 1, …, 99999).
  • A word with a negative word shifted up by 100000: the selection "if w < 0 then w + 100000 else w" at position j.
    A gather then reads the row "the shifted word, read signed, clamped into 0 … 99999", which is the node of the word.
  • The degree of node i: zero plus the sum of a one for every position whose destination word reads i; degree^(-1/2)
    is its inverse square root.
  • The weight of position e: degree^(-1/2) of the source node times degree^(-1/2) of the destination node.
  • One layer over a table T and a bias b, at (i, f): zero plus the sum, over the positions e whose destination word
    reads i, of T (node (source e), f) times the weight of e, plus b f. Row e of the updates keeps its columns, so the
    accumulating scatter's entry (i, f) collects exactly column f of the rows that land on i.
  • The first table is features · W1 (a sum over the 256 input columns), the hidden layer is the larger of the first
    layer and 0, the second table is hidden · W2 (a sum over the 128 hidden columns), and the second layer is the
    same term of the edge array at the second table and bias.

  The long-list convolution equals the convolution with the loop's share added analytically when the table is real
  (the long sum splits into true edges and loops, and degree^(-1/2) factors out in the reals); the tables are real
  when the features, weights and first bias are. That gives the hidden layer and the embedding as the specification
  names them.
-/
import proofs.«129625_j60988535603969_2_alg».proof.Proof.RefReadPatched
import proofs.«129625_j60988535603969_2_alg».proof.Proof.Spec
import proofs.«129625_j60988535603969_2_alg».proof.Proof.SpecLong
import proofs.«129625_j60988535603969_2_alg».proof.Proof.LibIndexedRows
import proofs.«129625_j60988535603969_2_alg».proof.Proof.LibSegmentCount
import Idealize.ShloMosaic.Lib.IdealHost
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx Cert.Lib

/-- Two rank-1 indices with the same coordinate are the same index. -/
private theorem idx1_ext {n : Nat} {u v : (⟨1, ![n]⟩ : Shape).Idx} (h : (u 0).val = (v 0).val) : u = v := by
  funext a
  match a with
  | ⟨0, _⟩ => exact Fin.ext h

/-- Two rank-2 indices with the same coordinates are the same index. -/
private theorem idx2_ext {a b : Nat} {u v : (⟨2, ![a, b]⟩ : Shape).Idx} (h0 : (u 0).val = (v 0).val)
    (h1 : (u 1).val = (v 1).val) : u = v := by
  funext c
  match c with
  | ⟨0, _⟩ => exact Fin.ext h0
  | ⟨1, _⟩ => exact Fin.ext h1

/-- Over the extended reals the host's accumulating scatter is the exact sum. -/
private theorem hostScatterAdd_eq {s si u : Shape} {φ : FTy} {w : Nat} (d : ScatterDims s si u) (x : FVec Ideal s φ)
    (idx : IVec si w) (upd : FVec Ideal u φ) : Host.scatterAdd d x idx upd = Ideal.hostScatterAdd d x idx upd := rfl

/-- The joined source list at position j: the edge's source word, or past the edges the node's own number. -/
theorem read_src (x1 : (⟨S2x1600000, .i32⟩ : BufTy).Contents (Elt Ideal)) (j : Fin 1700000) :
    val_main_v6 (F := Ideal) x1 (ix1 j) = Spec.srcL x1 j := by
  unfold val_main_v6 Spec.srcL
  by_cases h : j.val < 1600000
  · rw [dif_pos h, concat1_apply_left _ _ concatenates_S1600000_S100000_S1700000_d0 j ⟨j.val, h⟩ rfl,
      val_main_v1_apply, val_main_v0_apply]
    congr 1
    funext a
    match a with
    | ⟨0, _⟩ => rfl
    | ⟨1, _⟩ => exact Fin.ext (Nat.mod_eq_of_lt h)
  · rw [dif_neg h, concat1_apply_right _ _ concatenates_S1600000_S100000_S1700000_d0 j
      ⟨j.val - 1600000, by have := j.isLt; omega⟩ (by show j.val = 1600000 + (j.val - 1600000); omega)]
    rfl

/-- The joined destination list at position j. -/
theorem read_dst (x1 : (⟨S2x1600000, .i32⟩ : BufTy).Contents (Elt Ideal)) (j : Fin 1700000) :
    val_main_v7 (F := Ideal) x1 (ix1 j) = Spec.dstL x1 j := by
  unfold val_main_v7 Spec.dstL
  by_cases h : j.val < 1600000
  · rw [dif_pos h, concat1_apply_left _ _ concatenates_S1600000_S100000_S1700000_d0 j ⟨j.val, h⟩ rfl,
      val_main_v3_apply, val_main_v2_apply]
    congr 1
    funext a
    match a with
    | ⟨0, _⟩ => rfl
    | ⟨1, _⟩ => exact Fin.ext (Nat.mod_eq_of_lt h)
  · rw [dif_neg h, concat1_apply_right _ _ concatenates_S1600000_S100000_S1700000_d0 j
      ⟨j.val - 1600000, by have := j.isLt; omega⟩ (by show j.val = 1600000 + (j.val - 1600000); omega)]
    rfl

/-- The source word at position j with a negative word shifted up, as the weight of the source end reads it. -/
theorem read_wrap_src_a (x1 : (⟨S2x1600000, .i32⟩ : BufTy).Contents (Elt Ideal)) (j : Fin 1700000) :
    val_main_v17 (F := Ideal) x1 (ix1 j) = Spec.wrap (Spec.srcL x1 j) := by
  rw [val_main_v17_apply, val_main_v14_apply, val_main_v16_apply, val_main_v13_apply, val_main_v15_apply,
    val_main_c_apply, val_main_c_1_apply, read_src]
  rfl

/-- The destination word at position j with a negative word shifted up. -/
theorem read_wrap_dst (x1 : (⟨S2x1600000, .i32⟩ : BufTy).Contents (Elt Ideal)) (j : Fin 1700000) :
    val_main_v24 (F := Ideal) x1 (ix1 j) = Spec.wrap (Spec.dstL x1 j) := by
  rw [val_main_v24_apply, val_main_v21_apply, val_main_v23_apply, val_main_v20_apply, val_main_v22_apply,
    val_main_c_2_apply, val_main_c_3_apply, read_dst]
  rfl

/-- The source word at position j with a negative word shifted up, as the table's row gather reads it. -/
theorem read_wrap_src_b (x1 : (⟨S2x1600000, .i32⟩ : BufTy).Contents (Elt Ideal)) (j : Fin 1700000) :
    val_main_v32 (F := Ideal) x1 (ix1 j) = Spec.wrap (Spec.srcL x1 j) := by
  rw [val_main_v32_apply, val_main_v29_apply, val_main_v31_apply, val_main_v28_apply, val_main_v30_apply,
    val_main_c_4_apply, val_main_c_5_apply, read_src]
  rfl

/-- The zero table of the degree count, at node i. -/
theorem v9_at (i : Fin 100000) : val_main_v9 (F := Ideal) (ix1 i) = 0 := by
  rw [val_main_v9_apply, val_main_cst_0_apply, Ideal.ofBits_def, Ideal.ofBits_zero_f32]

/-- The ones the degree count adds, at position e. -/
theorem v8_at (e : Fin 1700000) : val_main_v8 (F := Ideal) (ix1 e) = 1 := by
  rw [val_main_v8_apply, val_main_cst_apply, Ideal.ofBits_def, Ideal.ofBits_one_f32]

/-- The destination list as a column, at position e. -/
theorem v10_at (x1 : (⟨S2x1600000, .i32⟩ : BufTy).Contents (Elt Ideal)) (e : Fin 1700000) :
    val_main_v10 (F := Ideal) x1 (ix2 e 0) = Spec.dstL x1 e := by
  rw [val_main_v10_apply, show idx_main_v10 (ix2 e (0 : Fin 1)) = ix1 e from idx1_ext rfl, read_dst]

/-- degree^(-1/2) of node i, the degree counted by adding a one at the destination of every position of the long
    list. -/
theorem read_dinv (x1 : (⟨S2x1600000, .i32⟩ : BufTy).Contents (Elt Ideal)) (i : Fin 100000) :
    val_main_v12 (F := Ideal) x1 (ix1 i) = Spec.dinvL x1 i := by
  rw [val_main_v12_apply, Ideal.hostUnary_rsqrt_def]
  unfold Spec.dinvL Spec.degL val_main_v11
  rw [hostScatterAdd_eq, hostScatterAdd_flat_apply scatter_S100000_S1700000x1_S1700000_n_0_0_1 rfl rfl rfl rfl, v9_at]
  simp only [v8_at, v10_at]

/-- The weight of position e: dinv of the source row times dinv of the destination row. -/
theorem read_weight (x1 : (⟨S2x1600000, .i32⟩ : BufTy).Contents (Elt Ideal)) (e : Fin 1700000) :
    val_main_v27 (F := Ideal) x1 (ix1 e)
      = Spec.dinvL x1 (Spec.node (Spec.srcL x1 e)) * Spec.dinvL x1 (Spec.node (Spec.dstL x1 e)) := by
  have h18 : val_main_v18 (F := Ideal) x1 (ix2 e 0) = Spec.wrap (Spec.srcL x1 e) := by
    rw [val_main_v18_apply, show idx_main_v18 (ix2 e (0 : Fin 1)) = ix1 e from idx1_ext rfl, read_wrap_src_a]
  have h25 : val_main_v25 (F := Ideal) x1 (ix2 e 0) = Spec.wrap (Spec.dstL x1 e) := by
    rw [val_main_v25_apply, show idx_main_v25 (ix2 e (0 : Fin 1)) = ix1 e from idx1_ext rfl, read_wrap_dst]
  rw [val_main_v27_apply, Ideal.mulf_def]
  unfold val_main_v19 val_main_v26
  rw [flatGather_apply (by norm_num : 0 < 100000) gather_S100000_S1700000x1_S1700000_n_0_n_n_0_1_1 rfl rfl rfl rfl rfl rfl,
    flatGather_apply (by norm_num : 0 < 100000) gather_S100000_S1700000x1_S1700000_n_0_n_n_0_1_1 rfl rfl rfl rfl rfl rfl,
    h18, h25]
  exact congrArg₂ (· * ·) (read_dinv x1 (Spec.node (Spec.srcL x1 e))) (read_dinv x1 (Spec.node (Spec.dstL x1 e)))

/-- One layer of the program over an arbitrary table T and bias b, read at (i, f): the convolution over the long
    edge list. Both layers are this term, at their own table and bias. -/
theorem layer_apply (T : (⟨S100000x128, .f32⟩ : BufTy).Contents (Elt Ideal))
    (x1 : (⟨S2x1600000, .i32⟩ : BufTy).Contents (Elt Ideal)) (b : (⟨S128, .f32⟩ : BufTy).Contents (Elt Ideal))
    (i : Fin 100000) (f : Fin 128) :
    addf (F := Ideal) (s := S100000x128) (φ := .f32)
        (Host.scatterAdd scatter_S100000x128_S1700000x1_S1700000x128_1_0_0_1 (val_main_v38 (F := Ideal))
          (val_main_v39 (F := Ideal) x1)
          (mulf (F := Ideal) (s := S1700000x128) (φ := .f32)
            (Host.gather gather_S100000x128_S1700000x1_S1700000x128_1_0_n_n_0_1_1128 T (val_main_v33 (F := Ideal) x1))
            (val_main_v36 (F := Ideal) x1)))
        (val_main_v42 (F := Ideal) b) (ix2 i f)
      = Spec.convL (fun n c => T (ix2 n c)) x1 b i f := by
  have h38 : val_main_v38 (F := Ideal) (ix2 i f) = 0 := by
    rw [val_main_v38_apply, val_main_cst_6_apply, Ideal.ofBits_def, Ideal.ofBits_zero_f32]
  have h39 : ∀ e : Fin 1700000, val_main_v39 (F := Ideal) x1 (ix2 e 0) = Spec.dstL x1 e := fun e => by
    rw [val_main_v39_apply, show idx_main_v39 (ix2 e (0 : Fin 1)) = ix1 e from idx1_ext rfl, read_dst]
  have h33 : ∀ e : Fin 1700000, val_main_v33 (F := Ideal) x1 (ix2 e 0) = Spec.wrap (Spec.srcL x1 e) := fun e => by
    rw [val_main_v33_apply, show idx_main_v33 (ix2 e (0 : Fin 1)) = ix1 e from idx1_ext rfl, read_wrap_src_b]
  have h36 : ∀ e : Fin 1700000, val_main_v36 (F := Ideal) x1 (ix2 e f)
      = Spec.dinvL x1 (Spec.node (Spec.srcL x1 e)) * Spec.dinvL x1 (Spec.node (Spec.dstL x1 e)) := fun e => by
    rw [val_main_v36_apply, val_main_v35_apply,
      show idx_main_v35 (idx_main_v36 (ix2 e f)) = ix1 e from idx1_ext rfl, read_weight]
  have h42 : val_main_v42 (F := Ideal) b (ix2 i f) = b (ix1 f) := by
    rw [val_main_v42_apply, val_main_v41_apply]
    exact congrArg b (idx1_ext rfl)
  have hG : ∀ e : Fin 1700000,
      Host.gather gather_S100000x128_S1700000x1_S1700000x128_1_0_n_n_0_1_1128 T (val_main_v33 (F := Ideal) x1) (ix2 e f)
        = T (ix2 (Spec.node (Spec.srcL x1 e)) f) := fun e => by
    rw [rowGather_apply (by norm_num : 0 < 100000) gather_S100000x128_S1700000x1_S1700000x128_1_0_n_n_0_1_1128
      rfl rfl rfl rfl rfl rfl, h33]
    rfl
  rw [addf_apply, h42, hostScatterAdd_eq,
    hostScatterAdd_rows_apply scatter_S100000x128_S1700000x1_S1700000x128_1_0_0_1 rfl rfl rfl rfl, h38]
  unfold Spec.convL
  simp only [h39, mulf_apply, hG, h36]

/-- The first table: the features times the first weight matrix. -/
theorem read_lin1 (x0 : (⟨S100000x256, .f32⟩ : BufTy).Contents (Elt Ideal)) (x4 : (⟨S256x128, .f32⟩ : BufTy).Contents (Elt Ideal))
    (n : Fin 100000) (c : Fin 128) : val_main_v4 (F := Ideal) x0 x4 (ix2 n c) = Spec.lin1 x0 x4 n c := by
  rw [val_main_v4_apply]
  unfold Spec.lin1
  refine Finset.sum_congr rfl fun k _ => ?_
  exact congrArg₂ (· * ·) (congrArg x0 (idx2_ext rfl rfl)) (congrArg x4 (idx2_ext rfl rfl))

/-- The first layer before its relu: the convolution over the long edge list of the first table. -/
theorem read_conv1 (x0 : (⟨S100000x256, .f32⟩ : BufTy).Contents (Elt Ideal)) (x1 : (⟨S2x1600000, .i32⟩ : BufTy).Contents (Elt Ideal))
    (x4 : (⟨S256x128, .f32⟩ : BufTy).Contents (Elt Ideal)) (x5 : (⟨S128, .f32⟩ : BufTy).Contents (Elt Ideal))
    (i : Fin 100000) (f : Fin 128) :
    val_main_v43 (F := Ideal) x0 x1 x4 x5 (ix2 i f) = Spec.convL (Spec.lin1 x0 x4) x1 x5 i f := by
  have h := layer_apply (val_main_v4 (F := Ideal) x0 x4) x1 x5 i f
  rw [show (fun n c => val_main_v4 (F := Ideal) x0 x4 (ix2 n c)) = Spec.lin1 x0 x4 from
    funext fun n => funext fun c => read_lin1 x0 x4 n c] at h
  exact h

/-- The hidden layer: with real features and first weights, the relu of the first convolution. -/
theorem ref_hidden (x0 : (⟨S100000x256, .f32⟩ : BufTy).Contents (Elt Ideal)) (x1 : (⟨S2x1600000, .i32⟩ : BufTy).Contents (Elt Ideal))
    (x4 : (⟨S256x128, .f32⟩ : BufTy).Contents (Elt Ideal)) (x5 : (⟨S128, .f32⟩ : BufTy).Contents (Elt Ideal))
    (h0 : ∀ j, ∃ r : ℝ, x0 j = (r : EReal)) (h4 : ∀ j, ∃ r : ℝ, x4 j = (r : EReal)) (i : Fin 100000) (f : Fin 128) :
    val_main_v44 (F := Ideal) x0 x1 x4 x5 (ix2 i f) = Spec.hidden x0 x1 x4 x5 i f := by
  rw [val_main_v44_apply, Ideal.maximumf_def, read_conv1, val_main_call0_v0_apply, val_main_call0_cst_apply,
    Ideal.ofBits_def, Ideal.ofBits_zero_f32, Spec.convL_eq _ (Spec.lin1_real x0 x4 h0 h4)]
  rfl

/-- The second table: the hidden layer times the second weight matrix. -/
theorem read_lin2 (x0 : (⟨S100000x256, .f32⟩ : BufTy).Contents (Elt Ideal)) (x1 : (⟨S2x1600000, .i32⟩ : BufTy).Contents (Elt Ideal))
    (x4 : (⟨S256x128, .f32⟩ : BufTy).Contents (Elt Ideal)) (x5 : (⟨S128, .f32⟩ : BufTy).Contents (Elt Ideal))
    (x6 : (⟨S128x128, .f32⟩ : BufTy).Contents (Elt Ideal))
    (h0 : ∀ j, ∃ r : ℝ, x0 j = (r : EReal)) (h4 : ∀ j, ∃ r : ℝ, x4 j = (r : EReal)) (n : Fin 100000) (c : Fin 128) :
    val_main_v45 (F := Ideal) x0 x1 x4 x5 x6 (ix2 n c) = Spec.lin2 x0 x1 x4 x5 x6 n c := by
  rw [val_main_v45_apply]
  unfold Spec.lin2
  refine Finset.sum_congr rfl fun k _ => ?_
  rw [show lidx_main_v45 (ix2 n c) k = ix2 n k from idx2_ext rfl rfl, ref_hidden x0 x1 x4 x5 h0 h4 n k]
  exact congrArg (Spec.hidden x0 x1 x4 x5 n k * ·) (congrArg x6 (idx2_ext rfl rfl))

/-- The second layer is the first layer's term at the second table and bias: its index lists, weights and zero table
    are the same expressions of the edge array. -/
theorem layer2_eq (x0 : (⟨S100000x256, .f32⟩ : BufTy).Contents (Elt Ideal)) (x1 : (⟨S2x1600000, .i32⟩ : BufTy).Contents (Elt Ideal))
    (x4 : (⟨S256x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal)) :
    val_main_v84 (F := Ideal) x0 x1 x4 x5 x6 x7
      = addf (F := Ideal) (s := S100000x128) (φ := .f32)
        (Host.scatterAdd scatter_S100000x128_S1700000x1_S1700000x128_1_0_0_1 (val_main_v38 (F := Ideal))
          (val_main_v39 (F := Ideal) x1)
          (mulf (F := Ideal) (s := S1700000x128) (φ := .f32)
            (Host.gather gather_S100000x128_S1700000x1_S1700000x128_1_0_n_n_0_1_1128
              (val_main_v45 (F := Ideal) x0 x1 x4 x5 x6) (val_main_v33 (F := Ideal) x1))
            (val_main_v36 (F := Ideal) x1)))
        (val_main_v42 (F := Ideal) x7) := rfl

/-- The node embedding: with real features, weights and first bias, the second convolution. -/
theorem ref_embed (x0 : (⟨S100000x256, .f32⟩ : BufTy).Contents (Elt Ideal)) (x1 : (⟨S2x1600000, .i32⟩ : BufTy).Contents (Elt Ideal))
    (x4 : (⟨S256x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (h0 : ∀ j, ∃ r : ℝ, x0 j = (r : EReal)) (h4 : ∀ j, ∃ r : ℝ, x4 j = (r : EReal))
    (h5 : ∀ j, ∃ r : ℝ, x5 j = (r : EReal)) (h6 : ∀ j, ∃ r : ℝ, x6 j = (r : EReal)) (i : Fin 100000) (f : Fin 128) :
    val_main_v84 (F := Ideal) x0 x1 x4 x5 x6 x7 (ix2 i f) = Spec.embed x0 x1 x4 x5 x6 x7 i f := by
  rw [layer2_eq, layer_apply,
    show (fun n c => val_main_v45 (F := Ideal) x0 x1 x4 x5 x6 (ix2 n c)) = Spec.lin2 x0 x1 x4 x5 x6 from
      funext fun n => funext fun c => read_lin2 x0 x1 x4 x5 x6 h0 h4 n c,
    Spec.convL_eq _ (Spec.lin2_real x0 x1 x4 x5 x6 h0 h4 h5 h6)]
  rfl

end Cert.ReferenceIdeal.RefValue

end
-- ==== Proof.RefHeads.lean ====
/-
  The reference's class head, read against an abstract table of node embeddings H.

  Row i of the logits is relu (H i) · Wcls + bcls, ten numbers l 0 … l 9. The program takes their maximum from −∞,
  takes the maximum of −∞ and that once more (call the result m), and returns

      l q − m − log (0 + ∑ q', exp (l q' − m)),

  the log-softmax of the row. The sum starts from 0, and 0 + s = s in the extended reals, so no finiteness is needed.
  The maximum over a row is a fold of a commutative, associative operation, so the order of the ten entries does not
  matter.
-/
import proofs.«129625_j60988535603969_2_alg».proof.Proof.RefReadPatched
import proofs.«129625_j60988535603969_2_alg».proof.Proof.Spec
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx

variable (x0 : (⟨S100000x256, .f32⟩ : BufTy).Contents (Elt Ideal)) (x1 : (⟨S2x1600000, .i32⟩ : BufTy).Contents (Elt Ideal))
    (x4 : (⟨S256x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
  (H : Fin 100000 → Fin 128 → EReal)

/-- The bit pattern 0xFF800000 is −∞. -/
theorem ofBits_neg_inf : Ideal.ofBits .f32 0xFF800000#32 = (⊥ : EReal) := by simp [Ideal.ofBits, Ideal.ieee]

/-- Reducing a [100000, 10] array over its columns leaves one entry per row. -/
theorem reduces_rows : S100000x10.Reduces [1] S100000 := by decide

/-- The class logits read at (i, k): relu (H i) · Wcls + bcls. -/
theorem read_logit (hH : ∀ i f, val_main_v84 (F := Ideal) x0 x1 x4 x5 x6 x7 (ix2 i f) = H i f)
    (x8 : (⟨S128x10, .f32⟩ : BufTy).Contents (Elt Ideal)) (x9 : (⟨S10, .f32⟩ : BufTy).Contents (Elt Ideal))
    (i : Fin 100000) (k : Fin 10) :
    val_main_v89 (F := Ideal) x0 x1 x4 x5 x6 x7 x8 x9 (ix2 i k) = Cert.Spec.logit H x8 x9 i k := by
  rewrite [val_main_v89_apply, val_main_v86_apply, val_main_v88_apply, val_main_v87_apply]
  unfold Cert.Spec.logit
  simp only [Ideal.addf_def]
  refine congrArg₂ (· + ·) (Finset.sum_congr rfl fun c _ => ?_) ?_
  · rewrite [val_main_v85_apply, val_main_call1_v0_apply, val_main_call1_cst_apply]
    simp only [Ideal.maximumf_def, Ideal.ofBits_def, Ideal.ofBits_zero_f32]
    have hl : lidx_main_v86 (ix2 i k) c = ix2 i c := by
      funext a
      match a with
      | ⟨0, _⟩ => rfl
      | ⟨1, _⟩ => rfl
    rewrite [hl, hH]
    refine congrArg (max (H i c) 0 * x8 ·) ?_
    funext a
    match a with
    | ⟨0, _⟩ => rfl
    | ⟨1, _⟩ => rfl
  · refine congrArg x9 ?_
    funext a
    match a with
    | ⟨0, _⟩ => rfl

/-- The maximum over the columns of a [100000, 10] array, read at row i: the fold of the maximum over the row's ten
    entries, from the initial value. -/
theorem reduce_max_rows (x : (⟨S100000x10, .f32⟩ : BufTy).Contents (Elt Ideal))
    (init : (⟨S_, .f32⟩ : BufTy).Contents (Elt Ideal)) (i : Fin 100000) :
    Host.reduce (FloatOps.maximumf (F := Ideal) (φ := .f32)) x init reducesTo_S100000x10_S100000_d1 h_S_ (ix1 i)
      = (Finset.univ : Finset (Fin 10)).fold (FloatOps.maximumf (F := Ideal) (φ := .f32)) (init (Shape.Idx.first h_S_))
          (fun k => x (ix2 i k)) := by
  rewrite [Host.reduce_eq_fold_single (FloatOps.maximumf (F := Ideal) (φ := .f32)) x init reducesTo_S100000x10_S100000_d1 reduces_rows h_S_]
  refine Finset.fold_congr fun k _ => ?_
  show x (reduces_rows.lift (ix1 i) k) = x (ix2 i k)
  refine congrArg x ?_
  funext a
  refine Fin.ext ?_
  match a with
  | ⟨0, _⟩ => rfl
  | ⟨1, _⟩ => rfl

/-- The row maximum the program subtracts, read at (i, k): the maximum of −∞ and the row's maximum taken from −∞. -/
theorem read_rowMax (hH : ∀ i f, val_main_v84 (F := Ideal) x0 x1 x4 x5 x6 x7 (ix2 i f) = H i f)
    (x8 : (⟨S128x10, .f32⟩ : BufTy).Contents (Elt Ideal)) (x9 : (⟨S10, .f32⟩ : BufTy).Contents (Elt Ideal))
    (i : Fin 100000) (k : Fin 10) :
    val_main_call2_v4 (F := Ideal) x0 x1 x4 x5 x6 x7 x8 x9 (ix2 i k) = Cert.Spec.rowMax (Cert.Spec.logit H x8 x9 i) := by
  have hidx : idx_main_call2_v3 (idx_main_call2_v4 (ix2 i k)) = ix1 i := by
    funext a
    match a with
    | ⟨0, _⟩ => rfl
  have hfun : (fun k' : Fin 10 => val_main_v89 (F := Ideal) x0 x1 x4 x5 x6 x7 x8 x9 (ix2 i k')) = Cert.Spec.logit H x8 x9 i :=
    funext fun k' => read_logit x0 x1 x4 x5 x6 x7 H hH x8 x9 i k'
  rewrite [val_main_call2_v4_apply, val_main_call2_v3_apply, hidx, val_main_call2_v2_apply, val_main_call2_v1_apply,
    val_main_call2_cst_0_apply]
  unfold val_main_call2_v0
  rewrite [reduce_max_rows, val_main_call2_cst_apply, hfun]
  show max (Ideal.ofBits .f32 0xFF800000#32)
    (Finset.fold max (Ideal.ofBits .f32 0xFF800000#32) (Cert.Spec.logit H x8 x9 i) Finset.univ) = _
  rewrite [ofBits_neg_inf]
  rfl

/-- The shifted logits, read at (i, k): the logit minus the row maximum. -/
theorem read_shifted (hH : ∀ i f, val_main_v84 (F := Ideal) x0 x1 x4 x5 x6 x7 (ix2 i f) = H i f)
    (x8 : (⟨S128x10, .f32⟩ : BufTy).Contents (Elt Ideal)) (x9 : (⟨S10, .f32⟩ : BufTy).Contents (Elt Ideal))
    (i : Fin 100000) (k : Fin 10) :
    val_main_call2_v5 (F := Ideal) x0 x1 x4 x5 x6 x7 x8 x9 (ix2 i k)
      = Cert.Spec.logit H x8 x9 i k - Cert.Spec.rowMax (Cert.Spec.logit H x8 x9 i) := by
  rewrite [val_main_call2_v5_apply, read_logit x0 x1 x4 x5 x6 x7 H hH, read_rowMax x0 x1 x4 x5 x6 x7 H hH]
  rfl

/-- The class scores: the log-softmax of each row of logits. -/
theorem ref_classes (hH : ∀ i f, val_main_v84 (F := Ideal) x0 x1 x4 x5 x6 x7 (ix2 i f) = H i f)
    (x8 : (⟨S128x10, .f32⟩ : BufTy).Contents (Elt Ideal)) (x9 : (⟨S10, .f32⟩ : BufTy).Contents (Elt Ideal)) :
    val_main_v90 (F := Ideal) x0 x1 x4 x5 x6 x7 x8 x9 = Cert.Spec.outClasses H x8 x9 := by
  funext j
  obtain ⟨i, q, rfl⟩ : ∃ i q, j = ix2 i q := ⟨j 0, j 1, eq_ix2 j⟩
  have hi : ∀ k : Fin 10, idx_main_call2_v7 (idx_main_call2_v8 (idx_main_call2_v10 (ix2 i q))) k = ix2 i k := fun k => by
    funext a
    match a with
    | ⟨0, _⟩ => rfl
    | ⟨1, _⟩ => rfl
  have hterm : ∀ k : Fin 10, val_main_call2_v6 (F := Ideal) x0 x1 x4 x5 x6 x7 x8 x9
        (idx_main_call2_v7 (idx_main_call2_v8 (idx_main_call2_v10 (ix2 i q))) k)
      = Ideal.exp (Cert.Spec.logit H x8 x9 i k - Cert.Spec.rowMax (Cert.Spec.logit H x8 x9 i)) := fun k => by
    rewrite [hi k, val_main_call2_v6_apply, read_shifted x0 x1 x4 x5 x6 x7 H hH]
    rfl
  rewrite [val_main_v90_apply, val_main_call2_v10_apply, val_main_call2_v9_apply, val_main_call2_v8_apply,
    val_main_call2_v7_apply, val_main_call2_cst_1_apply, read_shifted x0 x1 x4 x5 x6 x7 H hH,
    Finset.sum_congr rfl fun k _ => hterm k]
  simp only [Ideal.subf_def, Ideal.hostUnary_log_def, Ideal.addf_def, Ideal.ofBits_def, Ideal.ofBits_zero_f32, zero_add]
  rfl

end Cert.ReferenceIdeal.RefValue

end
-- ==== Proof.LibConcatContraction.lean ====
/-
  A contraction over a concatenated axis.

  Lay two [M, d] arrays X, Y side by side along the columns, and two [d, N] arrays U, W one above the other along the
  rows. Contracting the [M, d + d] array against the [d + d, N] array over the long axis gives, at entry (a, b),

      ∑ k < d + d, [X | Y] (a, k) · [U ; W] (k, b)  =  ∑ k < d, X (a, k) · U (k, b)  +  ∑ k < d, Y (a, k) · W (k, b):

  the first d terms read the first pieces, the last d terms the second pieces. Only the commutative-monoid laws of the
  sum are used, so the identity holds over the extended reals with no finiteness assumption.
-/
import Idealize.ShloMosaic.Lib.Pipeline.Value
import Idealize.ShloMosaic.Lib.ValueIdx

noncomputable section

namespace Cert.Lib

open Idealize.ShloMosaic Idealize.ShloMosaic.ValueIdx

variable {α : Type}

/-- Two [M, d] arrays side by side along the columns: column `k < d` of the long array is the first array's column `k`. -/
theorem concat_cols_left {M d D : Nat} (X Y : (⟨2, ![M, d]⟩ : Shape).Idx → α)
    (h : Shape.Concatenates [⟨2, ![M, d]⟩, ⟨2, ![M, d]⟩] ⟨2, ![M, D]⟩ 1) (a : Fin M) (k : Fin d) (k' : Fin D)
    (hk : k'.val = k.val) :
    concatenate ⟨2, ![M, D]⟩ 1 [⟨⟨2, ![M, d]⟩, X⟩, ⟨⟨2, ![M, d]⟩, Y⟩] h (ix2 a k') = X (ix2 a k) :=
  concatenate_pair_apply_left 1 X Y h (ix2 a k') rfl (ix2 a k) fun b => by
    match b with
    | ⟨0, _⟩ => rfl
    | ⟨1, _⟩ => exact hk.symm

/-- … and column `d + k` is the second array's column `k`. -/
theorem concat_cols_right {M d D : Nat} (X Y : (⟨2, ![M, d]⟩ : Shape).Idx → α)
    (h : Shape.Concatenates [⟨2, ![M, d]⟩, ⟨2, ![M, d]⟩] ⟨2, ![M, D]⟩ 1) (a : Fin M) (k : Fin d) (k' : Fin D)
    (hk : k'.val = d + k.val) :
    concatenate ⟨2, ![M, D]⟩ 1 [⟨⟨2, ![M, d]⟩, X⟩, ⟨⟨2, ![M, d]⟩, Y⟩] h (ix2 a k') = Y (ix2 a k) :=
  concatenate_pair_apply_right 1 X Y h (ix2 a k') rfl rfl (ix2 a k)
    (fun b hb => by
      match b, hb with
      | ⟨0, _⟩, _ => rfl
      | ⟨1, _⟩, hb => exact absurd rfl hb)
    (by show k.val + d = k'.val; omega)

/-- Two [d, N] arrays one above the other along the rows: row `k < d` of the tall array is the first array's row `k`. -/
theorem concat_rows_left {d D N : Nat} (U W : (⟨2, ![d, N]⟩ : Shape).Idx → α)
    (h : Shape.Concatenates [⟨2, ![d, N]⟩, ⟨2, ![d, N]⟩] ⟨2, ![D, N]⟩ 0) (b : Fin N) (k : Fin d) (k' : Fin D)
    (hk : k'.val = k.val) :
    concatenate ⟨2, ![D, N]⟩ 0 [⟨⟨2, ![d, N]⟩, U⟩, ⟨⟨2, ![d, N]⟩, W⟩] h (ix2 k' b) = U (ix2 k b) :=
  concatenate_pair_apply_left 0 U W h (ix2 k' b) rfl (ix2 k b) fun ax => by
    match ax with
    | ⟨0, _⟩ => exact hk.symm
    | ⟨1, _⟩ => rfl

/-- … and row `d + k` is the second array's row `k`. -/
theorem concat_rows_right {d D N : Nat} (U W : (⟨2, ![d, N]⟩ : Shape).Idx → α)
    (h : Shape.Concatenates [⟨2, ![d, N]⟩, ⟨2, ![d, N]⟩] ⟨2, ![D, N]⟩ 0) (b : Fin N) (k : Fin d) (k' : Fin D)
    (hk : k'.val = d + k.val) :
    concatenate ⟨2, ![D, N]⟩ 0 [⟨⟨2, ![d, N]⟩, U⟩, ⟨⟨2, ![d, N]⟩, W⟩] h (ix2 k' b) = W (ix2 k b) :=
  concatenate_pair_apply_right 0 U W h (ix2 k' b) rfl rfl (ix2 k b)
    (fun ax hax => by
      match ax, hax with
      | ⟨0, _⟩, hax => exact absurd rfl hax
      | ⟨1, _⟩, _ => rfl)
    (by show k.val + d = k'.val; omega)

/-- The contraction of `[X | Y]` against `[U ; W]` over the long axis is the contraction of `X` against `U` plus that of
    `Y` against `W`, entry by entry, in any commutative additive monoid with a product. -/
theorem sum_concat_contraction {β : Type} [AddCommMonoid β] [Mul β] {M d D N : Nat} (hD : D = d + d)
    (X Y : (⟨2, ![M, d]⟩ : Shape).Idx → β) (U W : (⟨2, ![d, N]⟩ : Shape).Idx → β)
    (hx : Shape.Concatenates [⟨2, ![M, d]⟩, ⟨2, ![M, d]⟩] ⟨2, ![M, D]⟩ 1)
    (hw : Shape.Concatenates [⟨2, ![d, N]⟩, ⟨2, ![d, N]⟩] ⟨2, ![D, N]⟩ 0) (a : Fin M) (b : Fin N) :
    ∑ k : Fin D, concatenate ⟨2, ![M, D]⟩ 1 [⟨⟨2, ![M, d]⟩, X⟩, ⟨⟨2, ![M, d]⟩, Y⟩] hx (ix2 a k)
        * concatenate ⟨2, ![D, N]⟩ 0 [⟨⟨2, ![d, N]⟩, U⟩, ⟨⟨2, ![d, N]⟩, W⟩] hw (ix2 k b)
      = ∑ k : Fin d, X (ix2 a k) * U (ix2 k b) + ∑ k : Fin d, Y (ix2 a k) * W (ix2 k b) := by
  subst hD
  rw [Fin.sum_univ_add]
  congr 1
  · refine Finset.sum_congr rfl fun k _ => ?_
    rw [concat_cols_left X Y hx a k (Fin.castAdd d k) rfl, concat_rows_left U W hw b k (Fin.castAdd d k) rfl]
  · refine Finset.sum_congr rfl fun k _ => ?_
    rw [concat_cols_right X Y hx a k (Fin.natAdd d k) rfl, concat_rows_right U W hw b k (Fin.natAdd d k) rfl]

end Cert.Lib

end
-- ==== Proof.RefPairs.lean ====
/-
  THE REFERENCE PROGRAM'S PAIR SCORES, READ AT ONE PAIR.

  A pair list is a [2, 200000] array of words: row 0 the first members, row 1 the second members. For pair e the
  program takes each member's word, shifts a negative word up by 100000, and gathers the row of the embedding table
  that the shifted word selects (read signed, clamped into 0 … 99999: the node of the word). The two gathered rows
  are laid side by side into one row of 256 entries, contracted against the 256 pair weights, and the pair bias is
  added.

  A sum over 256 terms is the sum of its first 128 terms plus the sum of its last 128. The first 128 columns of the
  joined row are the first member's row, the last 128 the second member's row, so the contraction is

      ∑ c < 128, H (node p, c) · w (c)  +  ∑ c < 128, H (node q, c) · w (128 + c),

  and with the bias that is the specification's score of the pair (p, q). Only the commutative-monoid laws of the
  sum are used, so nothing is assumed finite. H is any table that the embedding equals entry by entry.

  The second pair list goes through the same operations as the first, so its scores are the same function of its
  own array.
-/
import proofs.«129625_j60988535603969_2_alg».proof.Proof.RefReadPatched
import proofs.«129625_j60988535603969_2_alg».proof.Proof.Spec
import proofs.«129625_j60988535603969_2_alg».proof.Proof.LibIndexedRows
import proofs.«129625_j60988535603969_2_alg».proof.Proof.LibConcatContraction
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx Cert.Lib

/-- Two rank-1 indices with the same coordinate are the same index. -/
private theorem pidx1_ext {n : Nat} {u v : (⟨1, ![n]⟩ : Shape).Idx} (h : (u 0).val = (v 0).val) : u = v := by
  funext a
  match a with
  | ⟨0, _⟩ => exact Fin.ext h

/-- Two rank-2 indices with the same coordinates are the same index. -/
private theorem pidx2_ext {a b : Nat} {u v : (⟨2, ![a, b]⟩ : Shape).Idx} (h0 : (u 0).val = (v 0).val)
    (h1 : (u 1).val = (v 1).val) : u = v := by
  funext c
  match c with
  | ⟨0, _⟩ => exact Fin.ext h0
  | ⟨1, _⟩ => exact Fin.ext h1

/-- A sum over 256 terms is the sum of the first 128 plus the sum of the last 128. -/
private theorem sum_fin256_split {β : Type} [AddCommMonoid β] (g : Fin 256 → β) :
    ∑ k : Fin 256, g k
      = ∑ c : Fin 128, g ⟨c.val, by omega⟩ + ∑ c : Fin 128, g ⟨128 + c.val, by omega⟩ :=
  Fin.sum_univ_add (a := 128) (b := 128) g

/-- The first members of a pair list, as a flat list, at pair e. -/
theorem pair_fst_at (x2 : (⟨S2x200000, .i32⟩ : BufTy).Contents (Elt Ideal)) (e : Fin 200000) :
    val_main_v92 (F := Ideal) x2 (ix1 e) = x2 (ix2 0 e) := by
  rw [val_main_v92_apply, val_main_v91_apply]
  exact congrArg x2 (pidx2_ext rfl (Nat.mod_eq_of_lt e.isLt))

/-- The second members of a pair list, as a flat list, at pair e. -/
theorem pair_snd_at (x2 : (⟨S2x200000, .i32⟩ : BufTy).Contents (Elt Ideal)) (e : Fin 200000) :
    val_main_v101 (F := Ideal) x2 (ix1 e) = x2 (ix2 1 e) := by
  rw [val_main_v101_apply, val_main_v100_apply]
  exact congrArg x2 (pidx2_ext rfl (Nat.mod_eq_of_lt e.isLt))

/-- The first member of pair e with a negative word shifted up. -/
theorem pair_wrap_fst (x2 : (⟨S2x200000, .i32⟩ : BufTy).Contents (Elt Ideal)) (e : Fin 200000) :
    val_main_v97 (F := Ideal) x2 (ix1 e) = Spec.wrap (x2 (ix2 0 e)) := by
  rw [val_main_v97_apply, val_main_v94_apply, val_main_v96_apply, val_main_v93_apply, val_main_v95_apply,
    val_main_c_16_apply, val_main_c_17_apply, pair_fst_at]
  rfl

/-- The second member of pair e with a negative word shifted up. -/
theorem pair_wrap_snd (x2 : (⟨S2x200000, .i32⟩ : BufTy).Contents (Elt Ideal)) (e : Fin 200000) :
    val_main_v106 (F := Ideal) x2 (ix1 e) = Spec.wrap (x2 (ix2 1 e)) := by
  rw [val_main_v106_apply, val_main_v103_apply, val_main_v105_apply, val_main_v102_apply, val_main_v104_apply,
    val_main_c_18_apply, val_main_c_19_apply, pair_snd_at]
  rfl

/-- The embedding row the first member of pair e selects, at column c. -/
theorem pair_row_fst (x0 : (⟨S100000x256, .f32⟩ : BufTy).Contents (Elt Ideal)) (x1 : (⟨S2x1600000, .i32⟩ : BufTy).Contents (Elt Ideal))
    (x2 : (⟨S2x200000, .i32⟩ : BufTy).Contents (Elt Ideal))
    (x4 : (⟨S256x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (H : Fin 100000 → Fin 128 → EReal)
    (hH : ∀ i f, val_main_v84 (F := Ideal) x0 x1 x4 x5 x6 x7 (ix2 i f) = H i f) (e : Fin 200000) (c : Fin 128) :
    val_main_v99 (F := Ideal) x0 x1 x2 x4 x5 x6 x7 (ix2 e c) = H (Spec.node (x2 (ix2 0 e))) c := by
  unfold val_main_v99
  rw [rowGather_apply (by norm_num : 0 < 100000) gather_S100000x128_S200000x1_S200000x128_1_0_n_n_0_1_1128
      rfl rfl rfl rfl rfl rfl,
    val_main_v98_apply, show idx_main_v98 (ix2 e (0 : Fin 1)) = ix1 e from pidx1_ext rfl, pair_wrap_fst, hH]
  rfl

/-- The embedding row the second member of pair e selects, at column c. -/
theorem pair_row_snd (x0 : (⟨S100000x256, .f32⟩ : BufTy).Contents (Elt Ideal)) (x1 : (⟨S2x1600000, .i32⟩ : BufTy).Contents (Elt Ideal))
    (x2 : (⟨S2x200000, .i32⟩ : BufTy).Contents (Elt Ideal))
    (x4 : (⟨S256x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (H : Fin 100000 → Fin 128 → EReal)
    (hH : ∀ i f, val_main_v84 (F := Ideal) x0 x1 x4 x5 x6 x7 (ix2 i f) = H i f) (e : Fin 200000) (c : Fin 128) :
    val_main_v108 (F := Ideal) x0 x1 x2 x4 x5 x6 x7 (ix2 e c) = H (Spec.node (x2 (ix2 1 e))) c := by
  unfold val_main_v108
  rw [rowGather_apply (by norm_num : 0 < 100000) gather_S100000x128_S200000x1_S200000x128_1_0_n_n_0_1_1128
      rfl rfl rfl rfl rfl rfl,
    val_main_v107_apply, show idx_main_v107 (ix2 e (0 : Fin 1)) = ix1 e from pidx1_ext rfl, pair_wrap_snd, hH]
  rfl

/-- The two selected rows side by side, at (e, k) for k in the first half: the first member's row. -/
theorem pair_cat_left (x0 : (⟨S100000x256, .f32⟩ : BufTy).Contents (Elt Ideal)) (x1 : (⟨S2x1600000, .i32⟩ : BufTy).Contents (Elt Ideal))
    (x2 : (⟨S2x200000, .i32⟩ : BufTy).Contents (Elt Ideal))
    (x4 : (⟨S256x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (H : Fin 100000 → Fin 128 → EReal)
    (hH : ∀ i f, val_main_v84 (F := Ideal) x0 x1 x4 x5 x6 x7 (ix2 i f) = H i f) (e : Fin 200000) (c : Fin 128) :
    val_main_v109 (F := Ideal) x0 x1 x2 x4 x5 x6 x7 (ix2 e (⟨c.val, by omega⟩ : Fin 256))
      = H (Spec.node (x2 (ix2 0 e))) c := by
  unfold val_main_v109
  rw [concat_cols_left _ _ concatenates_S200000x128_S200000x128_S200000x256_d1 e c (⟨c.val, by omega⟩ : Fin 256) rfl,
    pair_row_fst x0 x1 x2 x4 x5 x6 x7 H hH]

/-- … and for k in the second half: the second member's row. -/
theorem pair_cat_right (x0 : (⟨S100000x256, .f32⟩ : BufTy).Contents (Elt Ideal)) (x1 : (⟨S2x1600000, .i32⟩ : BufTy).Contents (Elt Ideal))
    (x2 : (⟨S2x200000, .i32⟩ : BufTy).Contents (Elt Ideal))
    (x4 : (⟨S256x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (H : Fin 100000 → Fin 128 → EReal)
    (hH : ∀ i f, val_main_v84 (F := Ideal) x0 x1 x4 x5 x6 x7 (ix2 i f) = H i f) (e : Fin 200000) (c : Fin 128) :
    val_main_v109 (F := Ideal) x0 x1 x2 x4 x5 x6 x7 (ix2 e (⟨128 + c.val, by omega⟩ : Fin 256))
      = H (Spec.node (x2 (ix2 1 e))) c := by
  unfold val_main_v109
  rw [concat_cols_right _ _ concatenates_S200000x128_S200000x128_S200000x256_d1 e c (⟨128 + c.val, by omega⟩ : Fin 256) rfl,
    pair_row_snd x0 x1 x2 x4 x5 x6 x7 H hH]

/-- The score of pair e: the joined rows against the pair weights split into their two halves, plus the pair bias. -/
theorem pair_score_at (x0 : (⟨S100000x256, .f32⟩ : BufTy).Contents (Elt Ideal)) (x1 : (⟨S2x1600000, .i32⟩ : BufTy).Contents (Elt Ideal))
    (x2 : (⟨S2x200000, .i32⟩ : BufTy).Contents (Elt Ideal))
    (x4 : (⟨S256x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x10 : (⟨S256x1, .f32⟩ : BufTy).Contents (Elt Ideal)) (x11 : (⟨S1, .f32⟩ : BufTy).Contents (Elt Ideal))
    (H : Fin 100000 → Fin 128 → EReal)
    (hH : ∀ i f, val_main_v84 (F := Ideal) x0 x1 x4 x5 x6 x7 (ix2 i f) = H i f) (e : Fin 200000) :
    val_main_v133 (F := Ideal) x0 x1 x2 x4 x5 x6 x7 x10 x11 (ix1 e)
      = Spec.pairScore H x10 x11 (x2 (ix2 0 e)) (x2 (ix2 1 e)) := by
  have hb : val_main_v131 (F := Ideal) x11 (ix2 e 0) = x11 (ix1 0) := by
    rw [val_main_v131_apply, val_main_v130_apply]
    exact congrArg x11 (pidx1_ext rfl)
  have hl : ∀ k : Fin 256, lidx_main_v129 (ix2 e (0 : Fin 1)) k = ix2 e k := fun k => pidx2_ext rfl rfl
  have hr : ∀ k : Fin 256, ridx_main_v129 (ix2 e (0 : Fin 1)) k = ix2 k 0 := fun k => pidx2_ext rfl rfl
  rw [val_main_v133_apply, show idx_main_v133 (ix1 e) = ix2 e 0 from pidx2_ext (Nat.div_one _) rfl,
    val_main_v132_apply, Ideal.addf_def, hb, val_main_v129_apply]
  simp only [hl, hr]
  rw [sum_fin256_split]
  simp only [pair_cat_left x0 x1 x2 x4 x5 x6 x7 H hH, pair_cat_right x0 x1 x2 x4 x5 x6 x7 H hH]
  rfl

/-- The pair scores of the first pair list: the specification's scores of the table H, whenever H is the embedding. -/
theorem ref_pairs_pos (x0 : (⟨S100000x256, .f32⟩ : BufTy).Contents (Elt Ideal)) (x1 : (⟨S2x1600000, .i32⟩ : BufTy).Contents (Elt Ideal))
    (x2 : (⟨S2x200000, .i32⟩ : BufTy).Contents (Elt Ideal))
    (x4 : (⟨S256x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x10 : (⟨S256x1, .f32⟩ : BufTy).Contents (Elt Ideal)) (x11 : (⟨S1, .f32⟩ : BufTy).Contents (Elt Ideal))
    (H : Fin 100000 → Fin 128 → EReal)
    (hH : ∀ i f, val_main_v84 (F := Ideal) x0 x1 x4 x5 x6 x7 (ix2 i f) = H i f) :
    val_main_v133 (F := Ideal) x0 x1 x2 x4 x5 x6 x7 x10 x11 = Cert.Spec.outPairs H x10 x11 x2 := by
  funext j
  obtain ⟨e, rfl⟩ : ∃ e : Fin 200000, j = ix1 e := ⟨j 0, eq_ix1 j⟩
  exact pair_score_at x0 x1 x2 x4 x5 x6 x7 x10 x11 H hH e

/-- The second pair list goes through the same operations as the first. -/
theorem pairs_neg_eq (x0 : (⟨S100000x256, .f32⟩ : BufTy).Contents (Elt Ideal)) (x1 : (⟨S2x1600000, .i32⟩ : BufTy).Contents (Elt Ideal))
    (x3 : (⟨S2x200000, .i32⟩ : BufTy).Contents (Elt Ideal))
    (x4 : (⟨S256x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x10 : (⟨S256x1, .f32⟩ : BufTy).Contents (Elt Ideal)) (x11 : (⟨S1, .f32⟩ : BufTy).Contents (Elt Ideal)) :
    val_main_v138 (F := Ideal) x0 x1 x3 x4 x5 x6 x7 x10 x11 = val_main_v133 (F := Ideal) x0 x1 x3 x4 x5 x6 x7 x10 x11 := rfl

/-- The pair scores of the second pair list. -/
theorem ref_pairs_neg (x0 : (⟨S100000x256, .f32⟩ : BufTy).Contents (Elt Ideal)) (x1 : (⟨S2x1600000, .i32⟩ : BufTy).Contents (Elt Ideal))
    (x3 : (⟨S2x200000, .i32⟩ : BufTy).Contents (Elt Ideal))
    (x4 : (⟨S256x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x10 : (⟨S256x1, .f32⟩ : BufTy).Contents (Elt Ideal)) (x11 : (⟨S1, .f32⟩ : BufTy).Contents (Elt Ideal))
    (H : Fin 100000 → Fin 128 → EReal)
    (hH : ∀ i f, val_main_v84 (F := Ideal) x0 x1 x4 x5 x6 x7 (ix2 i f) = H i f) :
    val_main_v138 (F := Ideal) x0 x1 x3 x4 x5 x6 x7 x10 x11 = Cert.Spec.outPairs H x10 x11 x3 :=
  (pairs_neg_eq x0 x1 x3 x4 x5 x6 x7 x10 x11).trans (ref_pairs_pos x0 x1 x3 x4 x5 x6 x7 x10 x11 H hH)

end Cert.ReferenceIdeal.RefValue

end
-- ==== Proof.FiniteInputs.lean ====
/-
  FINITE INPUTS ARE REAL NUMBERS.

  The precondition of the claim is the printed predicate `finite_inputs`: for each float argument `x` it takes
  `|x| < +∞` at every element, reduces that array of bits by `and` into one bit (`jnp.all`), and takes the `and` of the
  nine bits so obtained. The claim supposes that the result is the bit 1.

  Read at the idealized floats, where a float is an extended real, that hypothesis says of every element `x i` of every
  float argument that `max (x i) (-(x i)) < ⊤`. An extended real is `⊥`, a real number, or `⊤`; at `⊥` and at `⊤` the
  maximum of the value and its negation is `⊤`, which is not below `⊤`; so `x i` is a real number.

  The steps: `and` of two bits is 1 only if both are (`IntOp.andi_eq_one`), so each argument's `jnp.all` bit is 1; a
  reduction by `and` over all axes that gives 1 met a 1 at every index (`Host.reduce_andi_all`), so each comparison
  bit is 1; the pattern `0x7F800000` denotes `⊤`; and the case split on the extended real.
-/
import proofs.«129625_j60988535603969_2_alg».proof.Pre_finite_inputs
import Idealize.ShloMosaic.Lib.ReduceAll
import Idealize.ShloMosaic.Lib.ValueIdx
import Idealize.ShloMosaic.PureOps.Ideal

noncomputable section

namespace Cert.FiniteInputs

open Idealize.ShloMosaic Idealize.ShloMosaic.ValueIdx
open Cert.Pre_finite_inputs

/-- The result of a reduction over all axes has one index. -/
instance : Subsingleton S_.Idx := ⟨fun a b => funext fun d => d.elim0⟩

/-- One value: if `|x| < +∞` holds (the comparison bit is 1), then `x` is a real number. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe r => exact ⟨r, rfl⟩
  | top => simp at h

/-- One array, of any shape: if `jnp.all(|x| < +∞)` is 1, every element of `x` is a real number. -/
theorem real_of_all_finite {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi
          (cmpf .olt (Host.absf x) (broadcastInDim s ![] hb (constant (F := Ideal) S_ .f32 0x7F800000#32)))
          (constantI S_ 1 1#1) hr hu ix0 = 1#1) :
    ∀ i, ∃ r : ℝ, x i = (r : EReal) := fun i =>
  real_of_abs_lt_inf (x i) (Host.reduce_andi_all _ _ hr hu ix0 h i)

variable [Facts]

/-- Every element of every float argument of the printed predicate is a real number, when the predicate's bit is 1:
    all nine float arguments, in argument order (`x0`, `x4`, …, `x11`; the integer arguments `x1`, `x2`, `x3` are not
    examined by the predicate). -/
theorem real_of_finite_all
    (x0 : FVec Ideal S100000x256 .f32) (x1 : IVec S2x1600000 32) (x2 : IVec S2x200000 32) (x3 : IVec S2x200000 32)
    (x4 : FVec Ideal S256x128 .f32) (x5 : FVec Ideal S128 .f32) (x6 : FVec Ideal S128x128 .f32)
    (x7 : FVec Ideal S128 .f32) (x8 : FVec Ideal S128x10 .f32) (x9 : FVec Ideal S10 .f32)
    (x10 : FVec Ideal S256x1 .f32) (x11 : FVec Ideal S1 .f32)
    (h : Cert.Pre_finite_inputs.fn (F := Ideal) x0 x1 x2 x3 x4 x5 x6 x7 x8 x9 x10 x11 = fun _ => 1#1) :
    (∀ i, ∃ r : ℝ, x0 i = (r : EReal)) ∧ (∀ i, ∃ r : ℝ, x4 i = (r : EReal)) ∧ (∀ i, ∃ r : ℝ, x5 i = (r : EReal))
      ∧ (∀ i, ∃ r : ℝ, x6 i = (r : EReal)) ∧ (∀ i, ∃ r : ℝ, x7 i = (r : EReal)) ∧ (∀ i, ∃ r : ℝ, x8 i = (r : EReal))
      ∧ (∀ i, ∃ r : ℝ, x9 i = (r : EReal)) ∧ (∀ i, ∃ r : ℝ, x10 i = (r : EReal))
      ∧ (∀ i, ∃ r : ℝ, x11 i = (r : EReal)) := by
  have h0 := congrFun h ix0
  dsimp only [fn, fn_part1, fn_part2, andi] at h0
  simp only [IntOp.andi_eq_one] at h0
  obtain ⟨⟨⟨⟨⟨⟨⟨⟨a0, a4⟩, a5⟩, a6⟩, a7⟩, a8⟩, a9⟩, a10⟩, a11⟩ := h0
  exact ⟨real_of_all_finite x0 _ _ _ a0, real_of_all_finite x4 _ _ _ a4, real_of_all_finite x5 _ _ _ a5,
    real_of_all_finite x6 _ _ _ a6, real_of_all_finite x7 _ _ _ a7, real_of_all_finite x8 _ _ _ a8,
    real_of_all_finite x9 _ _ _ a9, real_of_all_finite x10 _ _ _ a10, real_of_all_finite x11 _ _ _ a11⟩

/-- The five float arguments the value claim reads (node features `x0`, the two weight matrices `x4`, `x6` and the two
    bias vectors `x5`, `x7`): every element is a real number, when the predicate's bit is 1. -/
theorem real_of_finite
    (x0 : FVec Ideal S100000x256 .f32) (x1 : IVec S2x1600000 32) (x2 : IVec S2x200000 32) (x3 : IVec S2x200000 32)
    (x4 : FVec Ideal S256x128 .f32) (x5 : FVec Ideal S128 .f32) (x6 : FVec Ideal S128x128 .f32)
    (x7 : FVec Ideal S128 .f32) (x8 : FVec Ideal S128x10 .f32) (x9 : FVec Ideal S10 .f32)
    (x10 : FVec Ideal S256x1 .f32) (x11 : FVec Ideal S1 .f32)
    (h : Cert.Pre_finite_inputs.fn (F := Ideal) x0 x1 x2 x3 x4 x5 x6 x7 x8 x9 x10 x11 = fun _ => 1#1) :
    (∀ i, ∃ r : ℝ, x0 i = (r : EReal)) ∧ (∀ i, ∃ r : ℝ, x4 i = (r : EReal)) ∧ (∀ i, ∃ r : ℝ, x5 i = (r : EReal))
      ∧ (∀ i, ∃ r : ℝ, x6 i = (r : EReal)) ∧ (∀ i, ∃ r : ℝ, x7 i = (r : EReal)) := by
  obtain ⟨b0, b4, b5, b6, b7, -⟩ := real_of_finite_all x0 x1 x2 x3 x4 x5 x6 x7 x8 x9 x10 x11 h
  exact ⟨b0, b4, b5, b6, b7⟩

end Cert.FiniteInputs

end
-- ==== Proof.lean ====
/-
  The certificate of a two-layer graph convolution with a class head and a pair head: a tiled kernel against its plain
  reference, equal as exact extended-real values.

  Both programs compute, for 100000 nodes and 1600000 directed edges: degree^(-1/2) with one self-loop per node; two
  symmetric-normalised convolutions (a matrix product, messages gathered along the edges and summed at their destinations,
  a bias; relu between the two); the log-softmax class scores of relu (embedding) · Wcls + bcls; and for each positive and
  negative pair of nodes the score [embedding p | embedding q] · Wlink + blink. They differ in how: the reference appends
  one edge (i, i) per node to the edge list and weights every message by dinv (source) · dinv (destination); the kernel
  scales rows by dinv before gathering, sums the true edges only, multiplies node i's sum by dinv i afterwards and adds the
  self-loop's share dinv i · dinv i · T i separately — equal by distributivity, which on the extended reals needs the
  tables real: that is where the precondition (finite inputs) is used, through both layers. The reference contracts the
  256-wide concatenated pair rows against Wlink; the kernel contracts the embedding once against the two halves of Wlink
  and gathers two scalars per pair — equal by splitting a finite sum, with no finiteness. The kernel's three matrix
  products run block by block over twenty row blocks into zero accumulators: at exact values each is the whole product.
  The idealization rewrote nothing, so the kernel's idealized program is its own text read at exact values.
-/
import proofs.«129625_j60988535603969_2_alg».proof.Defs
import proofs.«129625_j60988535603969_2_alg».proof.Proof.Gen.Kernel
import proofs.«129625_j60988535603969_2_alg».proof.Proof.Gen.Kernel.Frame
import proofs.«129625_j60988535603969_2_alg».proof.Proof.Gen.KernelIdeal
import proofs.«129625_j60988535603969_2_alg».proof.Proof.Gen.KernelIdeal.Frame
import proofs.«129625_j60988535603969_2_alg».proof.Proof.Gen.ReferenceIdeal
import proofs.«129625_j60988535603969_2_alg».proof.Proof.Gen.Pre_finite_inputs
import proofs.«129625_j60988535603969_2_alg».proof.Proof.KernelRun
import proofs.«129625_j60988535603969_2_alg».proof.Proof.KernelValue
import proofs.«129625_j60988535603969_2_alg».proof.Proof.RefResults
import proofs.«129625_j60988535603969_2_alg».proof.Proof.RefLayers
import proofs.«129625_j60988535603969_2_alg».proof.Proof.RefHeads
import proofs.«129625_j60988535603969_2_alg».proof.Proof.RefPairs
import proofs.«129625_j60988535603969_2_alg».proof.Proof.FiniteInputs
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments alone. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is host operations only: its run, with the three results forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2)
    (Cert.ReferenceIdeal.RefValue.run (F := Ideal) m ρ)

/-- At exact values, from memories that agree on the twelve arguments and hold finite floats, both programs end with the
    class scores, the positive pairs' scores and the negative pairs' scores of the specification. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.outClasses (Cert.Spec.embed (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.Spec.outPairs (Cert.Spec.embed (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg2)),
    fun c => Cert.Spec.outPairs (Cert.Spec.embed (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg3)),
    ?_, ?_⟩
  · exact (θ_run Cert.KernelIdeal.defs _ _).mono
      (fun r h c => ⟨(h c).1.trans (Cert.KernelIdeal.Results.classes m ρ c),
        (h c).2.1.trans (Cert.KernelIdeal.Results.pairsPos m ρ c),
        (h c).2.2.1.trans (Cert.KernelIdeal.Results.pairsNeg m ρ c), (h c).2.2.2⟩)
      (Cert.KernelIdeal.Results.run (F := Ideal) m ρ)
  · refine (θ_run Cert.ReferenceIdeal.defs _ _).mono (fun r h c => ?_) (Cert.ReferenceIdeal.RefValue.run (F := Ideal) m' ρ')
    obtain ⟨h0, h1, h2, hargs⟩ := h c
    obtain ⟨a0, a1, a2, a3, a4, a5, a6, a7, a8, a9, a10, a11⟩ := hagree c
    obtain ⟨r0, r4, r5, r6, _r7⟩ := Cert.FiniteInputs.real_of_finite _ _ _ _ _ _ _ _ _ _ _ _ (hpre c)
    have hH := fun i f => Cert.ReferenceIdeal.RefValue.ref_embed (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) r0 r4 r5 r6 i f
    refine ⟨h0.trans ?_, h1.trans ?_, h2.trans ?_, hargs⟩
    · rw [a0, a1, a4, a5, a6, a7, a8, a9]
      exact Cert.ReferenceIdeal.RefValue.ref_classes _ _ _ _ _ _ _ hH _ _
    · rw [a0, a1, a2, a4, a5, a6, a7, a10, a11]
      exact Cert.ReferenceIdeal.RefValue.ref_pairs_pos _ _ _ _ _ _ _ _ _ _ hH
    · rw [a0, a1, a3, a4, a5, a6, a7, a10, a11]
      exact Cert.ReferenceIdeal.RefValue.ref_pairs_neg _ _ _ _ _ _ _ _ _ _ hH

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
